-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v286) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12x64x201x201 : Shape := ⟨4, ![12, 64, 201, 201]⟩
abbrev S64x201x768 : Shape := ⟨3, ![64, 201, 768]⟩
abbrev S_ : Shape := ⟨0, ![]⟩

class Facts : Prop where
  bcast_S_S12x64x201x201 : S_.BroadcastsInDim S12x64x201x201 (![] : Fin 0 → Fin S12x64x201x201.rank)
  reducesTo_S12x64x201x201_S_d0_1_2_3 : S12x64x201x201.ReducesTo [0, 1, 2, 3] S_
  h_S_ : 0 < S_.numel
  bcast_S_S64x201x768 : S_.BroadcastsInDim S64x201x768 (![] : Fin 0 → Fin S64x201x768.rank)
  reducesTo_S64x201x768_S_d0_1_2 : S64x201x768.ReducesTo [0, 1, 2] S_

variable [Facts]

def fn {F : FTy → Type} [FloatOps F] (main_arg0 : FVec F S12x64x201x201 .f32) (main_arg1 : FVec F S64x201x768 .f32) : IVec S_ 1 :=
  let main_v0 : FVec F S12x64x201x201 .f32 := Host.absf main_arg0
  let main_cst : FVec F S_ .f32 := constant S_ .f32 0x7F800000#32
  let main_v1 : FVec F S12x64x201x201 .f32 := broadcastInDim S12x64x201x201 ![] bcast_S_S12x64x201x201 main_cst
  let main_v2 : IVec S12x64x201x201 1 := cmpf .olt main_v0 main_v1
  let main_c : IVec S_ 1 := constantI S_ 1 1#1
  let main_v3 : IVec S_ 1 := (fun x v => Host.reduce IntOp.andi x v reducesTo_S12x64x201x201_S_d0_1_2_3 h_S_) main_v2 main_c
  let main_v4 : FVec F S64x201x768 .f32 := Host.absf main_arg1
  let main_cst_0 : FVec F S_ .f32 := constant S_ .f32 0x7F800000#32
  let main_v5 : FVec F S64x201x768 .f32 := broadcastInDim S64x201x768 ![] bcast_S_S64x201x768 main_cst_0
  let main_v6 : IVec S64x201x768 1 := cmpf .olt main_v4 main_v5
  let main_c_1 : IVec S_ 1 := constantI S_ 1 1#1
  let main_v7 : IVec S_ 1 := (fun x v => Host.reduce IntOp.andi x v reducesTo_S64x201x768_S_d0_1_2 h_S_) main_v6 main_c_1
  let main_v8 : IVec S_ 1 := andi main_v3 main_v7
  main_v8
-- ==== Kernel.lean ====
abbrev S12x64x201x201 : Shape := ⟨4, ![12, 64, 201, 201]⟩
abbrev S64x201x768 : Shape := ⟨3, ![64, 201, 768]⟩
abbrev S4x201 : Shape := ⟨2, ![4, 201]⟩
abbrev S64x4x201 : Shape := ⟨3, ![64, 4, 201]⟩
abbrev S1x32x201x201 : Shape := ⟨4, ![1, 32, 201, 201]⟩
abbrev S32x4x201 : Shape := ⟨3, ![32, 4, 201]⟩
abbrev S32x201x201 : Shape := ⟨3, ![32, 201, 201]⟩
abbrev S32x1x201 : Shape := ⟨3, ![32, 1, 201]⟩
abbrev S1x4x201 : Shape := ⟨3, ![1, 4, 201]⟩
abbrev S64x4x196 : Shape := ⟨3, ![64, 4, 196]⟩
abbrev S64x196x768 : Shape := ⟨3, ![64, 196, 768]⟩
abbrev S64x4x768 : Shape := ⟨3, ![64, 4, 768]⟩
abbrev S64x196x128 : Shape := ⟨3, ![64, 196, 128]⟩
abbrev S64x4x128 : Shape := ⟨3, ![64, 4, 128]⟩

abbrev nBuf : Space → Nat
  | .hbm => 7
  | .vmem => 11
  | .smem => 0
  | _ => 0

abbrev bufTy : (tb : Table) → Fin (tcTables nBuf tb) → BufTy
  | .hbm, ⟨0, _⟩ => ⟨S12x64x201x201, .f32⟩
  | .hbm, ⟨1, _⟩ => ⟨S64x201x768, .f32⟩
  | .hbm, ⟨2, _⟩ => ⟨S4x201, .f32⟩
  | .hbm, ⟨3, _⟩ => ⟨S64x4x201, .f32⟩
  | .hbm, ⟨4, _⟩ => ⟨S64x4x196, .f32⟩
  | .hbm, ⟨5, _⟩ => ⟨S64x196x768, .f32⟩
  | .hbm, ⟨6, _⟩ => ⟨S64x4x768, .f32⟩
  | .local _ .vmem, ⟨0, _⟩ => ⟨S4x201, .f32⟩
  | .local _ .vmem, ⟨1, _⟩ => ⟨S1x32x201x201, .f32⟩
  | .local _ .vmem, ⟨2, _⟩ => ⟨S1x32x201x201, .f32⟩
  | .local _ .vmem, ⟨3, _⟩ => ⟨S32x4x201, .f32⟩
  | .local _ .vmem, ⟨4, _⟩ => ⟨S32x4x201, .f32⟩
  | .local _ .vmem, ⟨5, _⟩ => ⟨S32x4x201, .f32⟩
  | .local _ .vmem, ⟨6, _⟩ => ⟨S64x4x196, .f32⟩
  | .local _ .vmem, ⟨7, _⟩ => ⟨S64x196x128, .f32⟩
  | .local _ .vmem, ⟨8, _⟩ => ⟨S64x196x128, .f32⟩
  | .local _ .vmem, ⟨9, _⟩ => ⟨S64x4x128, .f32⟩
  | .local _ .vmem, ⟨10, _⟩ => ⟨S64x4x128, .f32⟩
  | _, _ => ⟨S12x64x201x201, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 12], ![false, false]⟩

def k0_cond3 (i : grid0.Coords) : BitVec 1 :=
  let arg1 : BitVec 32 := BitVec.ofNat 32 (i 1).val
  let c11_i32 : BitVec 32 := 11#32
  let v6 : BitVec 1 := Scalar.cmpi .eq arg1 c11_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.subi c11_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x201 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x201x201 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x4x201 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![6], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S64x4x196 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x196x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x4x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x32x201x201_S1x32x201x201_0_0_0_0 : ∀ a, (![0, 0, 0, 0] : Fin 4 → Nat) a + S1x32x201x201.size a ≤ S1x32x201x201.size a
  h_S1x32x201x201 : 0 < S1x32x201x201.numel
  shapeCasts_S1x32x201x201_S32x201x201 : S1x32x201x201.ShapeCasts S32x201x201
  slices_S32x201x201_o0_1_0_S32x1x201 : S32x201x201.Slices ![0, 1, 0] S32x1x201
  slices_S32x201x201_o0_2_0_S32x1x201 : S32x201x201.Slices ![0, 2, 0] S32x1x201
  slices_S32x201x201_o0_3_0_S32x1x201 : S32x201x201.Slices ![0, 3, 0] S32x1x201
  slices_S32x201x201_o0_4_0_S32x1x201 : S32x201x201.Slices ![0, 4, 0] S32x1x201
  concatenates_S32x1x201_S32x1x201_S32x1x201_S32x1x201_S32x4x201_d1 : Shape.Concatenates [S32x1x201, S32x1x201, S32x1x201, S32x1x201] S32x4x201 1
  inb_S4x201_S4x201_0_0 : ∀ a, (![0, 0] : Fin 2 → Nat) a + S4x201.size a ≤ S4x201.size a
  h_S4x201 : 0 < S4x201.numel
  shapeCasts_S4x201_S1x4x201 : S4x201.ShapeCasts S1x4x201
  shapeCasts_S1x4x201_S1x4x201 : S1x4x201.ShapeCasts S1x4x201
  broadcasts_S1x4x201_S32x4x201 : S1x4x201.Broadcasts S32x4x201
  inb_S32x4x201_S32x4x201_0_0_0 : ∀ a, (![0, 0, 0] : Fin 3 → Nat) a + S32x4x201.size a ≤ S32x4x201.size a
  h_S32x4x201 : 0 < S32x4x201.numel
  shapeCasts_S32x4x201_S32x4x201 : S32x4x201.ShapeCasts S32x4x201
  slices_S64x4x201_S64x4x196_0_0_5 : S64x4x201.Slices ![0, 0, 5] S64x4x196
  slices_S64x201x768_S64x196x768_0_5_0 : S64x201x768.Slices ![0, 5, 0] S64x196x768
  inb_S64x4x196_S64x4x196_0_0_0 : ∀ a, (![0, 0, 0] : Fin 3 → Nat) a + S64x4x196.size a ≤ S64x4x196.size a
  h_S64x4x196 : 0 < S64x4x196.numel
  shapeCasts_S64x4x196_S64x4x196 : S64x4x196.ShapeCasts S64x4x196
  bitsLt_bf16_f32 : FTy.bits .bf16 < FTy.bits .f32
  inb_S64x196x128_S64x196x128_0_0_0 : ∀ a, (![0, 0, 0] : Fin 3 → Nat) a + S64x196x128.size a ≤ S64x196x128.size a
  h_S64x196x128 : 0 < S64x196x128.numel
  shapeCasts_S64x196x128_S64x196x128 : S64x196x128.ShapeCasts S64x196x128
  inb_S64x4x128_S64x4x128_0_0_0 : ∀ a, (![0, 0, 0] : Fin 3 → Nat) a + S64x4x128.size a ≤ S64x4x128.size a
  h_S64x4x128 : 0 < S64x4x128.numel
  dot_S32x4x201_S32x201x201_S32x4x201_2_1_1_2_0_0_wf : DotDims.WF S32x4x201 S32x201x201 S32x4x201 [2] [1] [1] [2] [0] [0]
  dot_S64x4x196_S64x196x128_S64x4x128_2_1_1_2_0_0_wf : DotDims.WF S64x4x196 S64x196x128 S64x4x128 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x201.size a ≤ S4x201.size a
  hwx0_0 : ∀ i : grid0.Coords, EltTy.bits .f32 = 32 ∨ (Rect.block (s := S4x201) S4x201.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x201x201.size a ≤ S12x64x201x201.size a
  hwx0_1 : ∀ i : grid0.Coords, EltTy.bits .f32 = 32 ∨ (Rect.block (s := S12x64x201x201) S1x32x201x201.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x4x201.size a ≤ S64x4x201.size a
  hwx0_2 : ∀ i : grid0.Coords, EltTy.bits .f32 = 32 ∨ (Rect.block (s := S64x4x201) S32x4x201.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x4x196.size a ≤ S64x4x196.size a
  hwx1_0 : ∀ i : grid1.Coords, EltTy.bits .f32 = 32 ∨ (Rect.block (s := S64x4x196) S64x4x196.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x196x128.size a ≤ S64x196x768.size a
  hwx1_1 : ∀ i : grid1.Coords, EltTy.bits .f32 = 32 ∨ (Rect.block (s := S64x196x768) S64x196x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x4x128.size a ≤ S64x4x768.size a
  hwx1_2 : ∀ i : grid1.Coords, EltTy.bits .f32 = 32 ∨ (Rect.block (s := S64x4x768) S64x4x128.size (cc1_transform_2 i) (hinb1_2 i)).WholeWords (EltTy.packing .f32)

variable [Facts₀]

def dot_S32x4x201_S32x201x201_S32x4x201_2_1_1_2_0_0 : DotDims S32x4x201 S32x201x201 S32x4x201 where
  lhsContracting := [2]
  rhsContracting := [1]
  lhsNonContracting := [1]
  rhsNonContracting := [2]
  lhsBatch := [0]
  rhsBatch := [0]
  wf := dot_S32x4x201_S32x201x201_S32x4x201_2_1_1_2_0_0_wf
def dot_S64x4x196_S64x196x128_S64x4x128_2_1_1_2_0_0 : DotDims S64x4x196 S64x196x128 S64x4x128 where
  lhsContracting := [2]
  rhsContracting := [1]
  lhsNonContracting := [1]
  rhsNonContracting := [2]
  lhsBatch := [0]
  rhsBatch := [0]
  wf := dot_S64x4x196_S64x196x128_S64x4x128_2_1_1_2_0_0_wf

abbrev win0_0 : Pipeline.Window sig grid0 :=
  Pipeline.Window.ofSpec (Memref.whole main_cst) S4x201.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x32x201x201.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x4x201.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

abbrev win1_0 : Pipeline.Window sig grid1 :=
  Pipeline.Window.ofSpec (Memref.whole main_v1) S64x4x196.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x196x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x4x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S12x64x201x201 : Shape := ⟨4, ![12, 64, 201, 201]⟩
abbrev S64x201x768 : Shape := ⟨3, ![64, 201, 768]⟩
abbrev S1 : Shape := ⟨1, ![1]⟩
abbrev S196 : Shape := ⟨1, ![196]⟩
abbrev S_ : Shape := ⟨0, ![]⟩
abbrev S197 : Shape := ⟨1, ![197]⟩
abbrev S197x1 : Shape := ⟨2, ![197, 1]⟩
abbrev S12x64x197x201 : Shape := ⟨4, ![12, 64, 197, 201]⟩
abbrev S12x64x197x197 : Shape := ⟨4, ![12, 64, 197, 197]⟩
abbrev S1x64x197x197 : Shape := ⟨4, ![1, 64, 197, 197]⟩
abbrev S64x197x197 : Shape := ⟨3, ![64, 197, 197]⟩
abbrev S64x1x196 : Shape := ⟨3, ![64, 1, 196]⟩
abbrev S64x196x768 : Shape := ⟨3, ![64, 196, 768]⟩
abbrev S64x1x768 : Shape := ⟨3, ![64, 1, 768]⟩
abbrev S98 : Shape := ⟨1, ![98]⟩
abbrev S99 : Shape := ⟨1, ![99]⟩
abbrev S99x1 : Shape := ⟨2, ![99, 1]⟩
abbrev S12x64x99x201 : Shape := ⟨4, ![12, 64, 99, 201]⟩
abbrev S12x64x99x99 : Shape := ⟨4, ![12, 64, 99, 99]⟩
abbrev S1x64x99x99 : Shape := ⟨4, ![1, 64, 99, 99]⟩
abbrev S64x99x99 : Shape := ⟨3, ![64, 99, 99]⟩
abbrev S64x1x98 : Shape := ⟨3, ![64, 1, 98]⟩
abbrev S64x98x768 : Shape := ⟨3, ![64, 98, 768]⟩
abbrev S64x5x768 : Shape := ⟨3, ![64, 5, 768]⟩
abbrev S64x4x768 : Shape := ⟨3, ![64, 4, 768]⟩

abbrev nBuf : Space → Nat
  | .hbm => 329
  | .vmem => 0
  | .smem => 0
  | _ => 0

abbrev hbmTy0_0 (i : Nat) : BufTy := match i % 128 with
  | 0 => ⟨S12x64x201x201, .f32⟩
  | 1 => ⟨S64x201x768, .f32⟩
  | 2 => ⟨S1, .i32⟩
  | 3 => ⟨S1, .i32⟩
  | 4 => ⟨S1, .i32⟩
  | 5 => ⟨S1, .i32⟩
  | 6 => ⟨S1, .i32⟩
  | 7 => ⟨S196, .i32⟩
  | 8 => ⟨S_, .i32⟩
  | 9 => ⟨S196, .i32⟩
  | 10 => ⟨S196, .i32⟩
  | 11 => ⟨S197, .i32⟩
  | 12 => ⟨S_, .i32⟩
  | 13 => ⟨S197, .i32⟩
  | 14 => ⟨S197, .i1⟩
  | 15 => ⟨S_, .i32⟩
  | 16 => ⟨S197, .i32⟩
  | 17 => ⟨S197, .i32⟩
  | 18 => ⟨S197, .i32⟩
  | 19 => ⟨S197x1, .i32⟩
  | 20 => ⟨S12x64x197x201, .f32⟩
  | 21 => ⟨S_, .i32⟩
  | 22 => ⟨S197, .i32⟩
  | 23 => ⟨S197, .i1⟩
  | 24 => ⟨S_, .i32⟩
  | 25 => ⟨S197, .i32⟩
  | 26 => ⟨S197, .i32⟩
  | 27 => ⟨S197, .i32⟩
  | 28 => ⟨S197x1, .i32⟩
  | 29 => ⟨S12x64x197x197, .f32⟩
  | 30 => ⟨S1x64x197x197, .f32⟩
  | 31 => ⟨S64x197x197, .f32⟩
  | 32 => ⟨S1x64x197x197, .f32⟩
  | 33 => ⟨S64x197x197, .f32⟩
  | 34 => ⟨S64x197x197, .f32⟩
  | 35 => ⟨S1x64x197x197, .f32⟩
  | 36 => ⟨S64x197x197, .f32⟩
  | 37 => ⟨S64x197x197, .f32⟩
  | 38 => ⟨S1x64x197x197, .f32⟩
  | 39 => ⟨S64x197x197, .f32⟩
  | 40 => ⟨S64x197x197, .f32⟩
  | 41 => ⟨S1x64x197x197, .f32⟩
  | 42 => ⟨S64x197x197, .f32⟩
  | 43 => ⟨S64x197x197, .f32⟩
  | 44 => ⟨S1x64x197x197, .f32⟩
  | 45 => ⟨S64x197x197, .f32⟩
  | 46 => ⟨S64x197x197, .f32⟩
  | 47 => ⟨S1x64x197x197, .f32⟩
  | 48 => ⟨S64x197x197, .f32⟩
  | 49 => ⟨S64x197x197, .f32⟩
  | 50 => ⟨S1x64x197x197, .f32⟩
  | 51 => ⟨S64x197x197, .f32⟩
  | 52 => ⟨S64x197x197, .f32⟩
  | 53 => ⟨S1x64x197x197, .f32⟩
  | 54 => ⟨S64x197x197, .f32⟩
  | 55 => ⟨S64x197x197, .f32⟩
  | 56 => ⟨S1x64x197x197, .f32⟩
  | 57 => ⟨S64x197x197, .f32⟩
  | 58 => ⟨S64x197x197, .f32⟩
  | 59 => ⟨S1x64x197x197, .f32⟩
  | 60 => ⟨S64x197x197, .f32⟩
  | 61 => ⟨S64x197x197, .f32⟩
  | 62 => ⟨S1x64x197x197, .f32⟩
  | 63 => ⟨S64x197x197, .f32⟩
  | 64 => ⟨S64x197x197, .f32⟩
  | 65 => ⟨S64x1x196, .f32⟩
  | 66 => ⟨S64x196x768, .f32⟩
  | 67 => ⟨S_, .f32⟩
  | 68 => ⟨S64x196x768, .f32⟩
  | 69 => ⟨S64x196x768, .f32⟩
  | 70 => ⟨S64x1x768, .f32⟩
  | 71 => ⟨S196, .i32⟩
  | 72 => ⟨S_, .i32⟩
  | 73 => ⟨S196, .i32⟩
  | 74 => ⟨S196, .i32⟩
  | 75 => ⟨S197, .i32⟩
  | 76 => ⟨S_, .i32⟩
  | 77 => ⟨S197, .i32⟩
  | 78 => ⟨S197, .i1⟩
  | 79 => ⟨S_, .i32⟩
  | 80 => ⟨S197, .i32⟩
  | 81 => ⟨S197, .i32⟩
  | 82 => ⟨S197, .i32⟩
  | 83 => ⟨S197x1, .i32⟩
  | 84 => ⟨S12x64x197x201, .f32⟩
  | 85 => ⟨S_, .i32⟩
  | 86 => ⟨S197, .i32⟩
  | 87 => ⟨S197, .i1⟩
  | 88 => ⟨S_, .i32⟩
  | 89 => ⟨S197, .i32⟩
  | 90 => ⟨S197, .i32⟩
  | 91 => ⟨S197, .i32⟩
  | 92 => ⟨S197x1, .i32⟩
  | 93 => ⟨S12x64x197x197, .f32⟩
  | 94 => ⟨S1x64x197x197, .f32⟩
  | 95 => ⟨S64x197x197, .f32⟩
  | 96 => ⟨S1x64x197x197, .f32⟩
  | 97 => ⟨S64x197x197, .f32⟩
  | 98 => ⟨S64x197x197, .f32⟩
  | 99 => ⟨S1x64x197x197, .f32⟩
  | 100 => ⟨S64x197x197, .f32⟩
  | 101 => ⟨S64x197x197, .f32⟩
  | 102 => ⟨S1x64x197x197, .f32⟩
  | 103 => ⟨S64x197x197, .f32⟩
  | 104 => ⟨S64x197x197, .f32⟩
  | 105 => ⟨S1x64x197x197, .f32⟩
  | 106 => ⟨S64x197x197, .f32⟩
  | 107 => ⟨S64x197x197, .f32⟩
  | 108 => ⟨S1x64x197x197, .f32⟩
  | 109 => ⟨S64x197x197, .f32⟩
  | 110 => ⟨S64x197x197, .f32⟩
  | 111 => ⟨S1x64x197x197, .f32⟩
  | 112 => ⟨S64x197x197, .f32⟩
  | 113 => ⟨S64x197x197, .f32⟩
  | 114 => ⟨S1x64x197x197, .f32⟩
  | 115 => ⟨S64x197x197, .f32⟩
  | 116 => ⟨S64x197x197, .f32⟩
  | 117 => ⟨S1x64x197x197, .f32⟩
  | 118 => ⟨S64x197x197, .f32⟩
  | 119 => ⟨S64x197x197, .f32⟩
  | 120 => ⟨S1x64x197x197, .f32⟩
  | 121 => ⟨S64x197x197, .f32⟩
  | 122 => ⟨S64x197x197, .f32⟩
  | 123 => ⟨S1x64x197x197, .f32⟩
  | 124 => ⟨S64x197x197, .f32⟩
  | 125 => ⟨S64x197x197, .f32⟩
  | 126 => ⟨S1x64x197x197, .f32⟩
  | 127 => ⟨S64x197x197, .f32⟩
  | _ => ⟨S12x64x201x201, .f32⟩

abbrev hbmTy0_1 (i : Nat) : BufTy := match i % 128 with
  | 0 => ⟨S64x197x197, .f32⟩
  | 1 => ⟨S64x1x196, .f32⟩
  | 2 => ⟨S64x196x768, .f32⟩
  | 3 => ⟨S_, .f32⟩
  | 4 => ⟨S64x196x768, .f32⟩
  | 5 => ⟨S64x196x768, .f32⟩
  | 6 => ⟨S64x1x768, .f32⟩
  | 7 => ⟨S98, .i32⟩
  | 8 => ⟨S_, .i32⟩
  | 9 => ⟨S98, .i32⟩
  | 10 => ⟨S98, .i32⟩
  | 11 => ⟨S99, .i32⟩
  | 12 => ⟨S_, .i32⟩
  | 13 => ⟨S99, .i32⟩
  | 14 => ⟨S99, .i1⟩
  | 15 => ⟨S_, .i32⟩
  | 16 => ⟨S99, .i32⟩
  | 17 => ⟨S99, .i32⟩
  | 18 => ⟨S99, .i32⟩
  | 19 => ⟨S99x1, .i32⟩
  | 20 => ⟨S12x64x99x201, .f32⟩
  | 21 => ⟨S_, .i32⟩
  | 22 => ⟨S99, .i32⟩
  | 23 => ⟨S99, .i1⟩
  | 24 => ⟨S_, .i32⟩
  | 25 => ⟨S99, .i32⟩
  | 26 => ⟨S99, .i32⟩
  | 27 => ⟨S99, .i32⟩
  | 28 => ⟨S99x1, .i32⟩
  | 29 => ⟨S12x64x99x99, .f32⟩
  | 30 => ⟨S1x64x99x99, .f32⟩
  | 31 => ⟨S64x99x99, .f32⟩
  | 32 => ⟨S1x64x99x99, .f32⟩
  | 33 => ⟨S64x99x99, .f32⟩
  | 34 => ⟨S64x99x99, .f32⟩
  | 35 => ⟨S1x64x99x99, .f32⟩
  | 36 => ⟨S64x99x99, .f32⟩
  | 37 => ⟨S64x99x99, .f32⟩
  | 38 => ⟨S1x64x99x99, .f32⟩
  | 39 => ⟨S64x99x99, .f32⟩
  | 40 => ⟨S64x99x99, .f32⟩
  | 41 => ⟨S1x64x99x99, .f32⟩
  | 42 => ⟨S64x99x99, .f32⟩
  | 43 => ⟨S64x99x99, .f32⟩
  | 44 => ⟨S1x64x99x99, .f32⟩
  | 45 => ⟨S64x99x99, .f32⟩
  | 46 => ⟨S64x99x99, .f32⟩
  | 47 => ⟨S1x64x99x99, .f32⟩
  | 48 => ⟨S64x99x99, .f32⟩
  | 49 => ⟨S64x99x99, .f32⟩
  | 50 => ⟨S1x64x99x99, .f32⟩
  | 51 => ⟨S64x99x99, .f32⟩
  | 52 => ⟨S64x99x99, .f32⟩
  | 53 => ⟨S1x64x99x99, .f32⟩
  | 54 => ⟨S64x99x99, .f32⟩
  | 55 => ⟨S64x99x99, .f32⟩
  | 56 => ⟨S1x64x99x99, .f32⟩
  | 57 => ⟨S64x99x99, .f32⟩
  | 58 => ⟨S64x99x99, .f32⟩
  | 59 => ⟨S1x64x99x99, .f32⟩
  | 60 => ⟨S64x99x99, .f32⟩
  | 61 => ⟨S64x99x99, .f32⟩
  | 62 => ⟨S1x64x99x99, .f32⟩
  | 63 => ⟨S64x99x99, .f32⟩
  | 64 => ⟨S64x99x99, .f32⟩
  | 65 => ⟨S64x1x98, .f32⟩
  | 66 => ⟨S64x98x768, .f32⟩
  | 67 => ⟨S_, .f32⟩
  | 68 => ⟨S64x98x768, .f32⟩
  | 69 => ⟨S64x98x768, .f32⟩
  | 70 => ⟨S64x1x768, .f32⟩
  | 71 => ⟨S98, .i32⟩
  | 72 => ⟨S_, .i32⟩
  | 73 => ⟨S98, .i32⟩
  | 74 => ⟨S98, .i32⟩
  | 75 => ⟨S99, .i32⟩
  | 76 => ⟨S_, .i32⟩
  | 77 => ⟨S99, .i32⟩
  | 78 => ⟨S99, .i1⟩
  | 79 => ⟨S_, .i32⟩
  | 80 => ⟨S99, .i32⟩
  | 81 => ⟨S99, .i32⟩
  | 82 => ⟨S99, .i32⟩
  | 83 => ⟨S99x1, .i32⟩
  | 84 => ⟨S12x64x99x201, .f32⟩
  | 85 => ⟨S_, .i32⟩
  | 86 => ⟨S99, .i32⟩
  | 87 => ⟨S99, .i1⟩
  | 88 => ⟨S_, .i32⟩
  | 89 => ⟨S99, .i32⟩
  | 90 => ⟨S99, .i32⟩
  | 91 => ⟨S99, .i32⟩
  | 92 => ⟨S99x1, .i32⟩
  | 93 => ⟨S12x64x99x99, .f32⟩
  | 94 => ⟨S1x64x99x99, .f32⟩
  | 95 => ⟨S64x99x99, .f32⟩
  | 96 => ⟨S1x64x99x99, .f32⟩
  | 97 => ⟨S64x99x99, .f32⟩
  | 98 => ⟨S64x99x99, .f32⟩
  | 99 => ⟨S1x64x99x99, .f32⟩
  | 100 => ⟨S64x99x99, .f32⟩
  | 101 => ⟨S64x99x99, .f32⟩
  | 102 => ⟨S1x64x99x99, .f32⟩
  | 103 => ⟨S64x99x99, .f32⟩
  | 104 => ⟨S64x99x99, .f32⟩
  | 105 => ⟨S1x64x99x99, .f32⟩
  | 106 => ⟨S64x99x99, .f32⟩
  | 107 => ⟨S64x99x99, .f32⟩
  | 108 => ⟨S1x64x99x99, .f32⟩
  | 109 => ⟨S64x99x99, .f32⟩
  | 110 => ⟨S64x99x99, .f32⟩
  | 111 => ⟨S1x64x99x99, .f32⟩
  | 112 => ⟨S64x99x99, .f32⟩
  | 113 => ⟨S64x99x99, .f32⟩
  | 114 => ⟨S1x64x99x99, .f32⟩
  | 115 => ⟨S64x99x99, .f32⟩
  | 116 => ⟨S64x99x99, .f32⟩
  | 117 => ⟨S1x64x99x99, .f32⟩
  | 118 => ⟨S64x99x99, .f32⟩
  | 119 => ⟨S64x99x99, .f32⟩
  | 120 => ⟨S1x64x99x99, .f32⟩
  | 121 => ⟨S64x99x99, .f32⟩
  | 122 => ⟨S64x99x99, .f32⟩
  | 123 => ⟨S1x64x99x99, .f32⟩
  | 124 => ⟨S64x99x99, .f32⟩
  | 125 => ⟨S64x99x99, .f32⟩
  | 126 => ⟨S1x64x99x99, .f32⟩
  | 127 => ⟨S64x99x99, .f32⟩
  | _ => ⟨S12x64x201x201, .f32⟩

abbrev hbmTy0_2 (i : Nat) : BufTy := match i % 128 with
  | 0 => ⟨S64x99x99, .f32⟩
  | 1 => ⟨S64x1x98, .f32⟩
  | 2 => ⟨S64x98x768, .f32⟩
  | 3 => ⟨S_, .f32⟩
  | 4 => ⟨S64x98x768, .f32⟩
  | 5 => ⟨S64x98x768, .f32⟩
  | 6 => ⟨S64x1x768, .f32⟩
  | 7 => ⟨S98, .i32⟩
  | 8 => ⟨S_, .i32⟩
  | 9 => ⟨S98, .i32⟩
  | 10 => ⟨S98, .i32⟩
  | 11 => ⟨S99, .i32⟩
  | 12 => ⟨S_, .i32⟩
  | 13 => ⟨S99, .i32⟩
  | 14 => ⟨S99, .i1⟩
  | 15 => ⟨S_, .i32⟩
  | 16 => ⟨S99, .i32⟩
  | 17 => ⟨S99, .i32⟩
  | 18 => ⟨S99, .i32⟩
  | 19 => ⟨S99x1, .i32⟩
  | 20 => ⟨S12x64x99x201, .f32⟩
  | 21 => ⟨S_, .i32⟩
  | 22 => ⟨S99, .i32⟩
  | 23 => ⟨S99, .i1⟩
  | 24 => ⟨S_, .i32⟩
  | 25 => ⟨S99, .i32⟩
  | 26 => ⟨S99, .i32⟩
  | 27 => ⟨S99, .i32⟩
  | 28 => ⟨S99x1, .i32⟩
  | 29 => ⟨S12x64x99x99, .f32⟩
  | 30 => ⟨S1x64x99x99, .f32⟩
  | 31 => ⟨S64x99x99, .f32⟩
  | 32 => ⟨S1x64x99x99, .f32⟩
  | 33 => ⟨S64x99x99, .f32⟩
  | 34 => ⟨S64x99x99, .f32⟩
  | 35 => ⟨S1x64x99x99, .f32⟩
  | 36 => ⟨S64x99x99, .f32⟩
  | 37 => ⟨S64x99x99, .f32⟩
  | 38 => ⟨S1x64x99x99, .f32⟩
  | 39 => ⟨S64x99x99, .f32⟩
  | 40 => ⟨S64x99x99, .f32⟩
  | 41 => ⟨S1x64x99x99, .f32⟩
  | 42 => ⟨S64x99x99, .f32⟩
  | 43 => ⟨S64x99x99, .f32⟩
  | 44 => ⟨S1x64x99x99, .f32⟩
  | 45 => ⟨S64x99x99, .f32⟩
  | 46 => ⟨S64x99x99, .f32⟩
  | 47 => ⟨S1x64x99x99, .f32⟩
  | 48 => ⟨S64x99x99, .f32⟩
  | 49 => ⟨S64x99x99, .f32⟩
  | 50 => ⟨S1x64x99x99, .f32⟩
  | 51 => ⟨S64x99x99, .f32⟩
  | 52 => ⟨S64x99x99, .f32⟩
  | 53 => ⟨S1x64x99x99, .f32⟩
  | 54 => ⟨S64x99x99, .f32⟩
  | 55 => ⟨S64x99x99, .f32⟩
  | 56 => ⟨S1x64x99x99, .f32⟩
  | 57 => ⟨S64x99x99, .f32⟩
  | 58 => ⟨S64x99x99, .f32⟩
  | 59 => ⟨S1x64x99x99, .f32⟩
  | 60 => ⟨S64x99x99, .f32⟩
  | 61 => ⟨S64x99x99, .f32⟩
  | 62 => ⟨S1x64x99x99, .f32⟩
  | 63 => ⟨S64x99x99, .f32⟩
  | 64 => ⟨S64x99x99, .f32⟩
  | 65 => ⟨S64x1x98, .f32⟩
  | 66 => ⟨S64x98x768, .f32⟩
  | 67 => ⟨S_, .f32⟩
  | 68 => ⟨S64x98x768, .f32⟩
  | 69 => ⟨S64x98x768, .f32⟩
  | 70 => ⟨S64x1x768, .f32⟩
  | 71 => ⟨S64x5x768, .f32⟩
  | 72 => ⟨S64x4x768, .f32⟩
  | _ => ⟨S12x64x201x201, .f32⟩

abbrev hbmTy (i : Nat) : BufTy := match i / 128 with
  | 0 => hbmTy0_0 i
  | 1 => hbmTy0_1 i
  | 2 => hbmTy0_2 i
  | _ => ⟨S12x64x201x201, .f32⟩

abbrev bufTy : (tb : Table) → Fin (tcTables nBuf tb) → BufTy
  | .hbm, ⟨i, _⟩ => hbmTy i
  | _, _ => ⟨S12x64x201x201, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_v0 : Ref sig .tc := ⟨.hbm, 7, rfl⟩
abbrev main_c_4 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_5 : Ref sig .tc := ⟨.hbm, 12, rfl⟩
abbrev main_v4 : Ref sig .tc := ⟨.hbm, 13, rfl⟩
abbrev main_v5 : Ref sig .tc := ⟨.hbm, 14, rfl⟩
abbrev main_c_6 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_7 : Ref sig .tc := ⟨.hbm, 21, rfl⟩
abbrev main_v11 : Ref sig .tc := ⟨.hbm, 22, rfl⟩
abbrev main_v12 : Ref sig .tc := ⟨.hbm, 23, rfl⟩
abbrev main_c_8 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_call0_cst : Ref sig .tc := ⟨.hbm, 67, rfl⟩
abbrev main_call0_v0 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_c_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_10 : Ref sig .tc := ⟨.hbm, 76, rfl⟩
abbrev main_v61 : Ref sig .tc := ⟨.hbm, 77, rfl⟩
abbrev main_v62 : Ref sig .tc := ⟨.hbm, 78, rfl⟩
abbrev main_c_11 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_c_12 : Ref sig .tc := ⟨.hbm, 85, rfl⟩
abbrev main_v68 : Ref sig .tc := ⟨.hbm, 86, rfl⟩
abbrev main_v69 : Ref sig .tc := ⟨.hbm, 87, rfl⟩
abbrev main_c_13 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_call1_cst : Ref sig .tc := ⟨.hbm, 131, rfl⟩
abbrev main_call1_v0 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_c_14 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_c_15 : Ref sig .tc := ⟨.hbm, 140, rfl⟩
abbrev main_v118 : Ref sig .tc := ⟨.hbm, 141, rfl⟩
abbrev main_v119 : Ref sig .tc := ⟨.hbm, 142, rfl⟩
abbrev main_c_16 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_c_17 : Ref sig .tc := ⟨.hbm, 149, rfl⟩
abbrev main_v125 : Ref sig .tc := ⟨.hbm, 150, rfl⟩
abbrev main_v126 : Ref sig .tc := ⟨.hbm, 151, rfl⟩
abbrev main_c_18 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_call2_cst : Ref sig .tc := ⟨.hbm, 195, rfl⟩
abbrev main_call2_v0 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_c_19 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_c_20 : Ref sig .tc := ⟨.hbm, 204, rfl⟩
abbrev main_v175 : Ref sig .tc := ⟨.hbm, 205, rfl⟩
abbrev main_v176 : Ref sig .tc := ⟨.hbm, 206, rfl⟩
abbrev main_c_21 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_c_22 : Ref sig .tc := ⟨.hbm, 213, rfl⟩
abbrev main_v182 : Ref sig .tc := ⟨.hbm, 214, rfl⟩
abbrev main_v183 : Ref sig .tc := ⟨.hbm, 215, rfl⟩
abbrev main_c_23 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_call3_cst : Ref sig .tc := ⟨.hbm, 259, rfl⟩
abbrev main_call3_v0 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_c_24 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_c_25 : Ref sig .tc := ⟨.hbm, 268, rfl⟩
abbrev main_v232 : Ref sig .tc := ⟨.hbm, 269, rfl⟩
abbrev main_v233 : Ref sig .tc := ⟨.hbm, 270, rfl⟩
abbrev main_c_26 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_c_27 : Ref sig .tc := ⟨.hbm, 277, rfl⟩
abbrev main_v239 : Ref sig .tc := ⟨.hbm, 278, rfl⟩
abbrev main_v240 : Ref sig .tc := ⟨.hbm, 279, rfl⟩
abbrev main_c_28 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_call4_cst : Ref sig .tc := ⟨.hbm, 323, rfl⟩
abbrev main_call4_v0 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_v286 : Ref sig .tc := ⟨.hbm, 328, rfl⟩

abbrev nD : Nat := 1
abbrev τ : Topo := Topo.v7x

variable {F : FTy → Type} [FloatOps F]

class Facts₀ : Prop where
  bcast_S_S196 : S_.BroadcastsInDim S196 (![] : Fin 0 → Fin S196.rank)
  concatenates_S1_S196_S197_d0 : Shape.Concatenates [S1, S196] S197 0
  bcast_S_S197 : S_.BroadcastsInDim S197 (![] : Fin 0 → Fin S197.rank)
  bcast_S197_S197x1_0 : S197.BroadcastsInDim S197x1 (![0] : Fin 1 → Fin S197x1.rank)
  slices_S12x64x197x197_S1x64x197x197_0_0_0_0 : S12x64x197x197.Slices ![0, 0, 0, 0] S1x64x197x197
  shapeCasts_S1x64x197x197_S64x197x197 : S1x64x197x197.ShapeCasts S64x197x197
  slices_S12x64x197x197_S1x64x197x197_1_0_0_0 : S12x64x197x197.Slices ![1, 0, 0, 0] S1x64x197x197
  slices_S12x64x197x197_S1x64x197x197_2_0_0_0 : S12x64x197x197.Slices ![2, 0, 0, 0] S1x64x197x197
  slices_S12x64x197x197_S1x64x197x197_3_0_0_0 : S12x64x197x197.Slices ![3, 0, 0, 0] S1x64x197x197
  slices_S12x64x197x197_S1x64x197x197_4_0_0_0 : S12x64x197x197.Slices ![4, 0, 0, 0] S1x64x197x197
  slices_S12x64x197x197_S1x64x197x197_5_0_0_0 : S12x64x197x197.Slices ![5, 0, 0, 0] S1x64x197x197
  slices_S12x64x197x197_S1x64x197x197_6_0_0_0 : S12x64x197x197.Slices ![6, 0, 0, 0] S1x64x197x197
  slices_S12x64x197x197_S1x64x197x197_7_0_0_0 : S12x64x197x197.Slices ![7, 0, 0, 0] S1x64x197x197
  slices_S12x64x197x197_S1x64x197x197_8_0_0_0 : S12x64x197x197.Slices ![8, 0, 0, 0] S1x64x197x197
  slices_S12x64x197x197_S1x64x197x197_9_0_0_0 : S12x64x197x197.Slices ![9, 0, 0, 0] S1x64x197x197
  slices_S12x64x197x197_S1x64x197x197_10_0_0_0 : S12x64x197x197.Slices ![10, 0, 0, 0] S1x64x197x197
  slices_S12x64x197x197_S1x64x197x197_11_0_0_0 : S12x64x197x197.Slices ![11, 0, 0, 0] S1x64x197x197
  slices_S64x197x197_S64x1x196_0_0_1 : S64x197x197.Slices ![0, 0, 1] S64x1x196
  slices_S64x201x768_S64x196x768_0_5_0 : S64x201x768.Slices ![0, 5, 0] S64x196x768
  bcast_S_S64x196x768 : S_.BroadcastsInDim S64x196x768 (![] : Fin 0 → Fin S64x196x768.rank)
  bcast_S_S98 : S_.BroadcastsInDim S98 (![] : Fin 0 → Fin S98.rank)
  concatenates_S1_S98_S99_d0 : Shape.Concatenates [S1, S98] S99 0
  bcast_S_S99 : S_.BroadcastsInDim S99 (![] : Fin 0 → Fin S99.rank)
  bcast_S99_S99x1_0 : S99.BroadcastsInDim S99x1 (![0] : Fin 1 → Fin S99x1.rank)
  slices_S12x64x99x99_S1x64x99x99_0_0_0_0 : S12x64x99x99.Slices ![0, 0, 0, 0] S1x64x99x99
  shapeCasts_S1x64x99x99_S64x99x99 : S1x64x99x99.ShapeCasts S64x99x99
  slices_S12x64x99x99_S1x64x99x99_1_0_0_0 : S12x64x99x99.Slices ![1, 0, 0, 0] S1x64x99x99
  slices_S12x64x99x99_S1x64x99x99_2_0_0_0 : S12x64x99x99.Slices ![2, 0, 0, 0] S1x64x99x99
  slices_S12x64x99x99_S1x64x99x99_3_0_0_0 : S12x64x99x99.Slices ![3, 0, 0, 0] S1x64x99x99
  slices_S12x64x99x99_S1x64x99x99_4_0_0_0 : S12x64x99x99.Slices ![4, 0, 0, 0] S1x64x99x99
  slices_S12x64x99x99_S1x64x99x99_5_0_0_0 : S12x64x99x99.Slices ![5, 0, 0, 0] S1x64x99x99
  slices_S12x64x99x99_S1x64x99x99_6_0_0_0 : S12x64x99x99.Slices ![6, 0, 0, 0] S1x64x99x99
  slices_S12x64x99x99_S1x64x99x99_7_0_0_0 : S12x64x99x99.Slices ![7, 0, 0, 0] S1x64x99x99
  slices_S12x64x99x99_S1x64x99x99_8_0_0_0 : S12x64x99x99.Slices ![8, 0, 0, 0] S1x64x99x99
  slices_S12x64x99x99_S1x64x99x99_9_0_0_0 : S12x64x99x99.Slices ![9, 0, 0, 0] S1x64x99x99
  slices_S12x64x99x99_S1x64x99x99_10_0_0_0 : S12x64x99x99.Slices ![10, 0, 0, 0] S1x64x99x99
  slices_S12x64x99x99_S1x64x99x99_11_0_0_0 : S12x64x99x99.Slices ![11, 0, 0, 0] S1x64x99x99
  slices_S64x99x99_S64x1x98_0_0_1 : S64x99x99.Slices ![0, 0, 1] S64x1x98
  slices_S64x201x768_S64x98x768_0_5_0 : S64x201x768.Slices ![0, 5, 0] S64x98x768
  bcast_S_S64x98x768 : S_.BroadcastsInDim S64x98x768 (![] : Fin 0 → Fin S64x98x768.rank)
  slices_S64x201x768_S64x98x768_0_54_0 : S64x201x768.Slices ![0, 54, 0] S64x98x768
  slices_S64x201x768_S64x98x768_0_103_0 : S64x201x768.Slices ![0, 103, 0] S64x98x768
  concatenates_S64x1x768_S64x1x768_S64x1x768_S64x1x768_S64x1x768_S64x5x768_d1 : Shape.Concatenates [S64x1x768, S64x1x768, S64x1x768, S64x1x768, S64x1x768] S64x5x768 1
  slices_S64x5x768_S64x4x768_0_1_0 : S64x5x768.Slices ![0, 1, 0] S64x4x768
  gather_S12x64x201x201_S197x1_S12x64x197x201_013_2_n_n_2_1_12641201_wf : GatherDims.WF S12x64x201x201 S197x1 S12x64x197x201 [0, 1, 3] [2] [] [2] [] 1 ![12, 64, 1, 201]
  gather_S12x64x197x201_S197x1_S12x64x197x197_012_3_n_n_3_1_12641971_wf : GatherDims.WF S12x64x197x201 S197x1 S12x64x197x197 [0, 1, 2] [3] [] [3] [] 1 ![12, 64, 197, 1]
  dot_S64x197x197_S64x197x197_S64x197x197_2_1_1_2_0_0_wf : DotDims.WF S64x197x197 S64x197x197 S64x197x197 [2] [1] [1] [2] [0] [0]
  dot_S64x1x196_S64x196x768_S64x1x768_2_1_1_2_0_0_wf : DotDims.WF S64x1x196 S64x196x768 S64x1x768 [2] [1] [1] [2] [0] [0]
  gather_S12x64x201x201_S99x1_S12x64x99x201_013_2_n_n_2_1_12641201_wf : GatherDims.WF S12x64x201x201 S99x1 S12x64x99x201 [0, 1, 3] [2] [] [2] [] 1 ![12, 64, 1, 201]
  gather_S12x64x99x201_S99x1_S12x64x99x99_012_3_n_n_3_1_1264991_wf : GatherDims.WF S12x64x99x201 S99x1 S12x64x99x99 [0, 1, 2] [3] [] [3] [] 1 ![12, 64, 99, 1]
  dot_S64x99x99_S64x99x99_S64x99x99_2_1_1_2_0_0_wf : DotDims.WF S64x99x99 S64x99x99 S64x99x99 [2] [1] [1] [2] [0] [0]
  dot_S64x1x98_S64x98x768_S64x1x768_2_1_1_2_0_0_wf : DotDims.WF S64x1x98 S64x98x768 S64x1x768 [2] [1] [1] [2] [0] [0]

variable [Facts₀]

def gather_S12x64x201x201_S197x1_S12x64x197x201_013_2_n_n_2_1_12641201 : GatherDims S12x64x201x201 S197x1 S12x64x197x201 where
  offsetDims := [0, 1, 3]
  collapsedSliceDims := [2]
  operandBatchingDims := []
  startIndicesBatchingDims := []
  startIndexMap := [2]
  indexVectorDim := 1
  sliceSizes := ![12, 64, 1, 201]
  wf := gather_S12x64x201x201_S197x1_S12x64x197x201_013_2_n_n_2_1_12641201_wf
def gather_S12x64x197x201_S197x1_S12x64x197x197_012_3_n_n_3_1_12641971 : GatherDims S12x64x197x201 S197x1 S12x64x197x197 where
  offsetDims := [0, 1, 2]
  collapsedSliceDims := [3]
  operandBatchingDims := []
  startIndicesBatchingDims := []
  startIndexMap := [3]
  indexVectorDim := 1
  sliceSizes := ![12, 64, 197, 1]
  wf := gather_S12x64x197x201_S197x1_S12x64x197x197_012_3_n_n_3_1_12641971_wf
def dot_S64x197x197_S64x197x197_S64x197x197_2_1_1_2_0_0 : DotDims S64x197x197 S64x197x197 S64x197x197 where
  lhsContracting := [2]
  rhsContracting := [1]
  lhsNonContracting := [1]
  rhsNonContracting := [2]
  lhsBatch := [0]
  rhsBatch := [0]
  wf := dot_S64x197x197_S64x197x197_S64x197x197_2_1_1_2_0_0_wf
def dot_S64x1x196_S64x196x768_S64x1x768_2_1_1_2_0_0 : DotDims S64x1x196 S64x196x768 S64x1x768 where
  lhsContracting := [2]
  rhsContracting := [1]
  lhsNonContracting := [1]
  rhsNonContracting := [2]
  lhsBatch := [0]
  rhsBatch := [0]
  wf := dot_S64x1x196_S64x196x768_S64x1x768_2_1_1_2_0_0_wf
def gather_S12x64x201x201_S99x1_S12x64x99x201_013_2_n_n_2_1_12641201 : GatherDims S12x64x201x201 S99x1 S12x64x99x201 where
  offsetDims := [0, 1, 3]
  collapsedSliceDims := [2]
  operandBatchingDims := []
  startIndicesBatchingDims := []
  startIndexMap := [2]
  indexVectorDim := 1
  sliceSizes := ![12, 64, 1, 201]
  wf := gather_S12x64x201x201_S99x1_S12x64x99x201_013_2_n_n_2_1_12641201_wf
def gather_S12x64x99x201_S99x1_S12x64x99x99_012_3_n_n_3_1_1264991 : GatherDims S12x64x99x201 S99x1 S12x64x99x99 where
  offsetDims := [0, 1, 2]
  collapsedSliceDims := [3]
  operandBatchingDims := []
  startIndicesBatchingDims := []
  startIndexMap := [3]
  indexVectorDim := 1
  sliceSizes := ![12, 64, 99, 1]
  wf := gather_S12x64x99x201_S99x1_S12x64x99x99_012_3_n_n_3_1_1264991_wf
def dot_S64x99x99_S64x99x99_S64x99x99_2_1_1_2_0_0 : DotDims S64x99x99 S64x99x99 S64x99x99 where
  lhsContracting := [2]
  rhsContracting := [1]
  lhsNonContracting := [1]
  rhsNonContracting := [2]
  lhsBatch := [0]
  rhsBatch := [0]
  wf := dot_S64x99x99_S64x99x99_S64x99x99_2_1_1_2_0_0_wf
def dot_S64x1x98_S64x98x768_S64x1x768_2_1_1_2_0_0 : DotDims S64x1x98 S64x98x768 S64x1x768 where
  lhsContracting := [2]
  rhsContracting := [1]
  lhsNonContracting := [1]
  rhsNonContracting := [2]
  lhsBatch := [0]
  rhsBatch := [0]
  wf := dot_S64x1x98_S64x98x768_S64x1x768_2_1_1_2_0_0_wf

class Facts : Prop extends Facts₀ where

variable [Facts]
-- ==== Proof.RollKBase.lean ====
/-
  The first kernel region (the row-vector chain) on one core: what is shared by its three control cases.

  The region walks a grid of 2 x 12 points, point t = 12 * h + l for batch half h and step l. Its windows are the 0/1 mask
  (whole, fetched once), the layer block of step l for half h (layer 11 - l, batches 32 h .. 32 h + 31) and the output block of
  half h. A scratch buffer of the kernel's own carries the row vectors from point to point.
  At l = 0 the body stores the masked rows of its layer block into the scratch; at l > 0 it stores the masked product of the scratch
  with its layer block; at l = 11 it then also copies the scratch into the output block. The output block is written back at
  l = 11 only, and elsewhere the body leaves it as it found it.
-/
import proofs.«109065_j67542655697208_2_alg».proof.Proof.Gen.Kernel.Launch
import proofs.«109065_j67542655697208_2_alg».proof.Proof.Gen.Kernel.Skeleton
import proofs.«109065_j67542655697208_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The mask's staging buffer holds the mask at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The layer window's current staging buffer holds the point's layer block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's three conditions, from the step coordinate -/

/-- "This is step 0." -/
abbrev condA (i : grid0.Coords) : Prop := (Scalar.cmpi .ne (Scalar.extui (Scalar.cmpi .eq (BitVec.ofNat 32 (i 1).val) 0#32)) 0#32) = 1#1
/-- It holds at the points 0 and 12. -/
theorem hcondA : ∀ t : Fin cfg0.N, condA (grid0.coords t) ↔ t.val % 12 = 0 :=
  (by decide +kernel : ∀ t : Fin grid0.N, condA (grid0.coords t) ↔ t.val % 12 = 0)

/-- "This is a step after step 0." -/
abbrev condB (i : grid0.Coords) : Prop := (Scalar.cmpi .ne (Scalar.extui (Scalar.cmpi .sgt (BitVec.ofNat 32 (i 1).val) 0#32)) 0#32) = 1#1
/-- It holds at every other point. -/
theorem hcondB : ∀ t : Fin cfg0.N, condB (grid0.coords t) ↔ ¬ t.val % 12 = 0 :=
  (by decide +kernel : ∀ t : Fin grid0.N, condB (grid0.coords t) ↔ ¬ t.val % 12 = 0)

/-- "This is the last step." -/
abbrev condC (i : grid0.Coords) : Prop := k0_cond3 i = 1#1
/-- It holds at the points 11 and 23. -/
theorem hcondC : ∀ t : Fin cfg0.N, condC (grid0.coords t) ↔ t.val % 12 = 11 :=
  (by decide +kernel : ∀ t : Fin grid0.N, condC (grid0.coords t) ↔ t.val % 12 = 11)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last step the output window is idle, -/
theorem idleAt0_2 : ∀ t : Fin cfg0.N, ¬condC (grid0.coords t) → cfg0.idle 2 (grid0.coords t) = true := by decide +kernel
/-- and not written back; -/
theorem noFlush0_2 : ∀ t : Fin cfg0.N, ¬condC (grid0.coords t) → (cfg0.win 2).flush t = false := by decide +kernel
/-- at the last step it is live. -/
theorem liveAt0_2 : ∀ t : Fin cfg0.N, condC (grid0.coords t) → cfg0.idle 2 (grid0.coords t) = false := by decide +kernel

/-! ## The memrefs the body is called with -/

abbrev ms0_0 (t : Fin cfg0.N) : Memref sig .tc .vmem S4x201 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x201x201 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4x201 .f32 := win0_2.stage (cfg0.slots t 2)
abbrev hs0_2 (t : Fin cfg0.N) : (ms0_2 t).IsWhole := hstage0_2 ((cfg0.slots t 2).cast nbuf0_2)
/-- The carried scratch: a whole buffer of the kernel's own. -/
abbrev scM0 : Memref sig .tc .vmem S32x4x201 .f32 := Memref.whole cc0_scratch0
/-- The views through which the output block's and the scratch's contents are stated. -/
abbrev VO0 : View sig .tc .vmem S32x4x201 .f32 := (Memref.whole cc0_stg2_0 : Memref sig .tc .vmem S32x4x201 .f32).view
abbrev VS0 : View sig .tc .vmem S32x4x201 .f32 := scM0.view

/-- The other scoped buffers of the core, which this region never touches, each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's class invariant with the scratch as a memref owned at some contents. -/
theorem PhiA0_eq (c : Dev nD) :
    (Pipeline.ΦA spec0 c : sProp 𝕄)
      = iprop(iprop((∃ d, owns (c : Thread nD τ) scM0 fullShare d) ∗ otherScoped (F := F) c) ∗ (∃ r, prngReg c r)) := by
  unfold Pipeline.ΦA otherScoped; rw [scopedRest0_eq]; simp only [scM0, owns_whole]; try rfl

end Cert.Kernel.Hand

end
-- ==== Proof.RollKRunA.lean ====
/-
  The row-vector region's body at step 0: it stores the masked rows of its layer block into the scratch and leaves the output
  block as it found it.
-/
import proofs.«109065_j67542655697208_2_alg».proof.Proof.RollKBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Step 0 on whole memrefs — the mask's at x0, the layer block's at x1, the output block's at xi handed back untouched, the
    scratch's at anything: the body runs to the continuation holding the scratch with the pieces LS written, the rest as they were. -/
noncomputable def kernelRun0_A (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : condA i) (hB : ¬condB i) (hC : ¬condC i)
    (x0 : Vec F S4x201 .f32) (x1 : Vec F S1x32x201x201 .f32) :
    { LS : List (View.Piece (Elt F) S32x4x201 .f32) //
      ∀ (xi : Vec F S32x4x201 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__rollout_kernel i arg2 harg2 arg3 harg3 arg4 harg4 arg5 harg5) K } := by
  refine ⟨?_, fun xi E K => ?run⟩
  case run =>
    simp only [cc0__rollout_kernel_eq_skeleton]; unfold cc0__rollout_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RollKRunB.lean ====
/-
  The row-vector region's body at a step 1..10: it stores the masked product of the scratch with its layer block into the scratch
  and leaves the output block as it found it.
-/
import proofs.«109065_j67542655697208_2_alg».proof.Proof.RollKBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step on whole memrefs — the mask's at x0, the layer block's at x1, the output block's at xi handed back untouched,
    the scratch's at xs (what the step before left): the body runs to the continuation holding the scratch with the pieces LS
    written, the rest as they were. -/
noncomputable def kernelRun0_B (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : ¬condC i)
    (x0 : Vec F S4x201 .f32) (x1 : Vec F S1x32x201x201 .f32) (xs : Vec F S32x4x201 .f32) :
    { LS : List (View.Piece (Elt F) S32x4x201 .f32) //
      ∀ (xi : Vec F S32x4x201 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__rollout_kernel i arg2 harg2 arg3 harg3 arg4 harg4 arg5 harg5) K } := by
  refine ⟨?_, fun xi E K => ?run⟩
  case run =>
    simp only [cc0__rollout_kernel_eq_skeleton]; unfold cc0__rollout_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.RollKRunC.lean ====
/-
  The row-vector region's body at the last step: it stores the masked product of the scratch with its layer block into the
  scratch and then copies the scratch into the output block.
-/
import proofs.«109065_j67542655697208_2_alg».proof.Proof.RollKBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last step on whole memrefs — the mask's at x0, the layer block's at x1, the output block's at anything, the scratch's at
    xs (what the step before left): the body runs to the continuation holding the output block with the pieces L2 written and
    the scratch with the pieces LS written, the inputs as they were. -/
noncomputable def kernelRun0_C (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : condC i)
    (x0 : Vec F S4x201 .f32) (x1 : Vec F S1x32x201x201 .f32) (xs : Vec F S32x4x201 .f32) :
    Σ' (L2 : List (View.Piece (Elt F) S32x4x201 .f32)), { LS : List (View.Piece (Elt F) S32x4x201 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__rollout_kernel i arg2 harg2 arg3 harg3 arg4 harg4 arg5 harg5) K } := by
  refine ⟨?_, ?_, fun E K => ?run⟩
  case run =>
    simp only [cc0__rollout_kernel_eq_skeleton]; unfold cc0__rollout_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.RollK.lean ====
/-
  The first kernel region (the row-vector chain) on one core: what the scratch and the output block hold after every point, the
  region's proof data, and the body's obligation at every point.

  After point 12 h + l the scratch holds the carried rows of batch half h after l steps: at l = 0 what the step-0 body stores, at
  l > 0 what the later body stores over what the point before left. The output block of half h is stored at l = 11, from the
  scratch, and written back there.
-/
import proofs.«109065_j67542655697208_2_alg».proof.Proof.RollKRunA
import proofs.«109065_j67542655697208_2_alg».proof.Proof.RollKRunB
import proofs.«109065_j67542655697208_2_alg».proof.Proof.RollKRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions at a point of step 0 -/

theorem condA_of (t : Fin cfg0.N) (h0 : t.val % 12 = 0) : condA (grid0.coords t) := (hcondA t).mpr h0
theorem notB_of (t : Fin cfg0.N) (h0 : t.val % 12 = 0) : ¬condB (grid0.coords t) := fun h => (hcondB t).mp h h0
theorem notC_of (t : Fin cfg0.N) (h0 : t.val % 12 = 0) : ¬condC (grid0.coords t) := fun h => by
  have := (hcondC t).mp h; omega

/-! ## What each case leaves -/

/-- The step-0 body's pieces cover the scratch. -/
theorem scoverA (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : condA i) (hB : ¬condB i) (hC : ¬condC i)
    (x0 : Vec F S4x201 .f32) (x1 : Vec F S1x32x201x201 .f32) (y : S32x4x201.Idx) :
    ∃ pc ∈ (kernelRun0_A c i arg2 harg2 arg3 harg3 arg4 harg4 arg5 harg5 hA hB hC x0 x1).1, y ∈ pc.1.set :=
  View.cover_of_tiledL (kernelRun0_A c i arg2 harg2 arg3 harg3 arg4 harg4 arg5 harg5 hA hB hC x0 x1).1 S32x4x201.size (by sl_kernel_rfl) y
/-- What the step-0 body leaves in the scratch. -/
def soutA (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : condA i) (hB : ¬condB i) (hC : ¬condC i)
    (x0 : Vec F S4x201 .f32) (x1 : Vec F S1x32x201x201 .f32) : Vec F S32x4x201 .f32 :=
  VS0.read (Elt F) (VS0.writes (Elt F) VS0.junk (kernelRun0_A c i arg2 harg2 arg3 harg3 arg4 harg4 arg5 harg5 hA hB hC x0 x1).1)

/-- A middle step's pieces cover the scratch. -/
theorem scoverB (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : ¬condC i)
    (x0 : Vec F S4x201 .f32) (x1 : Vec F S1x32x201x201 .f32) (xs : Vec F S32x4x201 .f32) (y : S32x4x201.Idx) :
    ∃ pc ∈ (kernelRun0_B c i arg2 harg2 arg3 harg3 arg4 harg4 arg5 harg5 hA hB hC x0 x1 xs).1, y ∈ pc.1.set :=
  View.cover_of_tiledL (kernelRun0_B c i arg2 harg2 arg3 harg3 arg4 harg4 arg5 harg5 hA hB hC x0 x1 xs).1 S32x4x201.size (by sl_kernel_rfl) y
/-- What a middle step leaves in the scratch. -/
def soutB (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : ¬condC i)
    (x0 : Vec F S4x201 .f32) (x1 : Vec F S1x32x201x201 .f32) (xs : Vec F S32x4x201 .f32) : Vec F S32x4x201 .f32 :=
  VS0.read (Elt F) (VS0.writes (Elt F) VS0.junk (kernelRun0_B c i arg2 harg2 arg3 harg3 arg4 harg4 arg5 harg5 hA hB hC x0 x1 xs).1)

/-- The last step's pieces cover the output block -/
theorem coverC (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : condC i)
    (x0 : Vec F S4x201 .f32) (x1 : Vec F S1x32x201x201 .f32) (xs : Vec F S32x4x201 .f32) (y : S32x4x201.Idx) :
    ∃ pc ∈ (kernelRun0_C c i arg2 harg2 arg3 harg3 arg4 harg4 arg5 harg5 hA hB hC x0 x1 xs).1, y ∈ pc.1.set :=
  View.cover_of_tiledL (kernelRun0_C c i arg2 harg2 arg3 harg3 arg4 harg4 arg5 harg5 hA hB hC x0 x1 xs).1 S32x4x201.size (by sl_kernel_rfl) y
/-- and the scratch. -/
theorem scoverC (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : condC i)
    (x0 : Vec F S4x201 .f32) (x1 : Vec F S1x32x201x201 .f32) (xs : Vec F S32x4x201 .f32) (y : S32x4x201.Idx) :
    ∃ pc ∈ (kernelRun0_C c i arg2 harg2 arg3 harg3 arg4 harg4 arg5 harg5 hA hB hC x0 x1 xs).2.1, y ∈ pc.1.set :=
  View.cover_of_tiledL (kernelRun0_C c i arg2 harg2 arg3 harg3 arg4 harg4 arg5 harg5 hA hB hC x0 x1 xs).2.1 S32x4x201.size (by sl_kernel_rfl) y
/-- What the last step leaves in the output block, -/
def outC (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : condC i)
    (x0 : Vec F S4x201 .f32) (x1 : Vec F S1x32x201x201 .f32) (xs : Vec F S32x4x201 .f32) : Vec F S32x4x201 .f32 :=
  VO0.read (Elt F) (VO0.writes (Elt F) VO0.junk (kernelRun0_C c i arg2 harg2 arg3 harg3 arg4 harg4 arg5 harg5 hA hB hC x0 x1 xs).1)
/-- and in the scratch. -/
def soutC (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : condC i)
    (x0 : Vec F S4x201 .f32) (x1 : Vec F S1x32x201x201 .f32) (xs : Vec F S32x4x201 .f32) : Vec F S32x4x201 .f32 :=
  VS0.read (Elt F) (VS0.writes (Elt F) VS0.junk (kernelRun0_C c i arg2 harg2 arg3 harg3 arg4 harg4 arg5 harg5 hA hB hC x0 x1 xs).2.1)

section Region0

variable (V : (c : Dev nD) → (b : Ref sig .tc) → Buf (Elt F) ((c : Thread nD τ).loc b))

/-! ## The scratch after each point -/

/-- What the scratch holds after the body at position n: the case the step selects, run at the point's memrefs and blocks, a later
    step over what the point before left. -/
def scr0 (c : Dev nD) : (n : ℕ) → n < cfg0.N → Vec F S32x4x201 .f32
  | 0, hn => soutA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (condA_of ⟨0, hn⟩ (Nat.zero_mod _)) (notB_of ⟨0, hn⟩ (Nat.zero_mod _)) (notC_of ⟨0, hn⟩ (Nat.zero_mod _)) (iblk0 V c 0 ⟨0, hn⟩) (iblk0 V c 1 ⟨0, hn⟩)
  | n + 1, hn =>
    if h0 : (n + 1) % 12 = 0 then
      soutA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (condA_of ⟨n + 1, hn⟩ h0) (notB_of ⟨n + 1, hn⟩ h0) (notC_of ⟨n + 1, hn⟩ h0) (iblk0 V c 0 ⟨n + 1, hn⟩) (iblk0 V c 1 ⟨n + 1, hn⟩)
    else
      if h1 : (n + 1) % 12 = 11 then
        soutC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcondA ⟨n + 1, hn⟩).mp h)) ((hcondB ⟨n + 1, hn⟩).mpr h0) ((hcondC ⟨n + 1, hn⟩).mpr h1) (iblk0 V c 0 ⟨n + 1, hn⟩) (iblk0 V c 1 ⟨n + 1, hn⟩) (scr0 c n (Nat.lt_of_succ_lt hn))
      else
        soutB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcondA ⟨n + 1, hn⟩).mp h)) ((hcondB ⟨n + 1, hn⟩).mpr h0) (fun h => h1 ((hcondC ⟨n + 1, hn⟩).mp h)) (iblk0 V c 0 ⟨n + 1, hn⟩) (iblk0 V c 1 ⟨n + 1, hn⟩) (scr0 c n (Nat.lt_of_succ_lt hn))

theorem scr0_A (c : Dev nD) (t : Fin cfg0.N) (h0 : t.val % 12 = 0) :
    scr0 V c t.val t.isLt = soutA c (grid0.coords t) (ms0_0 t) (hs0_0 t) (ms0_1 t) (hs0_1 t) (ms0_2 t) (hs0_2 t) scM0 (Memref.isWhole_whole _) (condA_of t h0) (notB_of t h0) (notC_of t h0) (iblk0 V c 0 t) (iblk0 V c 1 t) := by
  obtain ⟨n, hn⟩ := t
  cases n with
  | zero => exact rfl
  | succ n => exact (dif_pos h0).trans rfl

theorem scr0_B (c : Dev nD) (t : Fin cfg0.N) (h0 : ¬t.val % 12 = 0) (h1 : ¬t.val % 12 = 11) :
    scr0 V c t.val t.isLt = soutB c (grid0.coords t) (ms0_0 t) (hs0_0 t) (ms0_1 t) (hs0_1 t) (ms0_2 t) (hs0_2 t) scM0 (Memref.isWhole_whole _) (fun h => h0 ((hcondA t).mp h)) ((hcondB t).mpr h0) (fun h => h1 ((hcondC t).mp h)) (iblk0 V c 0 t) (iblk0 V c 1 t) (scr0 V c (t.val - 1) (Nat.lt_of_le_of_lt (Nat.sub_le _ _) t.isLt)) := by
  obtain ⟨n, hn⟩ := t
  cases n with
  | zero => exact (by exfalso; exact h0 (Nat.zero_mod _))
  | succ n => exact (dif_neg h0).trans ((dif_neg h1).trans rfl)

theorem scr0_C (c : Dev nD) (t : Fin cfg0.N) (h0 : ¬t.val % 12 = 0) (h1 : t.val % 12 = 11) :
    scr0 V c t.val t.isLt = soutC c (grid0.coords t) (ms0_0 t) (hs0_0 t) (ms0_1 t) (hs0_1 t) (ms0_2 t) (hs0_2 t) scM0 (Memref.isWhole_whole _) (fun h => h0 ((hcondA t).mp h)) ((hcondB t).mpr h0) ((hcondC t).mpr h1) (iblk0 V c 0 t) (iblk0 V c 1 t) (scr0 V c (t.val - 1) (Nat.lt_of_le_of_lt (Nat.sub_le _ _) t.isLt)) := by
  obtain ⟨n, hn⟩ := t
  cases n with
  | zero => exact (by exfalso; exact h0 (Nat.zero_mod _))
  | succ n => exact (dif_neg h0).trans ((dif_pos h1).trans rfl)

/-- What the output block's staging buffer holds after the body at point t: at a last step what that step stores; elsewhere the
    body stores nothing there and the value is a placeholder nothing consults. -/
def out0 (c : Dev nD) (t : Fin cfg0.N) : Vec F S32x4x201 .f32 :=
  if h1 : t.val % 12 = 11 then
    outC c (grid0.coords t) (ms0_0 t) (hs0_0 t) (ms0_1 t) (hs0_1 t) (ms0_2 t) (hs0_2 t) scM0 (Memref.isWhole_whole _) (fun h => (fun h => by omega) ((hcondA t).mp h)) ((hcondB t).mpr (fun h => by omega)) ((hcondC t).mpr h1) (iblk0 V c 0 t) (iblk0 V c 1 t) (scr0 V c (t.val - 1) (Nat.lt_of_le_of_lt (Nat.sub_le _ _) t.isLt))
  else VO0.read (Elt F) VO0.junk

theorem out0_C (c : Dev nD) (t : Fin cfg0.N) (h0 : ¬t.val % 12 = 0) (h1 : t.val % 12 = 11) :
    out0 V c t = outC c (grid0.coords t) (ms0_0 t) (hs0_0 t) (ms0_1 t) (hs0_1 t) (ms0_2 t) (hs0_2 t) scM0 (Memref.isWhole_whole _) (fun h => h0 ((hcondA t).mp h)) ((hcondB t).mpr h0) ((hcondC t).mpr h1) (iblk0 V c 0 t) (iblk0 V c 1 t) (scr0 V c (t.val - 1) (Nat.lt_of_le_of_lt (Nat.sub_le _ _) t.isLt)) := by
  unfold out0; rw [dif_pos h1]

/-! ## The region's invariant -/

/-- Before position n: at the first point the class's invariant (every scoped buffer of the core at anything, the generator
    register at some state); afterwards the scratch at what the point before left, the other scoped buffers at anything, the register
    at some state. -/
def PhiS (c : Dev nD) : (n : ℕ) → n ≤ cfg0.N → sProp 𝕄
  | 0, _ => Pipeline.ΦA spec0 c
  | n + 1, hn => iprop(iprop(owns (c : Thread nD τ) scM0 fullShare (scr0 V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (scr0 V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (scr0 V c (n - 1) (by omega)) ∗ otherScoped (F := F) c) ∗ (∃ r, prngReg c r)) := by
  cases n with
  | zero => exact absurd rfl hz
  | succ n => rfl

/-! ## The proof data -/

/-- The region's proof data on core c: the arrays as the region finds them; after the body at point t the inputs' buffers at
    their blocks and the output's at out0; the invariant PhiS; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the step decides the case; the inputs' memrefs hold their blocks; the invariant hands the body the
    scratch at what the point before left (at anything at the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 24 := lt_of_lt_of_eq t.isLt (show cfg0.N = 24 from N_0)
  by_cases h0 : t.val % 12 = 0
  · have hnC : ¬condC (grid0.coords t) := notC_of t h0
    rw [Dat.leavesExact_idle (dat0 V c) 2 t (idleAt0_2 t hnC) (noFlush0_2 t hnC)]
    rw [scr0_A V c t h0]
    unfold soutA; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) (condA_of t h0) (notB_of t h0) (notC_of t h0) (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA c _ _ _ _ _ _ _ _ _ _ _ _ _ _)
          iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) (condA_of t h0) (notB_of t h0) (notC_of t h0) (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA c _ _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 12 = 11
    · rw [show (dat0 V c).leavesExact 2 t = owns (c : Thread nD τ) (ms0_2 t) fullShare ((dat0 V c).after 2 t) from by
        unfold Dat.leavesExact; rw [liveAt0_2 t ((hcondC t).mpr h1)], after0_2]
      rw [scr0_C V c t h0 h1, out0_C V c t h0 h1]
      unfold outC soutC; (try dsimp only)
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) (fun h => h0 ((hcondA t).mp h)) ((hcondB t).mpr h0) ((hcondC t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverC c _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverC c _ _ _ _ _ _ _ _ _ _ _ _ _ _ _)
    · have hnC : ¬condC (grid0.coords t) := fun h => h1 ((hcondC t).mp h)
      rw [Dat.leavesExact_idle (dat0 V c) 2 t (idleAt0_2 t hnC) (noFlush0_2 t hnC)]
      rw [scr0_B V c t h0 h1]
      unfold soutB; (try dsimp only)
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcondA t).mp h)) ((hcondB t).mpr h0) (fun h => h1 ((hcondC t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverB c _ _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 24 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end Region0

end Cert.Kernel.Hand

end
-- ==== Proof.ProjK.lean ====
/-
  The second grid region of the program: the projection kernel over six grid points.

  Window 0 is the whole row-vector array [64, 4, 196], fetched once. Window 1 is the feature array [64, 196, 768] in six
  column blocks [64, 196, 128]. Window 2 is the result array [64, 4, 768] in six column blocks [64, 4, 128], written back at
  every point.

  At a point the body reads the two input blocks whole, rectifies the feature block (maximum with zero), contracts the token
  axis of the row vectors against it into a zero accumulator, and stores the product over the whole output block. The body
  also reads the output block before it stores it; the value read is not used, so the output block's previous contents do
  not matter.

  This module states, at any contents V of the core's buffers when the region is entered and for any float model F:
  each window's block at a point; what the body leaves in the output block as a function of the two input blocks; the
  body's triple; the region's proof data; and the body obligation at every point.
-/
import proofs.«109065_j67542655697208_2_alg».proof.Proof.Gen.Kernel.Launch
import proofs.«109065_j67542655697208_2_alg».proof.Proof.Gen.Kernel.Skeleton
import proofs.«109065_j67542655697208_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-vector window's current staging buffer holds its block at every point, whether the point fetches it or not (an
    unfetched point has the same block index as the point before it), for any proof data over the entry contents whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the feature window, which every point fetches. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its block -/

abbrev r1_0 : Rect S64x4x196 := Rect.unit (s := S64x4x196) ![0, 0, 0] S64x4x196.size inb_S64x4x196_S64x4x196_0_0_0
abbrev r1_1 : Rect S64x196x128 := Rect.unit (s := S64x196x128) ![0, 0, 0] S64x196x128.size inb_S64x196x128_S64x196x128_0_0_0
abbrev r1_2 : Rect S64x4x128 := Rect.unit (s := S64x4x128) ![0, 0, 0] S64x4x128.size inb_S64x4x128_S64x4x128_0_0_0

/-! ## What the body leaves in the output block -/

/-- The output block after the body, from the two input blocks: its one store, of the product of the row vectors with the
    rectified features, over the whole block. -/
def out1_2 (x0 : Vec F S64x4x196 .f32) (x1 : Vec F S64x196x128 .f32) : Vec F S64x4x128 .f32 :=
  View.canon [⟨r1_2, k1_pay1 (View.ld x0 r1_0) (View.ld x1 r1_1)⟩]

/-- The one store is over the whole block, so it covers it. -/
theorem cover1_2 (p0 : Vec F S64x4x128 .f32) (y : S64x4x128.Idx) :
    ∃ pc ∈ ([⟨r1_2, p0⟩] : List (View.Piece (Elt F) S64x4x128 .f32)), y ∈ pc.1.set :=
  View.cover_of_tiled [⟨r1_2, p0⟩] S64x4x128.size (by rfl) y

/-! ## The body's triple -/

set_option maxHeartbeats 1000000 in
/-- The body on whole staging memrefs, the two inputs' at read contents x0 and x1 and the output's at anything, runs to the
    continuation holding the inputs' as they were and the output's at out1_2 x0 x1. The body's read of the output block
    before its store returns whatever the block held and feeds nothing. -/
theorem sound_kernel1 (c : Dev nD) (E : Set ℕ) (i : grid1.Coords) (arg1 : Memref sig .tc .vmem S64x4x196 .f32) (harg1 : arg1.IsWhole) (arg2 : Memref sig .tc .vmem S64x196x128 .f32) (harg2 : arg2.IsWhole) (arg3 : Memref sig .tc .vmem S64x4x128 .f32) (harg3 : arg3.IsWhole)
    (x0 : Vec F S64x4x196 .f32) (x1 : Vec F S64x196x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of the region on core c: the arrays as the region finds them; after the body at point t each input's
    buffer at its block and the output's at out1_2 of the two input blocks; the invariant that of a body touching only its
    windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameK.lean ====
/-
  The whole program on the several-regions launch: the contents of every buffer at each boundary between @main's four items (the
  mask constant, the row-vector region, the two slices, the projection region) as a fold from the launch memory; each region as
  a segment entered from the boundary before it and left at the one after it; and the run: every weakly fair execution ends, and
  every unscoped buffer then holds the last boundary's contents.
-/
import proofs.«109065_j67542655697208_2_alg».proof.Proof.RollK
import proofs.«109065_j67542655697208_2_alg».proof.Proof.ProjK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the mask constant (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the two slices (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W2_main_arg0 m ρ c

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_main_arg1 m ρ c

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun s h c =>
    ⟨(h c _ (mem_uc main_arg0 (by decide))).trans (W4_main_arg0 m ρ c),
     (h c _ (mem_uc main_arg1 (by decide))).trans (W4_main_arg1 m ρ c)⟩) (run m ρ)

end Cert.Kernel.Hand

end
-- ==== Proof.RollKIBase.lean ====
/-
  The first kernel region (the row-vector chain) on one core: what is shared by its three control cases.

  The region walks a grid of 2 x 12 points, point t = 12 * h + l for batch half h and step l. Its windows are the 0/1 mask
  (whole, fetched once), the layer block of step l for half h (layer 11 - l, batches 32 h .. 32 h + 31) and the output block of
  half h. A scratch buffer of the kernel's own carries the row vectors from point to point.
  At l = 0 the body stores the masked rows of its layer block into the scratch; at l > 0 it stores the masked product of the scratch
  with its layer block; at l = 11 it then also copies the scratch into the output block. The output block is written back at
  l = 11 only, and elsewhere the body leaves it as it found it.
-/
import proofs.«109065_j67542655697208_2_alg».proof.Proof.Gen.KernelIdeal.Launch
import proofs.«109065_j67542655697208_2_alg».proof.Proof.Gen.KernelIdeal.Skeleton
import proofs.«109065_j67542655697208_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The mask's staging buffer holds the mask at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The layer window's current staging buffer holds the point's layer block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's three conditions, from the step coordinate -/

/-- "This is step 0." -/
abbrev condA (i : grid0.Coords) : Prop := (Scalar.cmpi .ne (Scalar.extui (Scalar.cmpi .eq (BitVec.ofNat 32 (i 1).val) 0#32)) 0#32) = 1#1
/-- It holds at the points 0 and 12. -/
theorem hcondA : ∀ t : Fin cfg0.N, condA (grid0.coords t) ↔ t.val % 12 = 0 :=
  (by decide +kernel : ∀ t : Fin grid0.N, condA (grid0.coords t) ↔ t.val % 12 = 0)

/-- "This is a step after step 0." -/
abbrev condB (i : grid0.Coords) : Prop := (Scalar.cmpi .ne (Scalar.extui (Scalar.cmpi .sgt (BitVec.ofNat 32 (i 1).val) 0#32)) 0#32) = 1#1
/-- It holds at every other point. -/
theorem hcondB : ∀ t : Fin cfg0.N, condB (grid0.coords t) ↔ ¬ t.val % 12 = 0 :=
  (by decide +kernel : ∀ t : Fin grid0.N, condB (grid0.coords t) ↔ ¬ t.val % 12 = 0)

/-- "This is the last step." -/
abbrev condC (i : grid0.Coords) : Prop := k0_cond3 i = 1#1
/-- It holds at the points 11 and 23. -/
theorem hcondC : ∀ t : Fin cfg0.N, condC (grid0.coords t) ↔ t.val % 12 = 11 :=
  (by decide +kernel : ∀ t : Fin grid0.N, condC (grid0.coords t) ↔ t.val % 12 = 11)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last step the output window is idle, -/
theorem idleAt0_2 : ∀ t : Fin cfg0.N, ¬condC (grid0.coords t) → cfg0.idle 2 (grid0.coords t) = true := by decide +kernel
/-- and not written back; -/
theorem noFlush0_2 : ∀ t : Fin cfg0.N, ¬condC (grid0.coords t) → (cfg0.win 2).flush t = false := by decide +kernel
/-- at the last step it is live. -/
theorem liveAt0_2 : ∀ t : Fin cfg0.N, condC (grid0.coords t) → cfg0.idle 2 (grid0.coords t) = false := by decide +kernel

/-! ## The memrefs the body is called with -/

abbrev ms0_0 (t : Fin cfg0.N) : Memref sig .tc .vmem S4x201 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x201x201 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4x201 .f32 := win0_2.stage (cfg0.slots t 2)
abbrev hs0_2 (t : Fin cfg0.N) : (ms0_2 t).IsWhole := hstage0_2 ((cfg0.slots t 2).cast nbuf0_2)
/-- The carried scratch: a whole buffer of the kernel's own. -/
abbrev scM0 : Memref sig .tc .vmem S32x4x201 .f32 := Memref.whole cc0_scratch0
/-- The views through which the output block's and the scratch's contents are stated. -/
abbrev VO0 : View sig .tc .vmem S32x4x201 .f32 := (Memref.whole cc0_stg2_0 : Memref sig .tc .vmem S32x4x201 .f32).view
abbrev VS0 : View sig .tc .vmem S32x4x201 .f32 := scM0.view

/-- The other scoped buffers of the core, which this region never touches, each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's class invariant with the scratch as a memref owned at some contents. -/
theorem PhiA0_eq (c : Dev nD) :
    (Pipeline.ΦA spec0 c : sProp 𝕄)
      = iprop(iprop((∃ d, owns (c : Thread nD τ) scM0 fullShare d) ∗ otherScoped (F := F) c) ∗ (∃ r, prngReg c r)) := by
  unfold Pipeline.ΦA otherScoped; rw [scopedRest0_eq]; simp only [scM0, owns_whole]; try rfl

end Cert.KernelIdeal.Hand

end
-- ==== Proof.RollKIRunA.lean ====
/-
  The row-vector region's body at step 0: it stores the masked rows of its layer block into the scratch and leaves the output
  block as it found it.
-/
import proofs.«109065_j67542655697208_2_alg».proof.Proof.RollKIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Step 0 on whole memrefs — the mask's at x0, the layer block's at x1, the output block's at xi handed back untouched, the
    scratch's at anything: the body runs to the continuation holding the scratch with the pieces LS written, the rest as they were. -/
noncomputable def kernelRun0_A (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : condA i) (hB : ¬condB i) (hC : ¬condC i)
    (x0 : Vec F S4x201 .f32) (x1 : Vec F S1x32x201x201 .f32) :
    { LS : List (View.Piece (Elt F) S32x4x201 .f32) //
      ∀ (xi : Vec F S32x4x201 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__rollout_kernel i arg2 harg2 arg3 harg3 arg4 harg4 arg5 harg5) K } := by
  refine ⟨?_, fun xi E K => ?run⟩
  case run =>
    simp only [cc0__rollout_kernel_eq_skeleton]; unfold cc0__rollout_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RollKIRunB.lean ====
/-
  The row-vector region's body at a step 1..10: it stores the masked product of the scratch with its layer block into the scratch
  and leaves the output block as it found it.
-/
import proofs.«109065_j67542655697208_2_alg».proof.Proof.RollKIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step on whole memrefs — the mask's at x0, the layer block's at x1, the output block's at xi handed back untouched,
    the scratch's at xs (what the step before left): the body runs to the continuation holding the scratch with the pieces LS
    written, the rest as they were. -/
noncomputable def kernelRun0_B (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : ¬condC i)
    (x0 : Vec F S4x201 .f32) (x1 : Vec F S1x32x201x201 .f32) (xs : Vec F S32x4x201 .f32) :
    { LS : List (View.Piece (Elt F) S32x4x201 .f32) //
      ∀ (xi : Vec F S32x4x201 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__rollout_kernel i arg2 harg2 arg3 harg3 arg4 harg4 arg5 harg5) K } := by
  refine ⟨?_, fun xi E K => ?run⟩
  case run =>
    simp only [cc0__rollout_kernel_eq_skeleton]; unfold cc0__rollout_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.RollKIRunC.lean ====
/-
  The row-vector region's body at the last step: it stores the masked product of the scratch with its layer block into the
  scratch and then copies the scratch into the output block.
-/
import proofs.«109065_j67542655697208_2_alg».proof.Proof.RollKIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last step on whole memrefs — the mask's at x0, the layer block's at x1, the output block's at anything, the scratch's at
    xs (what the step before left): the body runs to the continuation holding the output block with the pieces L2 written and
    the scratch with the pieces LS written, the inputs as they were. -/
noncomputable def kernelRun0_C (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : condC i)
    (x0 : Vec F S4x201 .f32) (x1 : Vec F S1x32x201x201 .f32) (xs : Vec F S32x4x201 .f32) :
    Σ' (L2 : List (View.Piece (Elt F) S32x4x201 .f32)), { LS : List (View.Piece (Elt F) S32x4x201 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__rollout_kernel i arg2 harg2 arg3 harg3 arg4 harg4 arg5 harg5) K } := by
  refine ⟨?_, ?_, fun E K => ?run⟩
  case run =>
    simp only [cc0__rollout_kernel_eq_skeleton]; unfold cc0__rollout_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hA | exact hB | exact hC)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.RollKI.lean ====
/-
  The first kernel region (the row-vector chain) on one core: what the scratch and the output block hold after every point, the
  region's proof data, and the body's obligation at every point.

  After point 12 h + l the scratch holds the carried rows of batch half h after l steps: at l = 0 what the step-0 body stores, at
  l > 0 what the later body stores over what the point before left. The output block of half h is stored at l = 11, from the
  scratch, and written back there.
-/
import proofs.«109065_j67542655697208_2_alg».proof.Proof.RollKIRunA
import proofs.«109065_j67542655697208_2_alg».proof.Proof.RollKIRunB
import proofs.«109065_j67542655697208_2_alg».proof.Proof.RollKIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions at a point of step 0 -/

theorem condA_of (t : Fin cfg0.N) (h0 : t.val % 12 = 0) : condA (grid0.coords t) := (hcondA t).mpr h0
theorem notB_of (t : Fin cfg0.N) (h0 : t.val % 12 = 0) : ¬condB (grid0.coords t) := fun h => (hcondB t).mp h h0
theorem notC_of (t : Fin cfg0.N) (h0 : t.val % 12 = 0) : ¬condC (grid0.coords t) := fun h => by
  have := (hcondC t).mp h; omega

/-! ## What each case leaves -/

/-- The step-0 body's pieces cover the scratch. -/
theorem scoverA (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : condA i) (hB : ¬condB i) (hC : ¬condC i)
    (x0 : Vec F S4x201 .f32) (x1 : Vec F S1x32x201x201 .f32) (y : S32x4x201.Idx) :
    ∃ pc ∈ (kernelRun0_A c i arg2 harg2 arg3 harg3 arg4 harg4 arg5 harg5 hA hB hC x0 x1).1, y ∈ pc.1.set :=
  View.cover_of_tiledL (kernelRun0_A c i arg2 harg2 arg3 harg3 arg4 harg4 arg5 harg5 hA hB hC x0 x1).1 S32x4x201.size (by sl_kernel_rfl) y
/-- What the step-0 body leaves in the scratch. -/
def soutA (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : condA i) (hB : ¬condB i) (hC : ¬condC i)
    (x0 : Vec F S4x201 .f32) (x1 : Vec F S1x32x201x201 .f32) : Vec F S32x4x201 .f32 :=
  VS0.read (Elt F) (VS0.writes (Elt F) VS0.junk (kernelRun0_A c i arg2 harg2 arg3 harg3 arg4 harg4 arg5 harg5 hA hB hC x0 x1).1)

/-- A middle step's pieces cover the scratch. -/
theorem scoverB (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : ¬condC i)
    (x0 : Vec F S4x201 .f32) (x1 : Vec F S1x32x201x201 .f32) (xs : Vec F S32x4x201 .f32) (y : S32x4x201.Idx) :
    ∃ pc ∈ (kernelRun0_B c i arg2 harg2 arg3 harg3 arg4 harg4 arg5 harg5 hA hB hC x0 x1 xs).1, y ∈ pc.1.set :=
  View.cover_of_tiledL (kernelRun0_B c i arg2 harg2 arg3 harg3 arg4 harg4 arg5 harg5 hA hB hC x0 x1 xs).1 S32x4x201.size (by sl_kernel_rfl) y
/-- What a middle step leaves in the scratch. -/
def soutB (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : ¬condC i)
    (x0 : Vec F S4x201 .f32) (x1 : Vec F S1x32x201x201 .f32) (xs : Vec F S32x4x201 .f32) : Vec F S32x4x201 .f32 :=
  VS0.read (Elt F) (VS0.writes (Elt F) VS0.junk (kernelRun0_B c i arg2 harg2 arg3 harg3 arg4 harg4 arg5 harg5 hA hB hC x0 x1 xs).1)

/-- The last step's pieces cover the output block -/
theorem coverC (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : condC i)
    (x0 : Vec F S4x201 .f32) (x1 : Vec F S1x32x201x201 .f32) (xs : Vec F S32x4x201 .f32) (y : S32x4x201.Idx) :
    ∃ pc ∈ (kernelRun0_C c i arg2 harg2 arg3 harg3 arg4 harg4 arg5 harg5 hA hB hC x0 x1 xs).1, y ∈ pc.1.set :=
  View.cover_of_tiledL (kernelRun0_C c i arg2 harg2 arg3 harg3 arg4 harg4 arg5 harg5 hA hB hC x0 x1 xs).1 S32x4x201.size (by sl_kernel_rfl) y
/-- and the scratch. -/
theorem scoverC (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : condC i)
    (x0 : Vec F S4x201 .f32) (x1 : Vec F S1x32x201x201 .f32) (xs : Vec F S32x4x201 .f32) (y : S32x4x201.Idx) :
    ∃ pc ∈ (kernelRun0_C c i arg2 harg2 arg3 harg3 arg4 harg4 arg5 harg5 hA hB hC x0 x1 xs).2.1, y ∈ pc.1.set :=
  View.cover_of_tiledL (kernelRun0_C c i arg2 harg2 arg3 harg3 arg4 harg4 arg5 harg5 hA hB hC x0 x1 xs).2.1 S32x4x201.size (by sl_kernel_rfl) y
/-- What the last step leaves in the output block, -/
def outC (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : condC i)
    (x0 : Vec F S4x201 .f32) (x1 : Vec F S1x32x201x201 .f32) (xs : Vec F S32x4x201 .f32) : Vec F S32x4x201 .f32 :=
  VO0.read (Elt F) (VO0.writes (Elt F) VO0.junk (kernelRun0_C c i arg2 harg2 arg3 harg3 arg4 harg4 arg5 harg5 hA hB hC x0 x1 xs).1)
/-- and in the scratch. -/
def soutC (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : condC i)
    (x0 : Vec F S4x201 .f32) (x1 : Vec F S1x32x201x201 .f32) (xs : Vec F S32x4x201 .f32) : Vec F S32x4x201 .f32 :=
  VS0.read (Elt F) (VS0.writes (Elt F) VS0.junk (kernelRun0_C c i arg2 harg2 arg3 harg3 arg4 harg4 arg5 harg5 hA hB hC x0 x1 xs).2.1)

section Region0

variable (V : (c : Dev nD) → (b : Ref sig .tc) → Buf (Elt F) ((c : Thread nD τ).loc b))

/-! ## The scratch after each point -/

/-- What the scratch holds after the body at position n: the case the step selects, run at the point's memrefs and blocks, a later
    step over what the point before left. -/
def scr0 (c : Dev nD) : (n : ℕ) → n < cfg0.N → Vec F S32x4x201 .f32
  | 0, hn => soutA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (condA_of ⟨0, hn⟩ (Nat.zero_mod _)) (notB_of ⟨0, hn⟩ (Nat.zero_mod _)) (notC_of ⟨0, hn⟩ (Nat.zero_mod _)) (iblk0 V c 0 ⟨0, hn⟩) (iblk0 V c 1 ⟨0, hn⟩)
  | n + 1, hn =>
    if h0 : (n + 1) % 12 = 0 then
      soutA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (condA_of ⟨n + 1, hn⟩ h0) (notB_of ⟨n + 1, hn⟩ h0) (notC_of ⟨n + 1, hn⟩ h0) (iblk0 V c 0 ⟨n + 1, hn⟩) (iblk0 V c 1 ⟨n + 1, hn⟩)
    else
      if h1 : (n + 1) % 12 = 11 then
        soutC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcondA ⟨n + 1, hn⟩).mp h)) ((hcondB ⟨n + 1, hn⟩).mpr h0) ((hcondC ⟨n + 1, hn⟩).mpr h1) (iblk0 V c 0 ⟨n + 1, hn⟩) (iblk0 V c 1 ⟨n + 1, hn⟩) (scr0 c n (Nat.lt_of_succ_lt hn))
      else
        soutB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcondA ⟨n + 1, hn⟩).mp h)) ((hcondB ⟨n + 1, hn⟩).mpr h0) (fun h => h1 ((hcondC ⟨n + 1, hn⟩).mp h)) (iblk0 V c 0 ⟨n + 1, hn⟩) (iblk0 V c 1 ⟨n + 1, hn⟩) (scr0 c n (Nat.lt_of_succ_lt hn))

theorem scr0_A (c : Dev nD) (t : Fin cfg0.N) (h0 : t.val % 12 = 0) :
    scr0 V c t.val t.isLt = soutA c (grid0.coords t) (ms0_0 t) (hs0_0 t) (ms0_1 t) (hs0_1 t) (ms0_2 t) (hs0_2 t) scM0 (Memref.isWhole_whole _) (condA_of t h0) (notB_of t h0) (notC_of t h0) (iblk0 V c 0 t) (iblk0 V c 1 t) := by
  obtain ⟨n, hn⟩ := t
  cases n with
  | zero => exact rfl
  | succ n => exact (dif_pos h0).trans rfl

theorem scr0_B (c : Dev nD) (t : Fin cfg0.N) (h0 : ¬t.val % 12 = 0) (h1 : ¬t.val % 12 = 11) :
    scr0 V c t.val t.isLt = soutB c (grid0.coords t) (ms0_0 t) (hs0_0 t) (ms0_1 t) (hs0_1 t) (ms0_2 t) (hs0_2 t) scM0 (Memref.isWhole_whole _) (fun h => h0 ((hcondA t).mp h)) ((hcondB t).mpr h0) (fun h => h1 ((hcondC t).mp h)) (iblk0 V c 0 t) (iblk0 V c 1 t) (scr0 V c (t.val - 1) (Nat.lt_of_le_of_lt (Nat.sub_le _ _) t.isLt)) := by
  obtain ⟨n, hn⟩ := t
  cases n with
  | zero => exact (by exfalso; exact h0 (Nat.zero_mod _))
  | succ n => exact (dif_neg h0).trans ((dif_neg h1).trans rfl)

theorem scr0_C (c : Dev nD) (t : Fin cfg0.N) (h0 : ¬t.val % 12 = 0) (h1 : t.val % 12 = 11) :
    scr0 V c t.val t.isLt = soutC c (grid0.coords t) (ms0_0 t) (hs0_0 t) (ms0_1 t) (hs0_1 t) (ms0_2 t) (hs0_2 t) scM0 (Memref.isWhole_whole _) (fun h => h0 ((hcondA t).mp h)) ((hcondB t).mpr h0) ((hcondC t).mpr h1) (iblk0 V c 0 t) (iblk0 V c 1 t) (scr0 V c (t.val - 1) (Nat.lt_of_le_of_lt (Nat.sub_le _ _) t.isLt)) := by
  obtain ⟨n, hn⟩ := t
  cases n with
  | zero => exact (by exfalso; exact h0 (Nat.zero_mod _))
  | succ n => exact (dif_neg h0).trans ((dif_pos h1).trans rfl)

/-- What the output block's staging buffer holds after the body at point t: at a last step what that step stores; elsewhere the
    body stores nothing there and the value is a placeholder nothing consults. -/
def out0 (c : Dev nD) (t : Fin cfg0.N) : Vec F S32x4x201 .f32 :=
  if h1 : t.val % 12 = 11 then
    outC c (grid0.coords t) (ms0_0 t) (hs0_0 t) (ms0_1 t) (hs0_1 t) (ms0_2 t) (hs0_2 t) scM0 (Memref.isWhole_whole _) (fun h => (fun h => by omega) ((hcondA t).mp h)) ((hcondB t).mpr (fun h => by omega)) ((hcondC t).mpr h1) (iblk0 V c 0 t) (iblk0 V c 1 t) (scr0 V c (t.val - 1) (Nat.lt_of_le_of_lt (Nat.sub_le _ _) t.isLt))
  else VO0.read (Elt F) VO0.junk

theorem out0_C (c : Dev nD) (t : Fin cfg0.N) (h0 : ¬t.val % 12 = 0) (h1 : t.val % 12 = 11) :
    out0 V c t = outC c (grid0.coords t) (ms0_0 t) (hs0_0 t) (ms0_1 t) (hs0_1 t) (ms0_2 t) (hs0_2 t) scM0 (Memref.isWhole_whole _) (fun h => h0 ((hcondA t).mp h)) ((hcondB t).mpr h0) ((hcondC t).mpr h1) (iblk0 V c 0 t) (iblk0 V c 1 t) (scr0 V c (t.val - 1) (Nat.lt_of_le_of_lt (Nat.sub_le _ _) t.isLt)) := by
  unfold out0; rw [dif_pos h1]

/-! ## The region's invariant -/

/-- Before position n: at the first point the class's invariant (every scoped buffer of the core at anything, the generator
    register at some state); afterwards the scratch at what the point before left, the other scoped buffers at anything, the register
    at some state. -/
def PhiS (c : Dev nD) : (n : ℕ) → n ≤ cfg0.N → sProp 𝕄
  | 0, _ => Pipeline.ΦA spec0 c
  | n + 1, hn => iprop(iprop(owns (c : Thread nD τ) scM0 fullShare (scr0 V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (scr0 V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (scr0 V c (n - 1) (by omega)) ∗ otherScoped (F := F) c) ∗ (∃ r, prngReg c r)) := by
  cases n with
  | zero => exact absurd rfl hz
  | succ n => rfl

/-! ## The proof data -/

/-- The region's proof data on core c: the arrays as the region finds them; after the body at point t the inputs' buffers at
    their blocks and the output's at out0; the invariant PhiS; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the step decides the case; the inputs' memrefs hold their blocks; the invariant hands the body the
    scratch at what the point before left (at anything at the very first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 24 := lt_of_lt_of_eq t.isLt (show cfg0.N = 24 from N_0)
  by_cases h0 : t.val % 12 = 0
  · have hnC : ¬condC (grid0.coords t) := notC_of t h0
    rw [Dat.leavesExact_idle (dat0 V c) 2 t (idleAt0_2 t hnC) (noFlush0_2 t hnC)]
    rw [scr0_A V c t h0]
    unfold soutA; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) (condA_of t h0) (notB_of t h0) (notC_of t h0) (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA c _ _ _ _ _ _ _ _ _ _ _ _ _ _)
          iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) (condA_of t h0) (notB_of t h0) (notC_of t h0) (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA c _ _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 12 = 11
    · rw [show (dat0 V c).leavesExact 2 t = owns (c : Thread nD τ) (ms0_2 t) fullShare ((dat0 V c).after 2 t) from by
        unfold Dat.leavesExact; rw [liveAt0_2 t ((hcondC t).mpr h1)], after0_2]
      rw [scr0_C V c t h0 h1, out0_C V c t h0 h1]
      unfold outC soutC; (try dsimp only)
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) (fun h => h0 ((hcondA t).mp h)) ((hcondB t).mpr h0) ((hcondC t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverC c _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverC c _ _ _ _ _ _ _ _ _ _ _ _ _ _ _)
    · have hnC : ¬condC (grid0.coords t) := fun h => h1 ((hcondC t).mp h)
      rw [Dat.leavesExact_idle (dat0 V c) 2 t (idleAt0_2 t hnC) (noFlush0_2 t hnC)]
      rw [scr0_B V c t h0 h1]
      unfold soutB; (try dsimp only)
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcondA t).mp h)) ((hcondB t).mpr h0) (fun h => h1 ((hcondC t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverB c _ _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 24 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end Region0

end Cert.KernelIdeal.Hand

end
-- ==== Proof.ProjKI.lean ====
/-
  The second grid region of the program: the projection kernel over six grid points.

  Window 0 is the whole row-vector array [64, 4, 196], fetched once. Window 1 is the feature array [64, 196, 768] in six
  column blocks [64, 196, 128]. Window 2 is the result array [64, 4, 768] in six column blocks [64, 4, 128], written back at
  every point.

  At a point the body reads the two input blocks whole, rectifies the feature block (maximum with zero), contracts the token
  axis of the row vectors against it into a zero accumulator, and stores the product over the whole output block. The body
  also reads the output block before it stores it; the value read is not used, so the output block's previous contents do
  not matter.

  This module states, at any contents V of the core's buffers when the region is entered and for any float model F:
  each window's block at a point; what the body leaves in the output block as a function of the two input blocks; the
  body's triple; the region's proof data; and the body obligation at every point.
-/
import proofs.«109065_j67542655697208_2_alg».proof.Proof.Gen.KernelIdeal.Launch
import proofs.«109065_j67542655697208_2_alg».proof.Proof.Gen.KernelIdeal.Skeleton
import proofs.«109065_j67542655697208_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-vector window's current staging buffer holds its block at every point, whether the point fetches it or not (an
    unfetched point has the same block index as the point before it), for any proof data over the entry contents whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the feature window, which every point fetches. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its block -/

abbrev r1_0 : Rect S64x4x196 := Rect.unit (s := S64x4x196) ![0, 0, 0] S64x4x196.size inb_S64x4x196_S64x4x196_0_0_0
abbrev r1_1 : Rect S64x196x128 := Rect.unit (s := S64x196x128) ![0, 0, 0] S64x196x128.size inb_S64x196x128_S64x196x128_0_0_0
abbrev r1_2 : Rect S64x4x128 := Rect.unit (s := S64x4x128) ![0, 0, 0] S64x4x128.size inb_S64x4x128_S64x4x128_0_0_0

/-! ## What the body leaves in the output block -/

/-- The output block after the body, from the two input blocks: its one store, of the product of the row vectors with the
    rectified features, over the whole block. -/
def out1_2 (x0 : Vec F S64x4x196 .f32) (x1 : Vec F S64x196x128 .f32) : Vec F S64x4x128 .f32 :=
  View.canon [⟨r1_2, k1_pay1 (View.ld x0 r1_0) (View.ld x1 r1_1)⟩]

/-- The one store is over the whole block, so it covers it. -/
theorem cover1_2 (p0 : Vec F S64x4x128 .f32) (y : S64x4x128.Idx) :
    ∃ pc ∈ ([⟨r1_2, p0⟩] : List (View.Piece (Elt F) S64x4x128 .f32)), y ∈ pc.1.set :=
  View.cover_of_tiled [⟨r1_2, p0⟩] S64x4x128.size (by rfl) y

/-! ## The body's triple -/

set_option maxHeartbeats 1000000 in
/-- The body on whole staging memrefs, the two inputs' at read contents x0 and x1 and the output's at anything, runs to the
    continuation holding the inputs' as they were and the output's at out1_2 x0 x1. The body's read of the output block
    before its store returns whatever the block held and feeds nothing. -/
theorem sound_kernel1 (c : Dev nD) (E : Set ℕ) (i : grid1.Coords) (arg1 : Memref sig .tc .vmem S64x4x196 .f32) (harg1 : arg1.IsWhole) (arg2 : Memref sig .tc .vmem S64x196x128 .f32) (harg2 : arg2.IsWhole) (arg3 : Memref sig .tc .vmem S64x4x128 .f32) (harg3 : arg3.IsWhole)
    (x0 : Vec F S64x4x196 .f32) (x1 : Vec F S64x196x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of the region on core c: the arrays as the region finds them; after the body at point t each input's
    buffer at its block and the output's at out1_2 of the two input blocks; the invariant that of a body touching only its
    windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameKI.lean ====
/-
  The whole program on the several-regions launch: the contents of every buffer at each boundary between @main's four items (the
  mask constant, the row-vector region, the two slices, the projection region) as a fold from the launch memory; each region as
  a segment entered from the boundary before it and left at the one after it; and the run: every weakly fair execution ends, and
  every unscoped buffer then holds the last boundary's contents.
-/
import proofs.«109065_j67542655697208_2_alg».proof.Proof.RollKI
import proofs.«109065_j67542655697208_2_alg».proof.Proof.ProjKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the mask constant (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the two slices (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W2_main_arg0 m ρ c

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_main_arg1 m ρ c

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun s h c =>
    ⟨(h c _ (mem_uc main_arg0 (by decide))).trans (W4_main_arg0 m ρ c),
     (h c _ (mem_uc main_arg1 (by decide))).trans (W4_main_arg1 m ρ c)⟩) (run m ρ)

end Cert.KernelIdeal.Hand

end
-- ==== Proof.RollKIPiece.lean ====
/-
  What each case of the row-vector region's body leaves, as the body's own arithmetic of what it loaded: the step-0 case stores
  the first payload (the masked rows), the later cases the second (the masked product), and the last step copies that into the
  output block.
-/
import proofs.«109065_j67542655697208_2_alg».proof.Proof.RollKI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := by
  funext a; match a with | ⟨0, _⟩ => rfl | ⟨1, _⟩ => rfl
theorem zeros3 : (![0, 0, 0] : Fin 3 → Nat) = fun _ => 0 := by
  funext a; match a with | ⟨0, _⟩ => rfl | ⟨1, _⟩ => rfl | ⟨2, _⟩ => rfl
theorem zeros4 : (![0, 0, 0, 0] : Fin 4 → Nat) = fun _ => 0 := by
  funext a; match a with | ⟨0, _⟩ => rfl | ⟨1, _⟩ => rfl | ⟨2, _⟩ => rfl | ⟨3, _⟩ => rfl

/-- Step 0 leaves the masked rows of the layer block in the scratch. -/
theorem soutA_eq (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : condA i) (hB : ¬condB i) (hC : ¬condC i)
    (x0 : Vec F S4x201 .f32) (x1 : Vec F S1x32x201x201 .f32) :
    soutA c i arg2 harg2 arg3 harg3 arg4 harg4 arg5 harg5 hA hB hC x0 x1 = k0_pay1 x1 x0 := by
  unfold soutA
  rw [View.read_writes_eq_canon _ _ _ (scoverA c i arg2 harg2 arg3 harg3 arg4 harg4 arg5 harg5 hA hB hC x0 x1)]
  unfold kernelRun0_A
  dsimp only
  rw [View.canon_unit_zero zeros3]
  simp only [View.readAt_eq_ld, harg3.read_unread, harg2.read_unread, View.ld_unit_zero (S := S1x32x201x201) zeros4, View.ld_unit_zero (S := S4x201) zeros2]
  try rfl

/-- A middle step leaves the masked product of the scratch with the layer block in the scratch. -/
theorem soutB_eq (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : ¬condC i)
    (x0 : Vec F S4x201 .f32) (x1 : Vec F S1x32x201x201 .f32) (xs : Vec F S32x4x201 .f32) :
    soutB c i arg2 harg2 arg3 harg3 arg4 harg4 arg5 harg5 hA hB hC x0 x1 xs = k0_pay2 xs x1 x0 := by
  unfold soutB
  rw [View.read_writes_eq_canon _ _ _ (scoverB c i arg2 harg2 arg3 harg3 arg4 harg4 arg5 harg5 hA hB hC x0 x1 xs)]
  unfold kernelRun0_B
  dsimp only
  rw [View.canon_unit_zero zeros3]
  simp only [View.readAt_eq_ld, harg5.read_unread, harg3.read_unread, harg2.read_unread, View.ld_unit_zero (S := S32x4x201) zeros3, View.ld_unit_zero (S := S1x32x201x201) zeros4, View.ld_unit_zero (S := S4x201) zeros2]
  try rfl

/-- The last step leaves the same in the scratch, -/
theorem soutC_eq (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : condC i)
    (x0 : Vec F S4x201 .f32) (x1 : Vec F S1x32x201x201 .f32) (xs : Vec F S32x4x201 .f32) :
    soutC c i arg2 harg2 arg3 harg3 arg4 harg4 arg5 harg5 hA hB hC x0 x1 xs = k0_pay2 xs x1 x0 := by
  unfold soutC
  rw [View.read_writes_eq_canon _ _ _ (scoverC c i arg2 harg2 arg3 harg3 arg4 harg4 arg5 harg5 hA hB hC x0 x1 xs)]
  unfold kernelRun0_C
  dsimp only
  sl_unfold_words
  rw [View.canon_unit_zero zeros3]
  simp only [View.readAt_eq_ld, harg5.read_unread, harg3.read_unread, harg2.read_unread, View.ld_unit_zero (S := S32x4x201) zeros3, View.ld_unit_zero (S := S1x32x201x201) zeros4, View.ld_unit_zero (S := S4x201) zeros2]
  try rfl

/-- and, copied from there, in the output block. -/
theorem outC_eq (c : Dev nD) (i : grid0.Coords) (arg2 : Memref sig .tc .vmem S4x201 .f32) (harg2 : arg2.IsWhole) (arg3 : Memref sig .tc .vmem S1x32x201x201 .f32) (harg3 : arg3.IsWhole) (arg4 : Memref sig .tc .vmem S32x4x201 .f32) (harg4 : arg4.IsWhole) (arg5 : Memref sig .tc .vmem S32x4x201 .f32) (harg5 : arg5.IsWhole) (hA : ¬condA i) (hB : condB i) (hC : condC i)
    (x0 : Vec F S4x201 .f32) (x1 : Vec F S1x32x201x201 .f32) (xs : Vec F S32x4x201 .f32) :
    outC c i arg2 harg2 arg3 harg3 arg4 harg4 arg5 harg5 hA hB hC x0 x1 xs = k0_pay2 xs x1 x0 := by
  unfold outC
  rw [View.read_writes_eq_canon _ _ _ (coverC c i arg2 harg2 arg3 harg3 arg4 harg4 arg5 harg5 hA hB hC x0 x1 xs)]
  unfold kernelRun0_C
  dsimp only
  sl_unfold_words
  rw [View.canon_unit_zero zeros3]
  simp only [View.readAt_eq_ld, harg5.read_unread, harg3.read_unread, harg2.read_unread, View.ld_unit_zero (S := S32x4x201) zeros3, View.ld_unit_zero (S := S1x32x201x201) zeros4, View.ld_unit_zero (S := S4x201) zeros2]
  exact View.readCov_unit_zero _ zeros3 _ _

end Cert.KernelIdeal.Hand

end
-- ==== Proof.PayKI.lean ====
/-
  The first region's arithmetic at one entry, on the extended reals.

  The body holds a mask m (row e, token p), a block of 32 square matrices of order 201 (x1, with a leading unit axis), and, at
  the later points, the carried block of row vectors xs (batch b, row e, token q).

  The first payload starts the row vectors: entry (b, e, p) is the mask entry (e, p) times entry (e + 1, p) of matrix b (rows
  1..4 of each matrix, cut out one row at a time and laid side by side along the row axis).

  The second payload carries them one layer on: entry (b, e, p) is the mask entry (e, p) times the sum over the tokens q of
  the carried entry (b, e, q) times entry (q, p) of matrix b (a batched product into a zero accumulator, a plain sum on the
  extended reals).
-/
import proofs.«109065_j67542655697208_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

/-! ## The mask, spread over the batches -/

/-- The mask with a unit axis put in front and repeated over the 32 batches reads, at (b, e, p), the mask at (e, p). -/
theorem mask_spread_apply (x0 : Vec Ideal S4x201 .f32) (b : Fin 32) (e : Fin 4) (p : Fin 201) :
    broadcastTo S32x4x201 (shapeCast S1x4x201 x0 shapeCasts_S4x201_S1x4x201) broadcasts_S1x4x201_S32x4x201 (ix3 b e p)
      = x0 (ix2 e p) := by
  refine (broadcastTo_apply _ broadcasts_S1x4x201_S32x4x201 (ix3 b e p) (ix3 (0 : Fin 1) e p) fun a => ?_).trans ?_
  · match a with
    | ⟨0, _⟩ => rfl
    | ⟨1, _⟩ => rfl
    | ⟨2, _⟩ => rfl
  · refine (shapeCast_addUnit_apply ![4, 201] x0 shapeCasts_S4x201_S1x4x201 (ix3 (0 : Fin 1) e p)).trans ?_
    refine congrArg x0 (funext fun a => ?_)
    match a with
    | ⟨0, _⟩ => rfl
    | ⟨1, _⟩ => rfl

/-! ## The matrices' block without its unit axis -/

/-- The block of matrices with its leading unit axis dropped reads, at (b, r, p), the block at (0, b, r, p). -/
theorem mats_apply (x1 : Vec Ideal S1x32x201x201 .f32) (b : Fin 32) (r : Fin 201) (p : Fin 201) :
    shapeCast S32x201x201 x1 shapeCasts_S1x32x201x201_S32x201x201 (ix3 b r p) = x1 (ix4 (0 : Fin 1) b r p) := by
  refine (shapeCast_dropUnit_apply ![32, 201, 201] x1 shapeCasts_S1x32x201x201_S32x201x201 (ix3 b r p)).trans ?_
  refine congrArg x1 (funext fun a => ?_)
  match a with
  | ⟨0, _⟩ => rfl
  | ⟨1, _⟩ => rfl
  | ⟨2, _⟩ => rfl
  | ⟨3, _⟩ => rfl

/-- One row r of every matrix, cut out as a block with a unit row axis, reads at (b, 0, p) the block at (0, b, r, p). -/
theorem row_slice_apply (x1 : Vec Ideal S1x32x201x201 .f32) (r : Fin 201) (h : S32x201x201.Slices ![0, r.val, 0] S32x1x201)
    (b : Fin 32) (p : Fin 201) :
    extractStridedSlice S32x1x201 ![0, r.val, 0] (shapeCast S32x201x201 x1 shapeCasts_S1x32x201x201_S32x201x201) h (ix3 b (0 : Fin 1) p)
      = x1 (ix4 (0 : Fin 1) b r p) := by
  refine (extractStridedSlice_apply _ _ h (ix3 b (0 : Fin 1) p) (ix3 b r p) fun a => ?_).trans (mats_apply x1 b r p)
  match a with
  | ⟨0, _⟩ => show b.val = 0 + b.val; omega
  | ⟨1, _⟩ => show r.val = r.val + 0; omega
  | ⟨2, _⟩ => show p.val = 0 + p.val; omega

/-! ## Four unit-row blocks laid side by side along the row axis -/

/-- Four blocks with a unit row axis, concatenated along the row axis, read at row e the e-th block at its one row. -/
theorem rows_concat_apply (v0 v1 v2 v3 : FVec Ideal S32x1x201 .f32) (b : Fin 32) (p : Fin 201) :
    (concatenate S32x4x201 1 [⟨S32x1x201, v0⟩, ⟨S32x1x201, v1⟩, ⟨S32x1x201, v2⟩, ⟨S32x1x201, v3⟩]
        concatenates_S32x1x201_S32x1x201_S32x1x201_S32x1x201_S32x4x201_d1 (ix3 b (0 : Fin 4) p) = v0 (ix3 b (0 : Fin 1) p))
    ∧ (concatenate S32x4x201 1 [⟨S32x1x201, v0⟩, ⟨S32x1x201, v1⟩, ⟨S32x1x201, v2⟩, ⟨S32x1x201, v3⟩]
        concatenates_S32x1x201_S32x1x201_S32x1x201_S32x1x201_S32x4x201_d1 (ix3 b (1 : Fin 4) p) = v1 (ix3 b (0 : Fin 1) p))
    ∧ (concatenate S32x4x201 1 [⟨S32x1x201, v0⟩, ⟨S32x1x201, v1⟩, ⟨S32x1x201, v2⟩, ⟨S32x1x201, v3⟩]
        concatenates_S32x1x201_S32x1x201_S32x1x201_S32x1x201_S32x4x201_d1 (ix3 b (2 : Fin 4) p) = v2 (ix3 b (0 : Fin 1) p))
    ∧ (concatenate S32x4x201 1 [⟨S32x1x201, v0⟩, ⟨S32x1x201, v1⟩, ⟨S32x1x201, v2⟩, ⟨S32x1x201, v3⟩]
        concatenates_S32x1x201_S32x1x201_S32x1x201_S32x1x201_S32x4x201_d1 (ix3 b (3 : Fin 4) p) = v3 (ix3 b (0 : Fin 1) p)) := by
  refine ⟨?_, ?_, ?_, ?_⟩
  · exact concatenate_apply_piece (1 : Fin 3) [⟨S32x1x201, v0⟩, ⟨S32x1x201, v1⟩, ⟨S32x1x201, v2⟩, ⟨S32x1x201, v3⟩] _ (ix3 b (0 : Fin 4) p)
      0 (by show (0 : ℕ) < 4; omega) S32x1x201 v0 rfl rfl 0 rfl (ix3 b (0 : Fin 1) p)
      (fun a ha => by match a with | ⟨0, _⟩ => rfl | ⟨1, _⟩ => exact absurd rfl ha | ⟨2, _⟩ => rfl) rfl
  · exact concatenate_apply_piece (1 : Fin 3) [⟨S32x1x201, v0⟩, ⟨S32x1x201, v1⟩, ⟨S32x1x201, v2⟩, ⟨S32x1x201, v3⟩] _ (ix3 b (1 : Fin 4) p)
      1 (by show (1 : ℕ) < 4; omega) S32x1x201 v1 rfl rfl 1 rfl (ix3 b (0 : Fin 1) p)
      (fun a ha => by match a with | ⟨0, _⟩ => rfl | ⟨1, _⟩ => exact absurd rfl ha | ⟨2, _⟩ => rfl) rfl
  · exact concatenate_apply_piece (1 : Fin 3) [⟨S32x1x201, v0⟩, ⟨S32x1x201, v1⟩, ⟨S32x1x201, v2⟩, ⟨S32x1x201, v3⟩] _ (ix3 b (2 : Fin 4) p)
      2 (by show (2 : ℕ) < 4; omega) S32x1x201 v2 rfl rfl 2 rfl (ix3 b (0 : Fin 1) p)
      (fun a ha => by match a with | ⟨0, _⟩ => rfl | ⟨1, _⟩ => exact absurd rfl ha | ⟨2, _⟩ => rfl) rfl
  · exact concatenate_apply_piece (1 : Fin 3) [⟨S32x1x201, v0⟩, ⟨S32x1x201, v1⟩, ⟨S32x1x201, v2⟩, ⟨S32x1x201, v3⟩] _ (ix3 b (3 : Fin 4) p)
      3 (by show (3 : ℕ) < 4; omega) S32x1x201 v3 rfl rfl 3 rfl (ix3 b (0 : Fin 1) p)
      (fun a ha => by match a with | ⟨0, _⟩ => rfl | ⟨1, _⟩ => exact absurd rfl ha | ⟨2, _⟩ => rfl) rfl

/-! ## The first payload at an entry -/

/-- Entry (b, e, p) of the first payload: the mask entry times row e + 1 of matrix b at token p. -/
theorem pay1_apply (x1 : Vec Ideal S1x32x201x201 .f32) (x0 : Vec Ideal S4x201 .f32) (b : Fin 32) (e : Fin 4) (p : Fin 201) :
    Gen.k0_pay1 (F := Ideal) x1 x0 (ix3 b e p) = x0 (ix2 e p) * x1 (ix4 (0 : Fin 1) b (⟨e.val + 1, by omega⟩ : Fin 201) p) := by
  unfold Gen.k0_pay1
  simp only [shapeCast_self, mulf_apply]
  rw [mask_spread_apply]
  congr 1
  obtain ⟨h0, h1, h2, h3⟩ := rows_concat_apply
    (extractStridedSlice S32x1x201 ![0, 1, 0] (shapeCast S32x201x201 x1 shapeCasts_S1x32x201x201_S32x201x201) slices_S32x201x201_o0_1_0_S32x1x201)
    (extractStridedSlice S32x1x201 ![0, 2, 0] (shapeCast S32x201x201 x1 shapeCasts_S1x32x201x201_S32x201x201) slices_S32x201x201_o0_2_0_S32x1x201)
    (extractStridedSlice S32x1x201 ![0, 3, 0] (shapeCast S32x201x201 x1 shapeCasts_S1x32x201x201_S32x201x201) slices_S32x201x201_o0_3_0_S32x1x201)
    (extractStridedSlice S32x1x201 ![0, 4, 0] (shapeCast S32x201x201 x1 shapeCasts_S1x32x201x201_S32x201x201) slices_S32x201x201_o0_4_0_S32x1x201)
    b p
  match e with
  | ⟨0, _⟩ => exact h0.trans (row_slice_apply x1 (⟨1, by omega⟩ : Fin 201) slices_S32x201x201_o0_1_0_S32x1x201 b p)
  | ⟨1, _⟩ => exact h1.trans (row_slice_apply x1 (⟨2, by omega⟩ : Fin 201) slices_S32x201x201_o0_2_0_S32x1x201 b p)
  | ⟨2, _⟩ => exact h2.trans (row_slice_apply x1 (⟨3, by omega⟩ : Fin 201) slices_S32x201x201_o0_3_0_S32x1x201 b p)
  | ⟨3, _⟩ => exact h3.trans (row_slice_apply x1 (⟨4, by omega⟩ : Fin 201) slices_S32x201x201_o0_4_0_S32x1x201 b p)

/-! ## The batched product's operand indices, coordinate by coordinate -/

theorem roll_lhs_0 (i : S32x4x201.Idx) (q : dot_S32x4x201_S32x201x201_S32x4x201_2_1_1_2_0_0.contr.Idx) :
    (dot_S32x4x201_S32x201x201_S32x4x201_2_1_1_2_0_0.lhsIdx i q 0).val = (i 0).val := by
  unfold DotDims.lhsIdx
  rw [dif_pos (show (0 : Fin S32x4x201.rank) ∈ dot_S32x4x201_S32x201x201_S32x4x201_2_1_1_2_0_0.lhsBatch by decide)]
  rfl
theorem roll_lhs_1 (i : S32x4x201.Idx) (q : dot_S32x4x201_S32x201x201_S32x4x201_2_1_1_2_0_0.contr.Idx) :
    (dot_S32x4x201_S32x201x201_S32x4x201_2_1_1_2_0_0.lhsIdx i q 1).val = (i 1).val := by
  unfold DotDims.lhsIdx
  rw [dif_neg (show ¬(1 : Fin S32x4x201.rank) ∈ dot_S32x4x201_S32x201x201_S32x4x201_2_1_1_2_0_0.lhsBatch by decide), dif_pos (show (1 : Fin S32x4x201.rank) ∈ dot_S32x4x201_S32x201x201_S32x4x201_2_1_1_2_0_0.lhsNonContracting by decide)]
  rfl
theorem roll_lhs_2 (i : S32x4x201.Idx) (q : dot_S32x4x201_S32x201x201_S32x4x201_2_1_1_2_0_0.contr.Idx) :
    (dot_S32x4x201_S32x201x201_S32x4x201_2_1_1_2_0_0.lhsIdx i q 2).val = (q ⟨0, by decide⟩).val :=
  dot_S32x4x201_S32x201x201_S32x4x201_2_1_1_2_0_0.lhsIdx_val_of_single rfl i q
theorem roll_rhs_0 (i : S32x4x201.Idx) (q : dot_S32x4x201_S32x201x201_S32x4x201_2_1_1_2_0_0.contr.Idx) :
    (dot_S32x4x201_S32x201x201_S32x4x201_2_1_1_2_0_0.rhsIdx i q 0).val = (i 0).val := by
  unfold DotDims.rhsIdx
  rw [dif_pos (show (0 : Fin S32x201x201.rank) ∈ dot_S32x4x201_S32x201x201_S32x4x201_2_1_1_2_0_0.rhsBatch by decide)]
  rfl
theorem roll_rhs_1 (i : S32x4x201.Idx) (q : dot_S32x4x201_S32x201x201_S32x4x201_2_1_1_2_0_0.contr.Idx) :
    (dot_S32x4x201_S32x201x201_S32x4x201_2_1_1_2_0_0.rhsIdx i q 1).val = (q ⟨0, by decide⟩).val :=
  dot_S32x4x201_S32x201x201_S32x4x201_2_1_1_2_0_0.rhsIdx_val_of_single rfl i q
theorem roll_rhs_2 (i : S32x4x201.Idx) (q : dot_S32x4x201_S32x201x201_S32x4x201_2_1_1_2_0_0.contr.Idx) :
    (dot_S32x4x201_S32x201x201_S32x4x201_2_1_1_2_0_0.rhsIdx i q 2).val = (i 2).val := by
  unfold DotDims.rhsIdx
  rw [dif_neg (show ¬(2 : Fin S32x201x201.rank) ∈ dot_S32x4x201_S32x201x201_S32x4x201_2_1_1_2_0_0.rhsBatch by decide), dif_pos (show (2 : Fin S32x201x201.rank) ∈ dot_S32x4x201_S32x201x201_S32x4x201_2_1_1_2_0_0.rhsNonContracting by decide)]
  rfl

/-! ## The second payload at an entry -/

/-- Entry (b, e, p) of the second payload: the mask entry times the carried row vector into column p of matrix b. -/
theorem pay2_apply (xs : Vec Ideal S32x4x201 .f32) (x1 : Vec Ideal S1x32x201x201 .f32) (x0 : Vec Ideal S4x201 .f32)
    (b : Fin 32) (e : Fin 4) (p : Fin 201) :
    Gen.k0_pay2 (F := Ideal) xs x1 x0 (ix3 b e p) = x0 (ix2 e p) * ∑ q : Fin 201, xs (ix3 b e q) * x1 (ix4 (0 : Fin 1) b q p) := by
  unfold Gen.k0_pay2
  simp only [shapeCast_self, mulf_apply]
  rw [mask_spread_apply]
  congr 1
  refine (Ideal.matmul_constant_zero_apply dot_S32x4x201_S32x201x201_S32x4x201_2_1_1_2_0_0 (some .fp32) _ _ (ix3 b e p)).trans ?_
  rw [← Equiv.sum_comp (contrEquiv1 dot_S32x4x201_S32x201x201_S32x4x201_2_1_1_2_0_0 201 rfl rfl).symm]
  refine Finset.sum_congr rfl fun k _ => ?_
  have hk := contrEquiv1_symm_val dot_S32x4x201_S32x201x201_S32x4x201_2_1_1_2_0_0 201 rfl rfl k
  have el : dot_S32x4x201_S32x201x201_S32x4x201_2_1_1_2_0_0.lhsIdx (ix3 b e p) ((contrEquiv1 dot_S32x4x201_S32x201x201_S32x4x201_2_1_1_2_0_0 201 rfl rfl).symm k) = ix3 b e k := funext fun a => Fin.ext (by
    match a with
    | ⟨0, _⟩ => exact roll_lhs_0 _ _
    | ⟨1, _⟩ => exact roll_lhs_1 _ _
    | ⟨2, _⟩ => exact (roll_lhs_2 _ _).trans hk)
  have er : dot_S32x4x201_S32x201x201_S32x4x201_2_1_1_2_0_0.rhsIdx (ix3 b e p) ((contrEquiv1 dot_S32x4x201_S32x201x201_S32x4x201_2_1_1_2_0_0 201 rfl rfl).symm k) = ix3 b k p := funext fun a => Fin.ext (by
    match a with
    | ⟨0, _⟩ => exact roll_rhs_0 _ _
    | ⟨1, _⟩ => exact (roll_rhs_1 _ _).trans hk
    | ⟨2, _⟩ => exact roll_rhs_2 _ _)
  rw [el, er, mats_apply]

end Cert.KernelIdeal.Hand

end
-- ==== Proof.Spec.lean ====
/-
  The two programs as functions of their argument arrays, index by index, on the extended reals.

  The arguments are a stack of twelve layers of 64 square matrices of order 201 (x, indexed layer, batch, row, column)
  and 64 feature matrices of 201 rows and 768 columns (f, indexed batch, row, column). The result has, per batch b, four
  rows e = 0..3 and 768 columns.

  Row e belongs to the class token e + 1 and to a range of tokens [lo e, hi e) inside [5, 201); its index set is the
  token together with the range.

  One side ("carry") follows a row vector through the layers from the last to the first: start with row (e + 1) of layer 11,
  zeroed outside the index set; at each further layer multiply the vector into the layer's matrix and zero it outside the
  index set again. The result row is the carried vector's entries at tokens 5..200 against the rectified features.

  The other side ("chain") forms the product of the twelve layers' matrices restricted to the index set, nested to the
  right (layer i + 1 times the product of the layers below it), takes its row (e + 1) at the columns of the range, and
  multiplies that into the rectified features of the range.
-/
import Idealize.ShloMosaic.PureOps.Ideal
import Idealize.ShloMosaic.Lib.ValueIdx

noncomputable section

open scoped BigOperators

namespace Cert.Rollout

open Idealize.ShloMosaic Idealize.ShloMosaic.ValueIdx

/-- The layers: layer, batch, row, column. -/
abbrev SX : Shape := ⟨4, ![12, 64, 201, 201]⟩
/-- The features: batch, token, feature. -/
abbrev SF : Shape := ⟨3, ![64, 201, 768]⟩

/-- The class token of result row e. -/
def tok (e : Fin 4) : Fin 201 := ⟨e.val + 1, by omega⟩
/-- The first token of row e's range, -/
def lo (e : Fin 4) : ℕ := ![5, 5, 54, 103] e
/-- and the first token after it. -/
def hi (e : Fin 4) : ℕ := ![201, 103, 152, 201] e

/-- Token p lies in row e's range. -/
def InRange (e : Fin 4) (p : Fin 201) : Prop := lo e ≤ p.val ∧ p.val < hi e
/-- Token p lies in row e's index set: the class token or a token of the range. -/
def InPart (e : Fin 4) (p : Fin 201) : Prop := p = tok e ∨ InRange e p

instance (e : Fin 4) : DecidablePred (InRange e) := fun _ => by unfold InRange; infer_instance
instance (e : Fin 4) : DecidablePred (InPart e) := fun _ => by unfold InPart; infer_instance

/-- Row e's range as a finite set of tokens, -/
def rangeSet (e : Fin 4) : Finset (Fin 201) := Finset.univ.filter (InRange e)
/-- and its index set. -/
def partSet (e : Fin 4) : Finset (Fin 201) := Finset.univ.filter (InPart e)

/-- One on the index set, zero off it. -/
def maskVal (e : Fin 4) (p : Fin 201) : EReal := if InPart e p then 1 else 0

/-- The layer met after k steps down from the last one (layer 11 - k). -/
def layerAt (k : ℕ) : Fin 12 := ⟨11 - k, by omega⟩

/-- The token 5 + p of the union range [5, 201). -/
def tok5 (p : Fin 196) : Fin 201 := ⟨p.val + 5, by omega⟩

/-- The carried row vector after k steps down from layer 11: row (e + 1) of layer 11 zeroed off the index set, then, per step,
    multiplied into the next layer's matrix and zeroed off the index set again. -/
def carry (x : SX.Idx → EReal) : ℕ → Fin 64 → Fin 4 → Fin 201 → EReal
  | 0, b, e, p => maskVal e p * x (ix4 (11 : Fin 12) b (tok e) p)
  | k + 1, b, e, p => maskVal e p * ∑ q : Fin 201, carry x k b e q * x (ix4 (layerAt (k + 1)) b q p)

/-- The carried side's result: the vector after all twelve layers, at the tokens 5..200, against the rectified features. -/
def carryOut (x : SX.Idx → EReal) (f : SF.Idx → EReal) (b : Fin 64) (e : Fin 4) (d : Fin 768) : EReal :=
  ∑ p : Fin 196, carry x 11 b e (tok5 p) * max (f (ix3 b (tok5 p) d)) 0

/-- The product of the layers 0..i restricted to row e's index set, nested to the right. -/
def chain (x : SX.Idx → EReal) (e : Fin 4) : ℕ → Fin 64 → Fin 201 → Fin 201 → EReal
  | 0, b, r, c => x (ix4 (0 : Fin 12) b r c)
  | i + 1, b, r, c => ∑ q ∈ partSet e, x (ix4 (⟨(i + 1) % 12, Nat.mod_lt _ (by norm_num)⟩ : Fin 12) b r q) * chain x e i b q c

/-- The chained side's result: row (e + 1) of the whole product at the range's columns, into the range's rectified features. -/
def chainOut (x : SX.Idx → EReal) (f : SF.Idx → EReal) (b : Fin 64) (e : Fin 4) (d : Fin 768) : EReal :=
  ∑ j ∈ rangeSet e, chain x e 11 b (tok e) j * max (f (ix3 b j d)) 0

/-- The result array's shape: batch, row, feature. -/
abbrev SO : Shape := ⟨3, ![64, 4, 768]⟩
/-- A function of the three coordinates as an array over the result's indices. -/
def outArr (g : Fin 64 → Fin 4 → Fin 768 → EReal) : SO.Idx → EReal := fun i => g (i 0) (i 1) (i 2)

/-- Every entry of an array is a real number. -/
def AllReal {S : Shape} (x : S.Idx → EReal) : Prop := ∀ i, ∃ r : ℝ, x i = (r : EReal)

end Cert.Rollout

end
-- ==== Proof.RollKIValue.lean ====
/-
  The value of the row-vector region on the extended reals.

  Point n = 12 h + l of the grid works on batch half h (batches 32 h .. 32 h + 31) and reads layer 11 - l. By induction on the
  point, the scratch after point n holds, at (b, e, p), the specification's carried row vector of batch 32 h + b and result row e after
  l steps, at token p — given that the mask array holds one on a row's index set and zero off it. The output array's block h is
  stored and written back at l = 11, from the scratch, so the array ends holding the carried vectors after all twelve layers.
-/
import proofs.«109065_j67542655697208_2_alg».proof.Proof.RollKIPiece
import proofs.«109065_j67542655697208_2_alg».proof.Proof.PayKI
import proofs.«109065_j67542655697208_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Rollout (carry maskVal tok layerAt)

/-- The batch that row b of batch half (n / 12) is. -/
def batchOf (n : ℕ) (b : Fin 32) : Fin 64 := ⟨32 * ((n / 12) % 2) + b.val, by have := b.isLt; have := Nat.mod_lt (n / 12) (by norm_num : 0 < 2); omega⟩

/-- What the scratch holds after point n, as the specification states it: the carried vectors of the point's batch half after
    n mod 12 steps. -/
def carryBlk (x : S12x64x201x201.Idx → EReal) (n : ℕ) : S32x4x201.Idx → EReal :=
  fun j => carry x (n % 12) (batchOf n (j 0)) (j 1) (j 2)

/-- Step 0's payload on a point's blocks: the masked rows of layer 11. -/
theorem first_apply (x : S12x64x201x201.Idx → EReal) (x1 : Vec Ideal S1x32x201x201 .f32) (x0 : Vec Ideal S4x201 .f32) (n : ℕ)
    (hn : n % 12 = 0)
    (h0 : ∀ (e : Fin 4) (p : Fin 201), x0 (ix2 e p) = maskVal e p)
    (h1 : ∀ (b : Fin 32) (q p : Fin 201), x1 (ix4 (0 : Fin 1) b q p) = x (ix4 (layerAt (n % 12)) (batchOf n b) q p)) :
    k0_pay1 (F := Ideal) x1 x0 = carryBlk x n := by
  funext j
  obtain ⟨b, e, p, rfl⟩ : ∃ (b : Fin 32) (e : Fin 4) (p : Fin 201), j = ix3 b e p := ⟨j 0, j 1, j 2, eq_ix3 j⟩
  rw [pay1_apply, h0, h1]
  show _ = carry x (n % 12) (batchOf n b) e p
  rw [hn, Cert.Rollout.carry]
  rfl

/-- A later step's payload on a point's blocks, over the scratch the point before left. -/
theorem step_apply (x : S12x64x201x201.Idx → EReal) (xs : Vec Ideal S32x4x201 .f32) (x1 : Vec Ideal S1x32x201x201 .f32)
    (x0 : Vec Ideal S4x201 .f32) (n : ℕ) (hn : ¬ (n + 1) % 12 = 0)
    (hs : xs = carryBlk x n)
    (h0 : ∀ (e : Fin 4) (p : Fin 201), x0 (ix2 e p) = maskVal e p)
    (h1 : ∀ (b : Fin 32) (q p : Fin 201), x1 (ix4 (0 : Fin 1) b q p) = x (ix4 (layerAt ((n + 1) % 12)) (batchOf (n + 1) b) q p)) :
    k0_pay2 (F := Ideal) xs x1 x0 = carryBlk x (n + 1) := by
  funext j
  obtain ⟨b, e, p, rfl⟩ : ∃ (b : Fin 32) (e : Fin 4) (p : Fin 201), j = ix3 b e p := ⟨j 0, j 1, j 2, eq_ix3 j⟩
  have e1 : (n + 1) % 12 = n % 12 + 1 := by omega
  have e2 : (n + 1) / 12 = n / 12 := by omega
  have hb : batchOf (n + 1) b = batchOf n b := by
    apply Fin.ext
    show 32 * (((n + 1) / 12) % 2) + b.val = 32 * ((n / 12) % 2) + b.val
    rw [e2]
  rw [pay2_apply, h0]
  show _ = carry x ((n + 1) % 12) (batchOf (n + 1) b) e p
  rw [e1, hb, Cert.Rollout.carry]
  refine congrArg (maskVal e p * ·) (Finset.sum_congr rfl fun q _ => ?_)
  rw [hs, h1, e1, hb]
  rfl

section Region0

variable (V : (c : Dev nD) → (b : Ref sig .tc) → Buf (Elt Ideal) ((c : Thread nD τ).loc b))

/-- The layer array and the mask array as the region finds them. -/
abbrev rollX (c : Dev nD) : S12x64x201x201.Idx → EReal := V c main_arg0
abbrev rollMask (c : Dev nD) : S4x201.Idx → EReal := V c main_cst

/-- The printed index maps over the grid: the mask window stays at block 0; the layer window is at layer 11 - (t mod 12) and batch
    half t / 12; the output window at batch half t / 12. -/
theorem roll_idx_facts : ∀ t : Fin cfg0.N,
    win0_0.index t (0 : Fin 2) = 0 ∧ win0_0.index t (1 : Fin 2) = 0
    ∧ win0_1.index t (0 : Fin 4) = 11 - t.val % 12 ∧ win0_1.index t (1 : Fin 4) = t.val / 12
    ∧ win0_1.index t (2 : Fin 4) = 0 ∧ win0_1.index t (3 : Fin 4) = 0
    ∧ win0_2.index t (0 : Fin 3) = t.val / 12 ∧ win0_2.index t (1 : Fin 3) = 0 ∧ win0_2.index t (2 : Fin 3) = 0 :=
  (by decide +kernel : ∀ t : Fin grid0.N, _)

/-- The mask window's block at any point is the mask array. -/
theorem mask_blk (c : Dev nD) (t : Fin cfg0.N) (e : Fin 4) (p : Fin 201) :
    iblk0 V c 0 t (ix2 e p) = rollMask V c (ix2 e p) := by
  obtain ⟨a00, a01, -⟩ := roll_idx_facts t
  show V c main_cst (((cfg0.win 0).blk t).view.emb (ix2 e p)) = V c main_cst (ix2 e p)
  have h : ((cfg0.win 0).blk t).view.emb (ix2 e p) = ix2 e p := by
    funext a; apply Fin.ext
    match a with
    | ⟨0, _⟩ => show win0_0.index t (0 : Fin 2) * 4 + 1 * e.val = e.val; omega
    | ⟨1, _⟩ => show win0_0.index t (1 : Fin 2) * 201 + 1 * p.val = p.val; omega
  rw [h]

/-- The layer window's block at point t is layer 11 - (t mod 12) of the point's batch half. -/
theorem layer_blk (c : Dev nD) (t : Fin cfg0.N) (b : Fin 32) (q p : Fin 201) :
    iblk0 V c 1 t (ix4 (0 : Fin 1) b q p) = rollX V c (ix4 (layerAt (t.val % 12)) (batchOf t.val b) q p) := by
  obtain ⟨-, -, a10, a11, a12, a13, -⟩ := roll_idx_facts t
  have hN : t.val < 24 := lt_of_lt_of_eq t.isLt N_0
  show V c main_arg0 (((cfg0.win 1).blk t).view.emb (ix4 (0 : Fin 1) b q p)) = V c main_arg0 (ix4 (layerAt (t.val % 12)) (batchOf t.val b) q p)
  have h : ((cfg0.win 1).blk t).view.emb (ix4 (0 : Fin 1) b q p) = ix4 (layerAt (t.val % 12)) (batchOf t.val b) q p := by
    funext a; apply Fin.ext
    match a with
    | ⟨0, _⟩ => show win0_1.index t (0 : Fin 4) * 1 + 1 * 0 = 11 - t.val % 12; omega
    | ⟨1, _⟩ => show win0_1.index t (1 : Fin 4) * 32 + 1 * b.val = 32 * ((t.val / 12) % 2) + b.val; omega
    | ⟨2, _⟩ => show win0_1.index t (2 : Fin 4) * 201 + 1 * q.val = q.val; omega
    | ⟨3, _⟩ => show win0_1.index t (3 : Fin 4) * 201 + 1 * p.val = p.val; omega
  rw [h]

variable (hmask : ∀ (c : Dev nD) (e : Fin 4) (p : Fin 201), rollMask V c (ix2 e p) = maskVal e p)
include hmask

/-- THE SCRATCH after every point is the specification's carried vectors. -/
theorem scr_eq (c : Dev nD) : ∀ (n : ℕ) (hn : n < cfg0.N), scr0 V c n hn = carryBlk (rollX V c) n
  | 0, hn => by
    rw [show scr0 V c 0 hn = scr0 V c (⟨0, hn⟩ : Fin cfg0.N).val (⟨0, hn⟩ : Fin cfg0.N).isLt from rfl,
      scr0_A V c ⟨0, hn⟩ (Nat.zero_mod _), soutA_eq]
    exact first_apply (rollX V c) _ _ 0 (Nat.zero_mod _) (fun e p => (mask_blk V c ⟨0, hn⟩ e p).trans (hmask c e p))
      (fun b q p => layer_blk V c ⟨0, hn⟩ b q p)
  | n + 1, hn => by
    by_cases h0 : (n + 1) % 12 = 0
    · rw [show scr0 V c (n + 1) hn = scr0 V c (⟨n + 1, hn⟩ : Fin cfg0.N).val (⟨n + 1, hn⟩ : Fin cfg0.N).isLt from rfl,
        scr0_A V c ⟨n + 1, hn⟩ h0, soutA_eq]
      exact first_apply (rollX V c) _ _ (n + 1) h0 (fun e p => (mask_blk V c ⟨n + 1, hn⟩ e p).trans (hmask c e p))
        (fun b q p => layer_blk V c ⟨n + 1, hn⟩ b q p)
    · by_cases h1 : (n + 1) % 12 = 11
      · rw [show scr0 V c (n + 1) hn = scr0 V c (⟨n + 1, hn⟩ : Fin cfg0.N).val (⟨n + 1, hn⟩ : Fin cfg0.N).isLt from rfl,
          scr0_C V c ⟨n + 1, hn⟩ h0 h1, soutC_eq]
        exact step_apply (rollX V c) _ _ _ n h0 (scr_eq c n (Nat.lt_of_succ_lt hn))
          (fun e p => (mask_blk V c ⟨n + 1, hn⟩ e p).trans (hmask c e p)) (fun b q p => layer_blk V c ⟨n + 1, hn⟩ b q p)
      · rw [show scr0 V c (n + 1) hn = scr0 V c (⟨n + 1, hn⟩ : Fin cfg0.N).val (⟨n + 1, hn⟩ : Fin cfg0.N).isLt from rfl,
          scr0_B V c ⟨n + 1, hn⟩ h0 h1, soutB_eq]
        exact step_apply (rollX V c) _ _ _ n h0 (scr_eq c n (Nat.lt_of_succ_lt hn))
          (fun e p => (mask_blk V c ⟨n + 1, hn⟩ e p).trans (hmask c e p)) (fun b q p => layer_blk V c ⟨n + 1, hn⟩ b q p)

/-- The output array as one function of the layer array: the carried vectors after all twelve layers. -/
def rollG (x : S12x64x201x201.Idx → EReal) : S64x4x201.Idx → EReal := fun i => carry x 11 (i 0) (i 1) (i 2)

/-- What a last step writes back is its batch half's block of that function. -/
theorem roll_flushed_eq (c : Dev nD) (t : Fin cfg0.N) (hf : (cfg0.win 2).flush t = true) :
    (dat0 V c).flushed 2 t = ((cfg0.win 2).blk t).view.read (Elt Ideal) (rollG (rollX V c)) := by
  have h1 : t.val % 12 = 11 := (flush0_2 t).mp hf
  have h0 : ¬ t.val % 12 = 0 := by omega
  obtain ⟨-, -, -, -, -, -, a20, a21, a22⟩ := roll_idx_facts t
  have hN : t.val < 24 := lt_of_lt_of_eq t.isLt N_0
  show (cfg0.win 2).cut (grid0.coords t) ((dat0 V c).after 2 t) = _
  rw [after0_2, out0_C V c t h0 h1, outC_eq]
  obtain ⟨n, hn⟩ := t
  cases n with
  | zero => exact absurd (show 0 % 12 = 11 from h1) (by decide)
  | succ n =>
    have hstep := step_apply (rollX V c) _ _ _ n h0 (scr_eq V hmask c n (Nat.lt_of_succ_lt hn))
      (fun e p => (mask_blk V c ⟨n + 1, hn⟩ e p).trans (hmask c e p)) (fun b q p => layer_blk V c ⟨n + 1, hn⟩ b q p)
    refine (congrArg ((cfg0.win 2).cut (grid0.coords ⟨n + 1, hn⟩)) hstep).trans ?_
    funext j
    show carry (rollX V c) ((n + 1) % 12) (batchOf (n + 1) (j 0)) (j 1) (j 2)
      = carry (rollX V c) 11 ((((cfg0.win 2).blk ⟨n + 1, hn⟩).view.emb j) 0) ((((cfg0.win 2).blk ⟨n + 1, hn⟩).view.emb j) 1) ((((cfg0.win 2).blk ⟨n + 1, hn⟩).view.emb j) 2)
    have e0 : (((cfg0.win 2).blk ⟨n + 1, hn⟩).view.emb j) 0 = batchOf (n + 1) (j 0) := by
      apply Fin.ext
      show win0_2.index ⟨n + 1, hn⟩ (0 : Fin 3) * 32 + 1 * (j 0).val = 32 * (((n + 1) / 12) % 2) + (j 0).val
      have : (⟨n + 1, hn⟩ : Fin cfg0.N).val = n + 1 := rfl
      omega
    have e1 : (((cfg0.win 2).blk ⟨n + 1, hn⟩).view.emb j) 1 = j 1 := by
      apply Fin.ext
      show win0_2.index ⟨n + 1, hn⟩ (1 : Fin 3) * 4 + 1 * (j 1).val = (j 1).val
      omega
    have e2 : (((cfg0.win 2).blk ⟨n + 1, hn⟩).view.emb j) 2 = j 2 := by
      apply Fin.ext
      show win0_2.index ⟨n + 1, hn⟩ (2 : Fin 3) * 201 + 1 * (j 2).val = (j 2).val
      omega
    rw [e0, e1, e2, h1]

omit hmask in
/-- An entry of the output array is in point t's block iff each coordinate is in the block's range on its axis. -/
theorem roll_mem_blk (t : Fin cfg0.N) (i : S64x4x201.Idx) :
    i ∈ ((cfg0.win 2).blk t).view.set ↔ ∀ a : Fin 3, win0_2.index t a * S32x4x201.size a ≤ (i a).val ∧ (i a).val < win0_2.index t a * S32x4x201.size a + S32x4x201.size a := by
  show i ∈ ((View.whole main_v0).slice (win0_2.rect t)).set ↔ _
  rw [View.set_slice_whole, Rect.mem_set_unit]
  exact Iff.rfl

omit hmask in
/-- Every entry of the output array is in the block written back at the last step of its batch half. -/
theorem roll_cover (i : S64x4x201.Idx) :
    ∃ t : Fin cfg0.N, (cfg0.win 2).flush t = true ∧ i ∈ ((cfg0.win 2).blk t).view.set := by
  have hi0 : (i 0).val < 64 := (i 0).isLt
  have hi1 : (i 1).val < 4 := (i 1).isLt
  have hi2 : (i 2).val < 201 := (i 2).isLt
  have hN : cfg0.N = 24 := N_0
  let t : Fin cfg0.N := ⟨12 * ((i 0).val / 32) + 11, by omega⟩
  obtain ⟨-, -, -, -, -, -, a20, a21, a22⟩ := roll_idx_facts t
  have ht : t.val = 12 * ((i 0).val / 32) + 11 := rfl
  refine ⟨t, (flush0_2 t).mpr (by omega), ?_⟩
  rw [roll_mem_blk]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 4 ≤ (i 1).val ∧ (i 1).val < win0_2.index t (1 : Fin 3) * 4 + 4; omega
  | ⟨2, _⟩ => show win0_2.index t (2 : Fin 3) * 201 ≤ (i 2).val ∧ (i 2).val < win0_2.index t (2 : Fin 3) * 201 + 201; omega

/-- THE OUTPUT ARRAY after the region holds the carried vectors after all twelve layers. -/
theorem roll_final_arr (c : Dev nD) : (dat0 V c).arrAt 2 cfg0.N = rollG (rollX V c) :=
  (dat0 V c).arrAt_eq_of_cover 2 (rollG (rollX V c)) (fun t hf => roll_flushed_eq V hmask c t hf) roll_cover

end Region0

end Cert.KernelIdeal.Hand

end
-- ==== Proof.ProjKIPay.lean ====
/-
  The projection kernel's arithmetic at one entry, on the extended reals.

  The body's payload takes a block x0 of row vectors (batch b, row e, token p) and a block x1 of features (batch b, token p,
  column q), rectifies the features (maximum with zero), and contracts the token axis into a zero accumulator. On the extended
  reals the narrowing of both operands to the short float format is the identity and the contraction is a plain sum, so entry
  (b, e, q) of the payload is the sum over the 196 tokens p of x0 (b, e, p) times the maximum of x1 (b, p, q) and zero.
-/
import proofs.«109065_j67542655697208_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

/-! ## The contraction's operand indices, coordinate by coordinate -/

/-- The left operand's batch coordinate is the output's. -/
theorem proj_lhs_0 (i : S64x4x128.Idx) (q : dot_S64x4x196_S64x196x128_S64x4x128_2_1_1_2_0_0.contr.Idx) :
    (dot_S64x4x196_S64x196x128_S64x4x128_2_1_1_2_0_0.lhsIdx i q 0).val = (i 0).val := by
  unfold DotDims.lhsIdx
  rw [dif_pos (show (0 : Fin S64x4x196.rank) ∈ dot_S64x4x196_S64x196x128_S64x4x128_2_1_1_2_0_0.lhsBatch by decide)]
  rfl
/-- Its row coordinate is the output's row. -/
theorem proj_lhs_1 (i : S64x4x128.Idx) (q : dot_S64x4x196_S64x196x128_S64x4x128_2_1_1_2_0_0.contr.Idx) :
    (dot_S64x4x196_S64x196x128_S64x4x128_2_1_1_2_0_0.lhsIdx i q 1).val = (i 1).val := by
  unfold DotDims.lhsIdx
  rw [dif_neg (show ¬(1 : Fin S64x4x196.rank) ∈ dot_S64x4x196_S64x196x128_S64x4x128_2_1_1_2_0_0.lhsBatch by decide), dif_pos (show (1 : Fin S64x4x196.rank) ∈ dot_S64x4x196_S64x196x128_S64x4x128_2_1_1_2_0_0.lhsNonContracting by decide)]
  rfl
/-- Its token coordinate is the contracted position. -/
theorem proj_lhs_2 (i : S64x4x128.Idx) (q : dot_S64x4x196_S64x196x128_S64x4x128_2_1_1_2_0_0.contr.Idx) :
    (dot_S64x4x196_S64x196x128_S64x4x128_2_1_1_2_0_0.lhsIdx i q 2).val = (q ⟨0, by decide⟩).val :=
  dot_S64x4x196_S64x196x128_S64x4x128_2_1_1_2_0_0.lhsIdx_val_of_single rfl i q
/-- The right operand's batch coordinate is the output's. -/
theorem proj_rhs_0 (i : S64x4x128.Idx) (q : dot_S64x4x196_S64x196x128_S64x4x128_2_1_1_2_0_0.contr.Idx) :
    (dot_S64x4x196_S64x196x128_S64x4x128_2_1_1_2_0_0.rhsIdx i q 0).val = (i 0).val := by
  unfold DotDims.rhsIdx
  rw [dif_pos (show (0 : Fin S64x196x128.rank) ∈ dot_S64x4x196_S64x196x128_S64x4x128_2_1_1_2_0_0.rhsBatch by decide)]
  rfl
/-- Its token coordinate is the contracted position. -/
theorem proj_rhs_1 (i : S64x4x128.Idx) (q : dot_S64x4x196_S64x196x128_S64x4x128_2_1_1_2_0_0.contr.Idx) :
    (dot_S64x4x196_S64x196x128_S64x4x128_2_1_1_2_0_0.rhsIdx i q 1).val = (q ⟨0, by decide⟩).val :=
  dot_S64x4x196_S64x196x128_S64x4x128_2_1_1_2_0_0.rhsIdx_val_of_single rfl i q
/-- Its column coordinate is the output's column. -/
theorem proj_rhs_2 (i : S64x4x128.Idx) (q : dot_S64x4x196_S64x196x128_S64x4x128_2_1_1_2_0_0.contr.Idx) :
    (dot_S64x4x196_S64x196x128_S64x4x128_2_1_1_2_0_0.rhsIdx i q 2).val = (i 2).val := by
  unfold DotDims.rhsIdx
  rw [dif_neg (show ¬(2 : Fin S64x196x128.rank) ∈ dot_S64x4x196_S64x196x128_S64x4x128_2_1_1_2_0_0.rhsBatch by decide), dif_pos (show (2 : Fin S64x196x128.rank) ∈ dot_S64x4x196_S64x196x128_S64x4x128_2_1_1_2_0_0.rhsNonContracting by decide)]
  rfl

/-! ## The payload at an entry -/

/-- Entry (b, e, q) of the body's payload: the sum over the tokens of the row vector's entry times the rectified feature. -/
theorem proj_pay_apply (x0 : Vec Ideal S64x4x196 .f32) (x1 : Vec Ideal S64x196x128 .f32) (b : Fin 64) (e : Fin 4) (q : Fin 128) :
    k1_pay1 (F := Ideal) x0 x1 (ix3 b e q) = ∑ p : Fin 196, x0 (ix3 b e p) * max (x1 (ix3 b p q)) 0 := by
  unfold k1_pay1
  refine (Ideal.matmul_constant_zero_apply dot_S64x4x196_S64x196x128_S64x4x128_2_1_1_2_0_0 none _ _ (ix3 b e q)).trans ?_
  rw [← Equiv.sum_comp (contrEquiv1 dot_S64x4x196_S64x196x128_S64x4x128_2_1_1_2_0_0 196 rfl rfl).symm]
  refine Finset.sum_congr rfl fun k _ => ?_
  have hk := contrEquiv1_symm_val dot_S64x4x196_S64x196x128_S64x4x128_2_1_1_2_0_0 196 rfl rfl k
  have el : dot_S64x4x196_S64x196x128_S64x4x128_2_1_1_2_0_0.lhsIdx (ix3 b e q) ((contrEquiv1 dot_S64x4x196_S64x196x128_S64x4x128_2_1_1_2_0_0 196 rfl rfl).symm k) = ix3 b e k := funext fun a => Fin.ext (by
    match a with
    | ⟨0, _⟩ => exact proj_lhs_0 _ _
    | ⟨1, _⟩ => exact proj_lhs_1 _ _
    | ⟨2, _⟩ => exact (proj_lhs_2 _ _).trans hk)
  have er : dot_S64x4x196_S64x196x128_S64x4x128_2_1_1_2_0_0.rhsIdx (ix3 b e q) ((contrEquiv1 dot_S64x4x196_S64x196x128_S64x4x128_2_1_1_2_0_0 196 rfl rfl).symm k) = ix3 b k q := funext fun a => Fin.ext (by
    match a with
    | ⟨0, _⟩ => exact proj_rhs_0 _ _
    | ⟨1, _⟩ => exact (proj_rhs_1 _ _).trans hk
    | ⟨2, _⟩ => exact proj_rhs_2 _ _)
  rw [el, er]
  simp only [truncf_apply, shapeCast_self, maximumf_apply, broadcast_apply]
  show x0 (ix3 b e k) * max (x1 (ix3 b k q)) (Ideal.ofBits .f32 0x00000000#32) = _
  rw [Ideal.ofBits_zero_f32]

end Cert.KernelIdeal.Hand

end
-- ==== Proof.ProjKIValue.lean ====
/-
  The value of the projection region on the extended reals.

  The region's result array [64, 4, 768] is written in six column blocks of 128 columns, block t at grid point t. Point t reads
  the whole row-vector array [64, 4, 196] and column block t of the feature array [64, 196, 768], and writes their product with
  the features rectified. Column d of the result lies in block d / 128, so the six blocks cover the array, and every entry
  (b, e, d) ends holding the sum over the 196 tokens p of the row vector's entry (b, e, p) times the maximum of the feature
  (b, p, d) and zero.
-/
import proofs.«109065_j67542655697208_2_alg».proof.Proof.ProjKI
import proofs.«109065_j67542655697208_2_alg».proof.Proof.ProjKIPay
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

theorem proj_hz : (![0, 0, 0] : Fin 3 → Nat) = fun _ => 0 := funext fun a => by fin_cases a <;> rfl

/-- The result array as one function of the two argument arrays: entry (b, e, d) is the sum over the tokens p of the row
    vector's entry (b, e, p) times the rectified feature (b, p, d). -/
def projG (a1 : S64x4x196.Idx → Elt Ideal .f32) (a2 : S64x196x768.Idx → Elt Ideal .f32) : S64x4x768.Idx → Elt Ideal .f32 :=
  fun i => ∑ p : Fin 196, a1 (ix3 (i 0) (i 1) p) * max (a2 (ix3 (i 0) p (i 2))) 0

/-- The body's payload on a point's blocks is the result function on the point's column block: if x0 is the whole row-vector
    array and x1 is the feature array's column block T (column q of the block is column 128 T + q of the array), then entry j
    of the payload is the result function at the entry i with the same batch and row and column 128 T + (j's column). -/
theorem proj_block_apply (a1 : S64x4x196.Idx → Elt Ideal .f32) (a2 : S64x196x768.Idx → Elt Ideal .f32)
    (x0 : Vec Ideal S64x4x196 .f32) (x1 : Vec Ideal S64x196x128 .f32) (T : ℕ)
    (h0 : ∀ y : S64x4x196.Idx, x0 y = a1 y)
    (h1 : ∀ (y : S64x196x128.Idx) (k : S64x196x768.Idx), (k 0).val = (y 0).val → (k 1).val = (y 1).val →
      (k 2).val = T * 128 + (y 2).val → x1 y = a2 k)
    (j : S64x4x128.Idx) (i : S64x4x768.Idx) (hi0 : (i 0).val = (j 0).val) (hi1 : (i 1).val = (j 1).val)
    (hi2 : (i 2).val = T * 128 + (j 2).val) :
    k1_pay1 (F := Ideal) x0 x1 j = projG a1 a2 i := by
  obtain ⟨b, e, q, rfl⟩ : ∃ (b : Fin 64) (e : Fin 4) (q : Fin 128), j = ix3 b e q := ⟨j 0, j 1, j 2, eq_ix3 j⟩
  rw [proj_pay_apply]
  unfold projG
  have e0 : i 0 = b := Fin.ext hi0
  have e1 : i 1 = e := Fin.ext hi1
  refine Finset.sum_congr rfl fun p _ => ?_
  rw [h0, h1 (ix3 b p q) (ix3 (i 0) p (i 2)) hi0 rfl hi2, e0, e1]

/-- The printed index maps over the grid: the row-vector window stays at block 0; the feature window and the result window
    are at column block t at point t. -/
theorem proj_idx_facts : ∀ t : Fin cfg1.N,
    win1_0.index t (0 : Fin 3) = 0 ∧ win1_0.index t (1 : Fin 3) = 0 ∧ win1_0.index t (2 : Fin 3) = 0
    ∧ win1_1.index t (0 : Fin 3) = 0 ∧ win1_1.index t (1 : Fin 3) = 0 ∧ win1_1.index t (2 : Fin 3) = t.val
    ∧ win1_2.index t (0 : Fin 3) = 0 ∧ win1_2.index t (1 : Fin 3) = 0 ∧ win1_2.index t (2 : Fin 3) = t.val :=
  (by decide +kernel : ∀ t : Fin grid1.N, _)

/-- What point t writes back is column block t of the result function of the arrays as the region finds them. -/
theorem proj_flushed_eq (c : Dev nD) (t : Fin cfg1.N) :
    (dat1 V c).flushed 2 t = ((cfg1.win 2).blk t).view.read (Elt Ideal) (projG (V c main_v1) (V c main_v2)) := by
  show (cfg1.win 2).cut (grid1.coords t) ((dat1 V c).after 2 t) = _
  rw [after1_2]
  unfold out1_2
  rw [View.canon_unit_zero proj_hz]
  simp only [View.ld_unit_zero (S := S64x4x196) proj_hz, View.ld_unit_zero (S := S64x196x128) proj_hz]
  obtain ⟨a00, a01, a02, a10, a11, a12, a20, a21, a22⟩ := proj_idx_facts t
  funext j
  refine proj_block_apply (V c main_v1) (V c main_v2) (iblk1 V c 0 t) (iblk1 V c 1 t) t.val ?_ ?_ j (((cfg1.win 2).blk t).view.emb j) ?_ ?_ ?_
  · intro y
    show V c main_v1 (((cfg1.win 0).blk t).view.emb y) = V c main_v1 y
    have h : ((cfg1.win 0).blk t).view.emb y = y := by
      funext a; apply Fin.ext
      match a with
      | ⟨0, _⟩ => show win1_0.index t (0 : Fin 3) * 64 + 1 * (y 0).val = (y 0).val; omega
      | ⟨1, _⟩ => show win1_0.index t (1 : Fin 3) * 4 + 1 * (y 1).val = (y 1).val; omega
      | ⟨2, _⟩ => show win1_0.index t (2 : Fin 3) * 196 + 1 * (y 2).val = (y 2).val; omega
    rw [h]
  · intro y k hk0 hk1 hk2
    show V c main_v2 (((cfg1.win 1).blk t).view.emb y) = V c main_v2 k
    have h : ((cfg1.win 1).blk t).view.emb y = k := by
      funext a; apply Fin.ext
      match a with
      | ⟨0, _⟩ => show win1_1.index t (0 : Fin 3) * 64 + 1 * (y 0).val = (k 0).val; omega
      | ⟨1, _⟩ => show win1_1.index t (1 : Fin 3) * 196 + 1 * (y 1).val = (k 1).val; omega
      | ⟨2, _⟩ => show win1_1.index t (2 : Fin 3) * 128 + 1 * (y 2).val = (k 2).val; omega
    rw [h]
  · show win1_2.index t (0 : Fin 3) * 64 + 1 * (j 0).val = (j 0).val; omega
  · show win1_2.index t (1 : Fin 3) * 4 + 1 * (j 1).val = (j 1).val; omega
  · show win1_2.index t (2 : Fin 3) * 128 + 1 * (j 2).val = t.val * 128 + (j 2).val; omega

/-- An entry of the result array is in point t's block iff each coordinate is in the block's range on its axis. -/
theorem proj_mem_blk (t : Fin cfg1.N) (i : S64x4x768.Idx) :
    i ∈ ((cfg1.win 2).blk t).view.set ↔ ∀ a : Fin 3, win1_2.index t a * S64x4x128.size a ≤ (i a).val ∧ (i a).val < win1_2.index t a * S64x4x128.size a + S64x4x128.size a := by
  show i ∈ ((View.whole main_v3).slice (win1_2.rect t)).set ↔ _
  rw [View.set_slice_whole, Rect.mem_set_unit]
  exact Iff.rfl

/-- Every entry of the result array is in the block of the point its column's block number names. -/
theorem proj_cover (i : S64x4x768.Idx) :
    ∃ t : Fin cfg1.N, (cfg1.win 2).flush t = true ∧ i ∈ ((cfg1.win 2).blk t).view.set := by
  have hi0 : (i 0).val < 64 := (i 0).isLt
  have hi1 : (i 1).val < 4 := (i 1).isLt
  have hi2 : (i 2).val < 768 := (i 2).isLt
  have hN : cfg1.N = 6 := N_1
  let t : Fin cfg1.N := ⟨(i 2).val / 128, by omega⟩
  obtain ⟨a00, a01, a02, a10, a11, a12, a20, a21, a22⟩ := proj_idx_facts t
  have ht : t.val = (i 2).val / 128 := rfl
  refine ⟨t, flush1_2 t, ?_⟩
  rw [proj_mem_blk]
  intro a
  match a with
  | ⟨0, _⟩ => show win1_2.index t (0 : Fin 3) * 64 ≤ (i 0).val ∧ (i 0).val < win1_2.index t (0 : Fin 3) * 64 + 64; omega
  | ⟨1, _⟩ => show win1_2.index t (1 : Fin 3) * 4 ≤ (i 1).val ∧ (i 1).val < win1_2.index t (1 : Fin 3) * 4 + 4; omega
  | ⟨2, _⟩ => show win1_2.index t (2 : Fin 3) * 128 ≤ (i 2).val ∧ (i 2).val < win1_2.index t (2 : Fin 3) * 128 + 128; omega

/-- The result array after the region is the result function of the arrays as the region finds them. -/
theorem proj_final_arr (c : Dev nD) : (dat1 V c).arrAt 2 cfg1.N = projG (V c main_v1) (V c main_v2) :=
  (dat1 V c).arrAt_eq_of_cover 2 (projG (V c main_v1) (V c main_v2)) (fun t _ => proj_flushed_eq V c t) proj_cover

/-- The row-vector array and the feature array as the region finds them, and the result array as the region leaves it, each
    as a function from its indices to the extended reals. -/
abbrev projRows (c : Dev nD) : S64x4x196.Idx → EReal := V c main_v1
abbrev projFeat (c : Dev nD) : S64x196x768.Idx → EReal := V c main_v2
abbrev projOut (c : Dev nD) : S64x4x768.Idx → EReal := (dat1 (F := Ideal) V c).arrAt 2 cfg1.N

/-- Entry (b, e, d) of the result array after the region. -/
theorem proj_final (c : Dev nD) (b : Fin 64) (e : Fin 4) (d : Fin 768) :
    projOut V c (ValueIdx.ix3 b e d)
      = ∑ p : Fin 196, projRows V c (ValueIdx.ix3 b e p) * max (projFeat V c (ValueIdx.ix3 b p d)) 0 := by
  show (dat1 (F := Ideal) V c).arrAt 2 cfg1.N (ValueIdx.ix3 b e d) = _
  rw [proj_final_arr]
  rfl

end Cert.KernelIdeal.Hand

end
-- ==== Proof.MaskKI.lean ====
/-
  The mask constant of the first region is the specification's index-set indicator.

  The program's mask is a table of 4 rows and 201 columns of float words, each the word of 1.0 or the zero word. Entry (e, p) is
  the word of 1.0 exactly when token p is the class token e + 1 of row e or lies in row e's range; on the extended reals the
  two words are 1 and 0, so the mask entry is the specification's maskVal e p.
-/
import proofs.«109065_j67542655697208_2_alg».proof.KernelIdeal
import proofs.«109065_j67542655697208_2_alg».proof.Proof.Spec
import Idealize.ShloMosaic.PureOps.Ideal.Laws
import Idealize.ShloMosaic.Lib.ValueIdx

noncomputable section

namespace Cert.KernelIdeal.Hand

open Idealize.ShloMosaic Idealize.ShloMosaic.ValueIdx
open Cert.Rollout

/-- The table's words, decided over its 804 positions: position 201 e + p holds the word of 1.0 when p is in row e's index
    set and the zero word otherwise. -/
theorem mask_words : ∀ (e : Fin 4) (p : Fin 201),
    Cert.KernelIdeal.lit0t (201 * e.val + p.val) = if InPart e p then 0x3F800000#32 else 0x00000000#32 := by
  decide +kernel

/-- The word of 1.0 is one. -/
theorem ofBits_one_f32 : Ideal.ofBits .f32 0x3F800000#32 = (1 : EReal) := by
  simp [Ideal.ofBits, Ideal.ieee, -EReal.coe_mul]; norm_num

/-- Entry (e, p) of the mask constant, on the extended reals, is one on row e's index set and zero off it. -/
theorem mask_lit (e : Fin 4) (p : Fin 201) :
    (FloatOps.ofBits (F := Ideal) .f32 (Cert.KernelIdeal.lit0 (Cert.KernelIdeal.S4x201.rowMajor (ix2 e p))) : EReal) = Cert.Rollout.maskVal e p := by
  have hpos : (Cert.KernelIdeal.S4x201.rowMajor (ix2 e p)).val = 201 * e.val + p.val := by
    rw [Shape.rowMajor_val_two]
    show e.val * 201 + p.val = _
    omega
  have hw : Cert.KernelIdeal.lit0 (Cert.KernelIdeal.S4x201.rowMajor (ix2 e p)) = Cert.KernelIdeal.lit0t (201 * e.val + p.val) := by
    show Cert.KernelIdeal.lit0t (Cert.KernelIdeal.S4x201.rowMajor (ix2 e p)).val = _
    rw [hpos]
  rw [hw, mask_words e p, Ideal.ofBits_def]
  unfold maskVal
  by_cases h : InPart e p
  · rw [if_pos h, if_pos h, ofBits_one_f32]
  · rw [if_neg h, if_neg h, Ideal.ofBits_zero_f32]

end Cert.KernelIdeal.Hand

end
-- ==== Proof.KIValue.lean ====
/-
  The kernel program's result on the extended reals: the specification's carried side.

  The mask constant is one on a row's index set and zero off it, so the row-vector region leaves in its output array the carried
  vectors after all twelve layers; the two slices keep the tokens 5..200 of those and of the features; the projection region then
  sums, over the 196 tokens, a vector's entry times the rectified feature: the specification's carryOut of the two argument arrays.
-/
import proofs.«109065_j67542655697208_2_alg».proof.Proof.FrameKI
import proofs.«109065_j67542655697208_2_alg».proof.Proof.RollKIValue
import proofs.«109065_j67542655697208_2_alg».proof.Proof.ProjKIValue
import proofs.«109065_j67542655697208_2_alg».proof.Proof.MaskKI
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Cert.Rollout (carry carryOut maskVal tok5 outArr)

variable (m : (ℓ : Loc nD τ sig) → Buf (Elt Ideal) ℓ) (ρ : Dev nD → PrngReg)

/-- The first region finds the mask constant's words in the mask array, -/
theorem V1_cst (c : Dev nD) : (V1 m ρ c main_cst : S4x201.Idx → EReal)
    = fun i => FloatOps.ofBits (F := Ideal) .f32 (lit0 (S4x201.rowMajor i)) := by
  show StableHlo.after hostOps0 (W0 m ρ c) (Proc.devRef .tc main_cst) = _
  after_results
  rfl

/-- which are the specification's mask. -/
theorem V1_mask (c : Dev nD) (e : Fin 4) (p : Fin 201) : rollMask (V1 m ρ) c (ix2 e p) = maskVal e p := by
  show (V1 m ρ c main_cst : S4x201.Idx → EReal) (ix2 e p) = _
  rw [V1_cst]
  exact mask_lit e p

/-- It finds the layer array as launched. -/
theorem V1_arg0 (c : Dev nD) : (V1 m ρ c main_arg0 : S12x64x201x201.Idx → EReal) = m ((c : Thread nD τ).loc main_arg0) :=
  (((W2_arr m ρ c 1).trans (((dat0 (V1 m ρ) c).arrAt_in 1 rfl _).trans (A_eq0 (V1 m ρ) c 1))).symm).trans (W2_main_arg0 m ρ c)

/-- The second region finds, as its row vectors, the tokens 5..200 of what the first region left, -/
theorem V3_v1 (c : Dev nD) : (V3 m ρ c main_v1 : S64x4x196.Idx → EReal)
    = extractStridedSlice S64x4x196 ![0, 0, 5] (W2 m ρ c (Proc.devRef .tc main_v0) : S64x4x201.Idx → EReal) slices_S64x4x201_S64x4x196_0_0_5 := by
  show StableHlo.after hostOps1 (W2 m ρ c) (Proc.devRef .tc main_v1) = _
  after_results

/-- and, as its features, the tokens 5..200 of the feature array. -/
theorem V3_v2 (c : Dev nD) : (V3 m ρ c main_v2 : S64x196x768.Idx → EReal)
    = extractStridedSlice S64x196x768 ![0, 5, 0] (W2 m ρ c (Proc.devRef .tc main_arg1) : S64x201x768.Idx → EReal) slices_S64x201x768_S64x196x768_0_5_0 := by
  show StableHlo.after hostOps1 (W2 m ρ c) (Proc.devRef .tc main_v2) = _
  after_results

/-- What the first region leaves in its output array. -/
theorem W2_v0 (c : Dev nD) : (W2 m ρ c (Proc.devRef .tc main_v0) : S64x4x201.Idx → EReal) = rollG (rollX (V1 m ρ) c) :=
  (W2_arr m ρ c 2).trans (roll_final_arr (V1 m ρ) (V1_mask m ρ) c)

/-- THE KERNEL'S RESULT: the result array at the end is the specification's carried side of the two argument arrays. -/
theorem kernel_value (c : Dev nD) :
    (W4 m ρ c (Proc.devRef .tc main_v3) : S64x4x768.Idx → EReal)
      = outArr (carryOut (m ((c : Thread nD τ).loc main_arg0)) (m ((c : Thread nD τ).loc main_arg1))) := by
  funext i
  obtain ⟨b, e, d, rfl⟩ : ∃ (b : Fin 64) (e : Fin 4) (d : Fin 768), i = ix3 b e d := ⟨i 0, i 1, i 2, eq_ix3 i⟩
  refine (show (W4 m ρ c (Proc.devRef .tc main_v3) : S64x4x768.Idx → EReal) (ix3 b e d) = projOut (V3 m ρ) c (ix3 b e d) from
    congrFun (W4_arr m ρ c 2) (ix3 b e d)).trans ?_
  rw [proj_final]
  show _ = carryOut (m ((c : Thread nD τ).loc main_arg0)) (m ((c : Thread nD τ).loc main_arg1)) b e d
  unfold Cert.Rollout.carryOut
  refine Finset.sum_congr rfl fun p _ => ?_
  have hr : projRows (V3 m ρ) c (ix3 b e p) = carry (m ((c : Thread nD τ).loc main_arg0)) 11 b e (tok5 p) := by
    show (V3 m ρ c main_v1 : S64x4x196.Idx → EReal) (ix3 b e p) = _
    rw [V3_v1, extractStridedSlice_apply _ _ _ (ix3 b e p) (ix3 b e (tok5 p)) (fun a => by
      match a with
      | ⟨0, _⟩ => show b.val = 0 + b.val; omega
      | ⟨1, _⟩ => show e.val = 0 + e.val; omega
      | ⟨2, _⟩ => show p.val + 5 = 5 + p.val; omega), W2_v0]
    show carry (rollX (V1 m ρ) c) 11 b e (tok5 p) = _
    rw [show rollX (V1 m ρ) c = m ((c : Thread nD τ).loc main_arg0) from V1_arg0 m ρ c]
  have hf : projFeat (V3 m ρ) c (ix3 b p d) = m ((c : Thread nD τ).loc main_arg1) (ix3 b (tok5 p) d) := by
    show (V3 m ρ c main_v2 : S64x196x768.Idx → EReal) (ix3 b p d) = _
    rw [V3_v2, extractStridedSlice_apply _ _ _ (ix3 b p d) (ix3 b (tok5 p) d) (fun a => by
      match a with
      | ⟨0, _⟩ => show b.val = 0 + b.val; omega
      | ⟨1, _⟩ => show p.val + 5 = 5 + p.val; omega
      | ⟨2, _⟩ => show d.val = 0 + d.val; omega)]
    exact congrFun (W2_main_arg1 m ρ c) (ix3 b (tok5 p) d)
  rw [hr, hf]

/-- THE KERNEL'S RUN WITH ITS RESULT: every weakly fair execution ends, the result array at the specification's carried side, the
    argument arrays as launched. -/
theorem run_value : θ_run defs (onTc (τ := τ) (main (F := Ideal))) ⟨m, fun _ => 0, ρ⟩ (fun r => ∀ c : Dev nD,
      r.2.mem ((c.tc : Thread nD τ).loc main_v3) = outArr (carryOut (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun s h c =>
    ⟨(h c _ (mem_uc main_v3 (by decide))).trans (kernel_value m ρ c),
     (h c _ (mem_uc main_arg0 (by decide))).trans (W4_main_arg0 m ρ c),
     (h c _ (mem_uc main_arg1 (by decide))).trans (W4_main_arg1 m ρ c)⟩) (run m ρ)

end Cert.KernelIdeal.Hand

end
-- ==== Proof.FinKI.lean ====
/-
  Under the precondition every entry of the two argument arrays is a real number.

  The precondition says that the printed predicate is true on every device: the conjunction of, for each argument array, the
  conjunction over all its entries x of "the absolute value of x is below plus infinity". On the extended reals the absolute
  value of x is the maximum of x and -x, which is plus infinity exactly when x is infinite; so every entry is a real number.
-/
import proofs.«109065_j67542655697208_2_alg».proof.Defs
import proofs.«109065_j67542655697208_2_alg».proof.Proof.Spec
import Idealize.ShloMosaic.Lib.ReduceAll
import Idealize.ShloMosaic.Lib.ValueIdx
import Idealize.ShloMosaic.PureOps.Ideal.Laws

noncomputable section

namespace Cert.KernelIdeal.Hand

open Idealize.ShloMosaic Idealize.ShloMosaic.ValueIdx

/-- The scalar shape has one index. -/
instance scalarIdx_subsingleton : Subsingleton Cert.Pre_finite_inputs.S_.Idx := ⟨fun a b => funext fun d => d.elim0⟩

/-- An extended real whose absolute value compares below the word of plus infinity is a real number. -/
theorem isReal_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

variable [Cert.Pre_finite_inputs.Facts]

/-- Every entry of both argument arrays is a real number, on every device. -/
theorem allReal_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Rollout.AllReal (S := Cert.Rollout.SX) (m ((c.tc : Thread _ _).loc Cert.KernelIdeal.main_arg0))
      ∧ Cert.Rollout.AllReal (S := Cert.Rollout.SF) (m ((c.tc : Thread _ _).loc Cert.KernelIdeal.main_arg1)) := by
  have h0 := congrFun (h c) ValueIdx.ix0
  generalize m ((c.tc : Thread Cert.KernelIdeal.nD Cert.KernelIdeal.τ).loc Cert.KernelIdeal.main_arg0) = x at h0 ⊢
  generalize m ((c.tc : Thread Cert.KernelIdeal.nD Cert.KernelIdeal.τ).loc Cert.KernelIdeal.main_arg1) = f at h0 ⊢
  dsimp only [Cert.Pre_finite_inputs.fn] at h0
  obtain ⟨ha, hb⟩ := IntOp.andi_eq_one.1 h0
  refine ⟨fun i => ?_, fun i => ?_⟩
  · have e := Host.reduce_andi_all _ _ _ _ _ ha i
    exact isReal_of_abs_lt_inf _ e
  · have e := Host.reduce_andi_all _ _ _ _ _ hb i
    exact isReal_of_abs_lt_inf _ e

end Cert.KernelIdeal.Hand

end
-- ==== Proof.LawReal.lean ====
/-
  The algebraic law over the real numbers.

  With D the 0/1 diagonal of row e's index set, the carried row vector after k steps is
  e_tok^T · X11 · D · X10 · D · … · X(11-k) · D (nested to the left), and the chained product of the layers 0..i is
  Xi · D · X(i-1) · D · … · X1 · D · X0 (nested to the right). For i + k = 10 the fully carried vector is the vector after
  k steps times the chained product of the layers 0..i, zeroed off the index set; at k = 0 this says that the fully
  carried vector is row tok e of the whole chained product, zeroed off the index set.
-/
import proofs.«109065_j67542655697208_2_alg».proof.Proof.Spec

noncomputable section

open scoped BigOperators

namespace Cert.Rollout

open Idealize.ShloMosaic Idealize.ShloMosaic.ValueIdx

/-- One on the index set, zero off it, as a real number. -/
def maskR (e : Fin 4) (p : Fin 201) : ℝ := if InPart e p then 1 else 0

/-- The carried row vector over the reals. -/
def carryR (x : SX.Idx → ℝ) : ℕ → Fin 64 → Fin 4 → Fin 201 → ℝ
  | 0, b, e, p => maskR e p * x (ix4 (11 : Fin 12) b (tok e) p)
  | k + 1, b, e, p => maskR e p * ∑ q : Fin 201, carryR x k b e q * x (ix4 (layerAt (k + 1)) b q p)

/-- The carried side's result over the reals. -/
def carryOutR (x : SX.Idx → ℝ) (f : SF.Idx → ℝ) (b : Fin 64) (e : Fin 4) (d : Fin 768) : ℝ :=
  ∑ p : Fin 196, carryR x 11 b e (tok5 p) * max (f (ix3 b (tok5 p) d)) 0

/-- The restricted product of the layers 0..i over the reals. -/
def chainR (x : SX.Idx → ℝ) (e : Fin 4) : ℕ → Fin 64 → Fin 201 → Fin 201 → ℝ
  | 0, b, r, c => x (ix4 (0 : Fin 12) b r c)
  | i + 1, b, r, c => ∑ q ∈ partSet e, x (ix4 (⟨(i + 1) % 12, Nat.mod_lt _ (by norm_num)⟩ : Fin 12) b r q) * chainR x e i b q c

/-- The chained side's result over the reals. -/
def chainOutR (x : SX.Idx → ℝ) (f : SF.Idx → ℝ) (b : Fin 64) (e : Fin 4) (d : Fin 768) : ℝ :=
  ∑ j ∈ rangeSet e, chainR x e 11 b (tok e) j * max (f (ix3 b j d)) 0

/-- A sum over the index set is the sum over all tokens of the mask times the summand. -/
theorem sum_partSet (e : Fin 4) (F : Fin 201 → ℝ) : ∑ q ∈ partSet e, F q = ∑ q : Fin 201, maskR e q * F q := by
  unfold partSet
  rw [Finset.sum_filter]
  refine Finset.sum_congr rfl fun q _ => ?_
  unfold maskR
  split_ifs <;> simp

/-- The fully carried vector is the vector after k steps times the chained product of the layers 0..i (i + k = 10),
    zeroed off the index set. -/
theorem carryR_split (x : SX.Idx → ℝ) (b : Fin 64) (e : Fin 4) :
    ∀ i k : ℕ, i + k = 10 → ∀ p : Fin 201,
      carryR x 11 b e p = maskR e p * ∑ q : Fin 201, carryR x k b e q * chainR x e i b q p := by
  intro i
  induction i with
  | zero =>
    intro k hk p
    obtain rfl : k = 10 := by omega
    show carryR x (10 + 1) b e p = _
    rw [carryR]
    rfl
  | succ i ih =>
    intro k hk p
    rw [ih (k + 1) (by omega) p]
    congr 1
    have hL : layerAt (k + 1) = (⟨(i + 1) % 12, Nat.mod_lt _ (by norm_num)⟩ : Fin 12) := by
      apply Fin.ext
      simp only [layerAt]
      omega
    calc ∑ q : Fin 201, carryR x (k + 1) b e q * chainR x e i b q p
        = ∑ q : Fin 201, ∑ r : Fin 201,
            carryR x k b e r * (maskR e q * (x (ix4 (layerAt (k + 1)) b r q) * chainR x e i b q p)) := by
          refine Finset.sum_congr rfl fun q _ => ?_
          rw [carryR, Finset.mul_sum, Finset.sum_mul]
          refine Finset.sum_congr rfl fun r _ => ?_
          ring
      _ = ∑ r : Fin 201, ∑ q : Fin 201,
            carryR x k b e r * (maskR e q * (x (ix4 (layerAt (k + 1)) b r q) * chainR x e i b q p)) :=
          Finset.sum_comm
      _ = ∑ r : Fin 201, carryR x k b e r * chainR x e (i + 1) b r p := by
          refine Finset.sum_congr rfl fun r _ => ?_
          rw [chainR, sum_partSet, Finset.mul_sum, hL]

/-- The fully carried vector is row tok e of the whole chained product, zeroed off the index set. -/
theorem carryR_eq_chainR (x : SX.Idx → ℝ) (b : Fin 64) (e : Fin 4) (p : Fin 201) :
    carryR x 11 b e p = maskR e p * chainR x e 11 b (tok e) p := by
  rw [carryR_split x b e 10 0 rfl p]
  congr 1
  show _ = chainR x e (10 + 1) b (tok e) p
  rw [chainR, sum_partSet]
  refine Finset.sum_congr rfl fun q _ => ?_
  rw [carryR]
  have h11 : (⟨(10 + 1) % 12, Nat.mod_lt _ (by norm_num)⟩ : Fin 12) = (11 : Fin 12) := rfl
  rw [h11]
  ring

end Cert.Rollout

end
-- ==== Proof.LawSum.lean ====
/-
  The two result sums over the reals.

  The fully carried vector vanishes off row e's index set; the range of row e lies inside the tokens 5..200, and the class
  token is below 5, so among the tokens 5..200 the index set is exactly the range. Hence the sum over the 196 tokens
  5..200 of the carried vector against the rectified features is the sum over the range of row tok e of the chained
  product against the rectified features.
-/
import proofs.«109065_j67542655697208_2_alg».proof.Proof.LawReal

noncomputable section

open scoped BigOperators

namespace Cert.Rollout

open Idealize.ShloMosaic Idealize.ShloMosaic.ValueIdx

/-- Every range starts at token 5 or later. -/
theorem five_le_lo (e : Fin 4) : 5 ≤ lo e := by
  revert e
  decide

/-- Among the tokens 5..200 the index set of row e is its range. -/
theorem inPart_tok5 (e : Fin 4) (p : Fin 196) : InPart e (tok5 p) ↔ InRange e (tok5 p) := by
  unfold InPart
  constructor
  · rintro (h | h)
    · exfalso
      have h' := congrArg Fin.val h
      simp only [tok5, tok] at h'
      omega
    · exact h
  · exact Or.inr

/-- A sum over the range of row e is the sum over those of the tokens 5..200 that lie in the range. -/
theorem sum_rangeSet (e : Fin 4) (H : Fin 201 → ℝ) :
    ∑ j ∈ rangeSet e, H j = ∑ p : Fin 196, if InRange e (tok5 p) then H (tok5 p) else 0 := by
  rw [← Finset.sum_filter]
  symm
  refine Finset.sum_bij (fun p _ => tok5 p) ?_ ?_ ?_ ?_
  · intro p hp
    simp only [rangeSet, Finset.mem_filter, Finset.mem_univ, true_and] at hp ⊢
    exact hp
  · intro p _ p' _ h
    have h' := congrArg Fin.val h
    simp only [tok5] at h'
    exact Fin.ext (by omega)
  · intro j hj
    simp only [rangeSet, Finset.mem_filter, Finset.mem_univ, true_and] at hj
    have h5 : 5 ≤ j.val := le_trans (five_le_lo e) hj.1
    refine ⟨⟨j.val - 5, by omega⟩, ?_, ?_⟩
    · simp only [Finset.mem_filter, Finset.mem_univ, true_and]
      have : tok5 ⟨j.val - 5, by omega⟩ = j := Fin.ext (by simp only [tok5]; omega)
      rw [this]
      exact hj
    · exact Fin.ext (by simp only [tok5]; omega)
  · intro p _
    rfl

/-- The law over the reals: the carried side's result is the chained side's result. -/
theorem carryOutR_eq_chainOutR (x : SX.Idx → ℝ) (f : SF.Idx → ℝ) (b : Fin 64) (e : Fin 4) (d : Fin 768) :
    carryOutR x f b e d = chainOutR x f b e d := by
  unfold carryOutR chainOutR
  rw [sum_rangeSet]
  refine Finset.sum_congr rfl fun p _ => ?_
  rw [carryR_eq_chainR]
  unfold maskR
  by_cases h : InRange e (tok5 p)
  · rw [if_pos ((inPart_tok5 e p).2 h), if_pos h, one_mul]
  · rw [if_neg (fun h' => h ((inPart_tok5 e p).1 h')), if_neg h, zero_mul, zero_mul]

end Cert.Rollout

end
-- ==== Proof.LawCoe.lean ====
/-
  At arrays of real numbers, each side of the specification is the coercion of its real counterpart.

  The coercion of the reals into the extended reals commutes with products, sums (hence finite sums) and maxima, and the
  mask's values 0 and 1 are the coercions of 0 and 1.
-/
import proofs.«109065_j67542655697208_2_alg».proof.Proof.LawReal

noncomputable section

open scoped BigOperators

namespace Cert.Rollout

open Idealize.ShloMosaic Idealize.ShloMosaic.ValueIdx

/-- The coercion commutes with a finite sum. -/
theorem coe_real_sum {ι : Type*} (s : Finset ι) (F : ι → ℝ) :
    ((∑ i ∈ s, F i : ℝ) : EReal) = ∑ i ∈ s, (F i : EReal) := by
  classical
  refine Finset.induction_on s ?_ ?_
  · simp
  · intro a s ha ih
    rw [Finset.sum_insert ha, Finset.sum_insert ha, EReal.coe_add, ih]

/-- The coercion commutes with the rectifier. -/
theorem coe_real_relu (r : ℝ) : max (r : EReal) 0 = ((max r 0 : ℝ) : EReal) := by
  rw [← EReal.coe_zero]
  exact (EReal.coe_strictMono.monotone.map_max).symm

/-- The mask is the coercion of the real mask. -/
theorem maskVal_coe (e : Fin 4) (p : Fin 201) : maskVal e p = ((maskR e p : ℝ) : EReal) := by
  unfold maskVal maskR
  split_ifs <;> simp

/-- The carried vector of a real array is the coercion of the real carried vector. -/
theorem carry_coe (x : SX.Idx → ℝ) :
    ∀ (k : ℕ) (b : Fin 64) (e : Fin 4) (p : Fin 201),
      carry (fun i => (x i : EReal)) k b e p = ((carryR x k b e p : ℝ) : EReal) := by
  intro k
  induction k with
  | zero =>
    intro b e p
    rw [carry, carryR, maskVal_coe, EReal.coe_mul]
  | succ k ih =>
    intro b e p
    rw [carry, carryR, maskVal_coe, EReal.coe_mul, coe_real_sum]
    congr 1
    refine Finset.sum_congr rfl fun q _ => ?_
    rw [ih b e q, EReal.coe_mul]

/-- The chained product of a real array is the coercion of the real chained product. -/
theorem chain_coe (x : SX.Idx → ℝ) (e : Fin 4) :
    ∀ (i : ℕ) (b : Fin 64) (r c : Fin 201),
      chain (fun j => (x j : EReal)) e i b r c = ((chainR x e i b r c : ℝ) : EReal) := by
  intro i
  induction i with
  | zero =>
    intro b r c
    rw [chain, chainR]
  | succ i ih =>
    intro b r c
    rw [chain, chainR, coe_real_sum]
    refine Finset.sum_congr rfl fun q _ => ?_
    rw [ih b q c, EReal.coe_mul]

/-- The carried side's result at real arrays is the coercion of its real counterpart. -/
theorem carryOut_coe (x : SX.Idx → ℝ) (f : SF.Idx → ℝ) (b : Fin 64) (e : Fin 4) (d : Fin 768) :
    carryOut (fun i => (x i : EReal)) (fun i => (f i : EReal)) b e d = ((carryOutR x f b e d : ℝ) : EReal) := by
  unfold carryOut carryOutR
  rw [coe_real_sum]
  refine Finset.sum_congr rfl fun p _ => ?_
  rw [carry_coe, coe_real_relu, EReal.coe_mul]

/-- The chained side's result at real arrays is the coercion of its real counterpart. -/
theorem chainOut_coe (x : SX.Idx → ℝ) (f : SF.Idx → ℝ) (b : Fin 64) (e : Fin 4) (d : Fin 768) :
    chainOut (fun i => (x i : EReal)) (fun i => (f i : EReal)) b e d = ((chainOutR x f b e d : ℝ) : EReal) := by
  unfold chainOut chainOutR
  rw [coe_real_sum]
  refine Finset.sum_congr rfl fun j _ => ?_
  rw [chain_coe, coe_real_relu, EReal.coe_mul]

end Cert.Rollout

end
-- ==== Proof.LawMain.lean ====
/-
  The algebraic law on the extended reals, for arrays all of whose entries are real numbers: choose real witnesses, move
  both sides to the coercions of their real counterparts, and apply the law over the reals.
-/
import proofs.«109065_j67542655697208_2_alg».proof.Proof.LawSum
import proofs.«109065_j67542655697208_2_alg».proof.Proof.LawCoe

noncomputable section

open scoped BigOperators

namespace Cert.Rollout

open Idealize.ShloMosaic Idealize.ShloMosaic.ValueIdx

/-- For arrays of real numbers the carried side's result is the chained side's result. -/
theorem carryOut_eq_chainOut (x : SX.Idx → EReal) (f : SF.Idx → EReal) (hx : AllReal x) (hf : AllReal f) :
    carryOut x f = chainOut x f := by
  choose xr hxr using hx
  choose fr hfr using hf
  obtain rfl : x = fun i => (xr i : EReal) := funext hxr
  obtain rfl : f = fun i => (fr i : EReal) := funext hfr
  funext b e d
  rw [carryOut_coe, chainOut_coe, carryOutR_eq_chainOutR]

end Cert.Rollout

end
-- ==== Proof.RefBase.lean ====
/-
  The reference program's run meets its read-at-an-index lemmas: the run states the result over named intermediate terms
  (the five index vectors, the five gathered stacks, the joined rows); each of them is the stage of the same name, so the
  run's term for the result buffer is the last stage.
-/
import proofs.«109065_j67542655697208_2_alg».proof.Proof.Spec
import proofs.«109065_j67542655697208_2_alg».proof.Proof.RefRun
import proofs.«109065_j67542655697208_2_alg».proof.Proof.RefRead

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The named intermediate terms of the run are the stages. -/
theorem res3 (V0 : Valuation τ sig (Elt F)) : (res_main_v3 V0 : (⟨S197, .i32⟩ : BufTy).Contents (Elt F)) = val_main_v3 := rfl
theorem res60 (V0 : Valuation τ sig (Elt F)) : (res_main_v60 V0 : (⟨S197, .i32⟩ : BufTy).Contents (Elt F)) = val_main_v60 := rfl
theorem res117 (V0 : Valuation τ sig (Elt F)) : (res_main_v117 V0 : (⟨S99, .i32⟩ : BufTy).Contents (Elt F)) = val_main_v117 := rfl
theorem res174 (V0 : Valuation τ sig (Elt F)) : (res_main_v174 V0 : (⟨S99, .i32⟩ : BufTy).Contents (Elt F)) = val_main_v174 := rfl
theorem res231 (V0 : Valuation τ sig (Elt F)) : (res_main_v231 V0 : (⟨S99, .i32⟩ : BufTy).Contents (Elt F)) = val_main_v231 := rfl
theorem res17 (V0 : Valuation τ sig (Elt F)) :
    (res_main_v17 V0 : (⟨S12x64x197x197, .f32⟩ : BufTy).Contents (Elt F)) = val_main_v17 (V0 (Proc.devRef .tc main_arg0)) := by
  unfold res_main_v17; rw [res3]; rfl
theorem res74 (V0 : Valuation τ sig (Elt F)) :
    (res_main_v74 V0 : (⟨S12x64x197x197, .f32⟩ : BufTy).Contents (Elt F)) = val_main_v74 (V0 (Proc.devRef .tc main_arg0)) := by
  unfold res_main_v74; rw [res60]; rfl
theorem res131 (V0 : Valuation τ sig (Elt F)) :
    (res_main_v131 V0 : (⟨S12x64x99x99, .f32⟩ : BufTy).Contents (Elt F)) = val_main_v131 (V0 (Proc.devRef .tc main_arg0)) := by
  unfold res_main_v131; rw [res117]; rfl
theorem res188 (V0 : Valuation τ sig (Elt F)) :
    (res_main_v188 V0 : (⟨S12x64x99x99, .f32⟩ : BufTy).Contents (Elt F)) = val_main_v188 (V0 (Proc.devRef .tc main_arg0)) := by
  unfold res_main_v188; rw [res174]; rfl
theorem res245 (V0 : Valuation τ sig (Elt F)) :
    (res_main_v245 V0 : (⟨S12x64x99x99, .f32⟩ : BufTy).Contents (Elt F)) = val_main_v245 (V0 (Proc.devRef .tc main_arg0)) := by
  unfold res_main_v245; rw [res231]; rfl
theorem res285 (V0 : Valuation τ sig (Elt F)) :
    (res_main_v285 V0 : (⟨S64x5x768, .f32⟩ : BufTy).Contents (Elt F))
      = val_main_v285 (V0 (Proc.devRef .tc main_arg0)) (V0 (Proc.devRef .tc main_arg1)) := by
  unfold res_main_v285; rw [res17, res74, res131, res188, res245]; rfl

/-- The run's term for the result buffer is the last stage. -/
theorem res_eq_stage (m : (ℓ : Loc nD τ sig) → Buf (Elt F) ℓ) (c : Dev nD) :
    (extractStridedSlice S64x4x768 ![0, 1, 0] (res_main_v285 (launchContents m c)) slices_S64x5x768_S64x4x768_0_1_0
        : (⟨S64x4x768, .f32⟩ : BufTy).Contents (Elt F))
      = val_main_v286 (F := F) (m ((c.tc : Thread nD τ).loc main_arg0)) (m ((c.tc : Thread nD τ).loc main_arg1)) := by
  rw [res285]; rfl

end Cert.ReferenceIdeal.RefValue

end
-- ==== Proof.RefSums.lean ====
/-
  Re-indexing the sums of a part. A part's gathered matrices are indexed by positions 0 .. n - 1: position 0 stands for
  the part's class token and position k + 1 for the token l + k of its range. Summing a function of the token over the
  positions is summing it over the part's index set; summing over the positions 1 .. n - 1 alone is summing over the range.
-/
import proofs.«109065_j67542655697208_2_alg».proof.Proof.Spec
import Idealize.ShloMosaic.Lib.DynamicIndex

noncomputable section

open scoped BigOperators

namespace Cert.ReferenceIdeal.RefValue

open Cert.Rollout Idealize.ShloMosaic Idealize.ShloMosaic.ValueIdx

/-- The token at a position: the class token t at position 0, the token l + k at position k + 1. -/
def emb (t l n : ℕ) (ht : t < 201) (h : l + (n - 1) ≤ 201) (k : Fin n) : Fin 201 :=
  if hk : k.val = 0 then ⟨t, ht⟩ else ⟨l + (k.val - 1), by have := k.isLt; omega⟩

theorem emb_val (t l n : ℕ) (ht : t < 201) (h : l + (n - 1) ≤ 201) (k : Fin n) :
    (emb t l n ht h k).val = if k.val = 0 then t else l + (k.val - 1) := by
  unfold emb; split <;> rfl

/-- The token of the range at an offset. -/
def shift (l p : ℕ) (h : l + p ≤ 201) (k : Fin p) : Fin 201 := ⟨l + k.val, by have := k.isLt; omega⟩

/-- A sum over the positions is the sum over the tokens they stand for. -/
theorem sum_emb {M : Type*} [AddCommMonoid M] (t l n : ℕ) (ht : t < 201) (h : l + (n - 1) ≤ 201) (htl : t < l) (hn : 0 < n)
    (S : Finset (Fin 201)) (hS : ∀ q : Fin 201, q ∈ S ↔ (q.val = t ∨ (l ≤ q.val ∧ q.val < l + (n - 1))))
    (g : Fin 201 → M) : ∑ k : Fin n, g (emb t l n ht h k) = ∑ q ∈ S, g q := by
  refine Finset.sum_bij (fun k _ => emb t l n ht h k) ?_ ?_ ?_ ?_
  · intro k _
    rw [hS, emb_val]
    have := k.isLt
    split <;> omega
  · intro a _ b _ hab
    have hv := congrArg Fin.val hab
    rw [emb_val, emb_val] at hv
    have := a.isLt; have := b.isLt
    refine Fin.ext ?_
    split at hv <;> split at hv <;> omega
  · intro q hq
    rw [hS] at hq
    rcases hq with hq | hq
    · exact ⟨⟨0, hn⟩, Finset.mem_univ _, Fin.ext (by rw [emb_val]; simp [hq])⟩
    · refine ⟨⟨q.val - l + 1, by omega⟩, Finset.mem_univ _, Fin.ext ?_⟩
      rw [emb_val]
      simp only [Nat.add_eq_zero_iff, Nat.succ_ne_zero, and_false, if_false, Nat.add_sub_cancel]
      omega
  · intro k _; rfl

/-- A sum over the offsets is the sum over the range's tokens. -/
theorem sum_shift {M : Type*} [AddCommMonoid M] (l p : ℕ) (h : l + p ≤ 201)
    (S : Finset (Fin 201)) (hS : ∀ q : Fin 201, q ∈ S ↔ (l ≤ q.val ∧ q.val < l + p))
    (g : Fin 201 → M) : ∑ k : Fin p, g (shift l p h k) = ∑ q ∈ S, g q := by
  refine Finset.sum_bij (fun k _ => shift l p h k) ?_ ?_ ?_ ?_
  · intro k _
    rw [hS]
    have := k.isLt
    show l ≤ l + k.val ∧ l + k.val < l + p
    omega
  · intro a _ b _ hab
    have hv : l + a.val = l + b.val := congrArg Fin.val hab
    exact Fin.ext (by omega)
  · intro q hq
    rw [hS] at hq
    exact ⟨⟨q.val - l, by omega⟩, Finset.mem_univ _, Fin.ext (by show l + (q.val - l) = q.val; omega)⟩
  · intro k _; rfl

/-- Membership in a row's index set, by numbers. -/
theorem mem_partSet (e : Fin 4) (q : Fin 201) :
    q ∈ partSet e ↔ (q.val = e.val + 1 ∨ (lo e ≤ q.val ∧ q.val < hi e)) := by
  simp [partSet, InPart, InRange, tok, Fin.ext_iff]

/-- Membership in a row's range, by numbers. -/
theorem mem_rangeSet (e : Fin 4) (q : Fin 201) : q ∈ rangeSet e ↔ (lo e ≤ q.val ∧ q.val < hi e) := by
  simp [rangeSet, InRange]

end Cert.ReferenceIdeal.RefValue

end
-- ==== Proof.RefWords.lean ====
/-
  Index words. The gathers' start indices are small numbers written as 32-bit words: such a word is not negative, so the
  "count from the end when negative" select keeps it; read signed and clamped into [0, N - 1] it is the number itself;
  and adding two of them adds the numbers.
-/
import Idealize.ShloMosaic.Lib.DynamicIndex
import Idealize.ShloMosaic.Lib.ValueIdx

namespace Cert.ReferenceIdeal.RefValue

open Idealize.ShloMosaic

/-- A number below 2 ^ 31 as a word is not negative: a select on "the word is negative" takes its second branch. -/
theorem select_neg_ofNat (k : ℕ) (hk : k < 2 ^ 31) (a : BitVec 32) :
    Scalar.select (IntOp.cmpi .slt (BitVec.ofNat 32 k) 0#32) a (BitVec.ofNat 32 k) = BitVec.ofNat 32 k := by
  have hlt : (BitVec.ofNat 32 k).slt 0#32 = false := by
    simp only [BitVec.slt, BitVec.toInt_zero, decide_eq_false_iff_not, Int.not_lt]
    rw [toInt_ofNat_of_lt hk]; omega
  show (if BitVec.ofBool ((BitVec.ofNat 32 k).slt 0#32) = 1 then _ else _) = _
  rw [hlt]
  rfl

/-- Read signed and clamped into [0, N - 1], a number below N is itself. -/
theorem clamp_ofNat (k N : ℕ) (hk : k < N) (hN : N ≤ 2 ^ 31) : min (BitVec.ofNat 32 k).toInt.toNat (N - 1) = k := by
  rw [toInt_ofNat_of_lt (by omega), Int.toNat_natCast]
  omega

/-- The sum of two numbers as words is the word of the sum. -/
theorem addi_ofNat (l j : ℕ) : IntOp.addi (BitVec.ofNat 32 l) (BitVec.ofNat 32 j) = BitVec.ofNat 32 (l + j) := by
  unfold IntOp.addi
  rw [BitVec.ofNat_add]

end Cert.ReferenceIdeal.RefValue
-- ==== Proof.RefGather.lean ====
/-
  Two gathers of a stack of matrices read at an index.

  `gather_rows_apply`: operand `[L, B, N, M]`, start indices `[E, 1]`, result `[L, B, E, M]`: the operand's row axis is
  collapsed and addressed by the one component of the index vector, the other three axes are copied whole. Result element
  `(l, b, e, m)` is the operand at `(l, b, k, m)`, where `k` is the start index `(e, 0)` read as a signed integer and clamped
  into `[0, N − 1]`.

  `gather_cols_apply`: the same along the column axis: operand `[L, B, E, N]`, start indices `[E', 1]`, result
  `[L, B, E, E']`; result element `(l, b, e, e')` is the operand at `(l, b, e, k)`, `k` the clamped start index `(e', 0)`.
-/
import Idealize.ShloMosaic.PureOps.Ideal
import Idealize.ShloMosaic.Lib.ValueIdx
import Idealize.ShloMosaic.PureOps.Reduce

noncomputable section

open Idealize.ShloMosaic Idealize.ShloMosaic.ValueIdx

namespace Cert.RefGather

section Rows
variable {α : Type}

/-- The dimension numbers of the row gather; their conditions `wf` are decided on literal shapes. -/
abbrev rowGather (L B N M E : Nat)
    (wf : GatherDims.WF ⟨4, ![L, B, N, M]⟩ ⟨2, ![E, 1]⟩ ⟨4, ![L, B, E, M]⟩ [0, 1, 3] [2] [] [2] [] 1 ![L, B, 1, M]) :
    GatherDims ⟨4, ![L, B, N, M]⟩ ⟨2, ![E, 1]⟩ ⟨4, ![L, B, E, M]⟩ where
  offsetDims := [0, 1, 3]
  collapsedSliceDims := [2]
  operandBatchingDims := []
  startIndicesBatchingDims := []
  startIndexMap := [2]
  indexVectorDim := 1
  sliceSizes := ![L, B, 1, M]
  wf := wf

variable {L B N M E w : Nat}
  (wf : GatherDims.WF ⟨4, ![L, B, N, M]⟩ ⟨2, ![E, 1]⟩ ⟨4, ![L, B, E, M]⟩ [0, 1, 3] [2] [] [2] [] 1 ![L, B, 1, M])

theorem rows_sKept : (rowGather L B N M E wf).sKept = [0, 1, 3] := by
  show Shape.kept (⟨4, ![L, B, N, M]⟩ : Shape) ([(2 : Fin 4)] ++ []) = [(0 : Fin 4), (1 : Fin 4), (3 : Fin 4)]
  rw [List.append_nil, Shape.kept_single]; rfl

/-- THE ROW GATHER READ AT `(l, b, e, m)`. -/
theorem gather_rows_apply (hN : 0 < N) (x : (⟨4, ![L, B, N, M]⟩ : Shape).Idx → α) (idx : IVec ⟨2, ![E, 1]⟩ w)
    (l : Fin L) (b : Fin B) (e : Fin E) (m : Fin M) :
    Host.gather (rowGather L B N M E wf) x idx (ix4 l b e m)
      = x (ix4 l b ⟨min (idx (ix2 e (0 : Fin 1))).toInt.toNat (N - 1), by omega⟩ m) := by
  unfold Host.gather
  congr 1
  funext c
  refine Fin.ext ?_
  show (rowGather L B N M E wf).start (ix4 l b e m) idx c + (rowGather L B N M E wf).batchCoord (ix4 l b e m) c
      + (rowGather L B N M E wf).offCoord (ix4 l b e m) c = _
  rw [GatherDims.batchCoord_eq_zero _ _ _ List.not_mem_nil, Nat.add_zero]
  match c with
  | ⟨0, _⟩ =>
    have h0 : (rowGather L B N M E wf).start (ix4 l b e m) idx 0 = 0 := by
      unfold GatherDims.start
      rw [dif_neg (fun h => by have := congrArg Fin.val (List.mem_singleton.mp h); simp at this)]
    have h1 : (rowGather L B N M E wf).offCoord (ix4 l b e m) 0 = l.val := by
      unfold GatherDims.offCoord
      rw [dif_pos (by rw [rows_sKept]; simp)]
      rfl
    show (rowGather L B N M E wf).start (ix4 l b e m) idx 0 + (rowGather L B N M E wf).offCoord (ix4 l b e m) 0 = l.val
    rw [h0, h1, Nat.zero_add]
  | ⟨1, _⟩ =>
    have h0 : (rowGather L B N M E wf).start (ix4 l b e m) idx 1 = 0 := by
      unfold GatherDims.start
      rw [dif_neg (fun h => by have := congrArg Fin.val (List.mem_singleton.mp h); simp at this)]
    have h1 : (rowGather L B N M E wf).offCoord (ix4 l b e m) 1 = b.val := by
      unfold GatherDims.offCoord
      rw [dif_pos (by rw [rows_sKept]; simp)]
      rfl
    show (rowGather L B N M E wf).start (ix4 l b e m) idx 1 + (rowGather L B N M E wf).offCoord (ix4 l b e m) 1 = b.val
    rw [h0, h1, Nat.zero_add]
  | ⟨3, _⟩ =>
    have h0 : (rowGather L B N M E wf).start (ix4 l b e m) idx 3 = 0 := by
      unfold GatherDims.start
      rw [dif_neg (fun h => by have := congrArg Fin.val (List.mem_singleton.mp h); simp at this)]
    have h1 : (rowGather L B N M E wf).offCoord (ix4 l b e m) 3 = m.val := by
      unfold GatherDims.offCoord
      rw [dif_pos (by rw [rows_sKept]; simp)]
      rfl
    show (rowGather L B N M E wf).start (ix4 l b e m) idx 3 + (rowGather L B N M E wf).offCoord (ix4 l b e m) 3 = m.val
    rw [h0, h1, Nat.zero_add]
  | ⟨2, _⟩ =>
    have h1 : (rowGather L B N M E wf).offCoord (ix4 l b e m) 2 = 0 :=
      GatherDims.offCoord_eq_zero _ _ _ (by rw [rows_sKept]; simp)
    show (rowGather L B N M E wf).start (ix4 l b e m) idx 2 + (rowGather L B N M E wf).offCoord (ix4 l b e m) 2
      = min (idx (ix2 e (0 : Fin 1))).toInt.toNat (N - 1)
    rw [h1, Nat.add_zero]
    unfold GatherDims.start
    rw [dif_pos (show (2 : Fin 4) ∈ (rowGather L B N M E wf).startIndexMap from List.mem_singleton.mpr rfl)]
    have hsi : (rowGather L B N M E wf).siIdx (ix4 l b e m) ⟨List.idxOf (2 : Fin 4) (rowGather L B N M E wf).startIndexMap,
        List.idxOf_lt_length_iff.2 (List.mem_singleton.mpr rfl)⟩ = ix2 e (0 : Fin 1) := by
      funext c'; refine Fin.ext ?_
      match c' with
      | ⟨0, _⟩ => rfl
      | ⟨1, _⟩ => rfl
    rw [hsi]
    rfl

/-- The row gather at `(l, b, e, m)` when the clamped start index is known to be `k`. -/
theorem gather_rows_at (hN : 0 < N) (x : (⟨4, ![L, B, N, M]⟩ : Shape).Idx → α) (idx : IVec ⟨2, ![E, 1]⟩ w)
    (l : Fin L) (b : Fin B) (e : Fin E) (m : Fin M) (k : Fin N)
    (hk : min (idx (ix2 e (0 : Fin 1))).toInt.toNat (N - 1) = k.val) :
    Host.gather (rowGather L B N M E wf) x idx (ix4 l b e m) = x (ix4 l b k m) := by
  refine (gather_rows_apply wf hN x idx l b e m).trans ?_
  have hf : (⟨min (idx (ix2 e (0 : Fin 1))).toInt.toNat (N - 1), by omega⟩ : Fin N) = k := Fin.ext hk
  rw [hf]

end Rows

section Cols
variable {α : Type}

/-- The dimension numbers of the column gather. -/
abbrev colGather (L B E N E' : Nat)
    (wf : GatherDims.WF ⟨4, ![L, B, E, N]⟩ ⟨2, ![E', 1]⟩ ⟨4, ![L, B, E, E']⟩ [0, 1, 2] [3] [] [3] [] 1 ![L, B, E, 1]) :
    GatherDims ⟨4, ![L, B, E, N]⟩ ⟨2, ![E', 1]⟩ ⟨4, ![L, B, E, E']⟩ where
  offsetDims := [0, 1, 2]
  collapsedSliceDims := [3]
  operandBatchingDims := []
  startIndicesBatchingDims := []
  startIndexMap := [3]
  indexVectorDim := 1
  sliceSizes := ![L, B, E, 1]
  wf := wf

variable {L B E N E' w : Nat}
  (wf : GatherDims.WF ⟨4, ![L, B, E, N]⟩ ⟨2, ![E', 1]⟩ ⟨4, ![L, B, E, E']⟩ [0, 1, 2] [3] [] [3] [] 1 ![L, B, E, 1])

theorem cols_sKept : (colGather L B E N E' wf).sKept = [0, 1, 2] := by
  show Shape.kept (⟨4, ![L, B, E, N]⟩ : Shape) ([(3 : Fin 4)] ++ []) = [(0 : Fin 4), (1 : Fin 4), (2 : Fin 4)]
  rw [List.append_nil, Shape.kept_single]; rfl

/-- THE COLUMN GATHER READ AT `(l, b, e, e')`. -/
theorem gather_cols_apply (hN : 0 < N) (x : (⟨4, ![L, B, E, N]⟩ : Shape).Idx → α) (idx : IVec ⟨2, ![E', 1]⟩ w)
    (l : Fin L) (b : Fin B) (e : Fin E) (m : Fin E') :
    Host.gather (colGather L B E N E' wf) x idx (ix4 l b e m)
      = x (ix4 l b e ⟨min (idx (ix2 m (0 : Fin 1))).toInt.toNat (N - 1), by omega⟩) := by
  unfold Host.gather
  congr 1
  funext c
  refine Fin.ext ?_
  show (colGather L B E N E' wf).start (ix4 l b e m) idx c + (colGather L B E N E' wf).batchCoord (ix4 l b e m) c
      + (colGather L B E N E' wf).offCoord (ix4 l b e m) c = _
  rw [GatherDims.batchCoord_eq_zero _ _ _ List.not_mem_nil, Nat.add_zero]
  match c with
  | ⟨0, _⟩ =>
    have h0 : (colGather L B E N E' wf).start (ix4 l b e m) idx 0 = 0 := by
      unfold GatherDims.start
      rw [dif_neg (fun h => by have := congrArg Fin.val (List.mem_singleton.mp h); simp at this)]
    have h1 : (colGather L B E N E' wf).offCoord (ix4 l b e m) 0 = l.val := by
      unfold GatherDims.offCoord
      rw [dif_pos (by rw [cols_sKept]; simp)]
      rfl
    show (colGather L B E N E' wf).start (ix4 l b e m) idx 0 + (colGather L B E N E' wf).offCoord (ix4 l b e m) 0 = l.val
    rw [h0, h1, Nat.zero_add]
  | ⟨1, _⟩ =>
    have h0 : (colGather L B E N E' wf).start (ix4 l b e m) idx 1 = 0 := by
      unfold GatherDims.start
      rw [dif_neg (fun h => by have := congrArg Fin.val (List.mem_singleton.mp h); simp at this)]
    have h1 : (colGather L B E N E' wf).offCoord (ix4 l b e m) 1 = b.val := by
      unfold GatherDims.offCoord
      rw [dif_pos (by rw [cols_sKept]; simp)]
      rfl
    show (colGather L B E N E' wf).start (ix4 l b e m) idx 1 + (colGather L B E N E' wf).offCoord (ix4 l b e m) 1 = b.val
    rw [h0, h1, Nat.zero_add]
  | ⟨2, _⟩ =>
    have h0 : (colGather L B E N E' wf).start (ix4 l b e m) idx 2 = 0 := by
      unfold GatherDims.start
      rw [dif_neg (fun h => by have := congrArg Fin.val (List.mem_singleton.mp h); simp at this)]
    have h1 : (colGather L B E N E' wf).offCoord (ix4 l b e m) 2 = e.val := by
      unfold GatherDims.offCoord
      rw [dif_pos (by rw [cols_sKept]; simp)]
      rfl
    show (colGather L B E N E' wf).start (ix4 l b e m) idx 2 + (colGather L B E N E' wf).offCoord (ix4 l b e m) 2 = e.val
    rw [h0, h1, Nat.zero_add]
  | ⟨3, _⟩ =>
    have h1 : (colGather L B E N E' wf).offCoord (ix4 l b e m) 3 = 0 :=
      GatherDims.offCoord_eq_zero _ _ _ (by rw [cols_sKept]; simp)
    show (colGather L B E N E' wf).start (ix4 l b e m) idx 3 + (colGather L B E N E' wf).offCoord (ix4 l b e m) 3
      = min (idx (ix2 m (0 : Fin 1))).toInt.toNat (N - 1)
    rw [h1, Nat.add_zero]
    unfold GatherDims.start
    rw [dif_pos (show (3 : Fin 4) ∈ (colGather L B E N E' wf).startIndexMap from List.mem_singleton.mpr rfl)]
    have hsi : (colGather L B E N E' wf).siIdx (ix4 l b e m) ⟨List.idxOf (3 : Fin 4) (colGather L B E N E' wf).startIndexMap,
        List.idxOf_lt_length_iff.2 (List.mem_singleton.mpr rfl)⟩ = ix2 m (0 : Fin 1) := by
      funext c'; refine Fin.ext ?_
      match c' with
      | ⟨0, _⟩ => rfl
      | ⟨1, _⟩ => rfl
    rw [hsi]
    rfl

/-- The column gather at `(l, b, e, m)` when the clamped start index is known to be `k`. -/
theorem gather_cols_at (hN : 0 < N) (x : (⟨4, ![L, B, E, N]⟩ : Shape).Idx → α) (idx : IVec ⟨2, ![E', 1]⟩ w)
    (l : Fin L) (b : Fin B) (e : Fin E) (m : Fin E') (k : Fin N)
    (hk : min (idx (ix2 m (0 : Fin 1))).toInt.toNat (N - 1) = k.val) :
    Host.gather (colGather L B E N E' wf) x idx (ix4 l b e m) = x (ix4 l b e k) := by
  refine (gather_cols_apply wf hN x idx l b e m).trans ?_
  have hf : (⟨min (idx (ix2 m (0 : Fin 1))).toInt.toNat (N - 1), by omega⟩ : Fin N) = k := Fin.ext hk
  rw [hf]

end Cols

end Cert.RefGather

end
-- ==== Proof.RefStep.lean ====
/-
  One step of the chained product, and the result row, over positions.

  A part's matrices are indexed by positions; `ι` names the token a position stands for, and summing over the positions is
  summing over the part's index set. If a matrix holds layer i + 1 at the positions' tokens and another holds the product of
  the layers 0 .. i there, their product over the positions holds the product of the layers 0 .. i + 1.
-/
import proofs.«109065_j67542655697208_2_alg».proof.Proof.Spec

noncomputable section

open scoped BigOperators

namespace Cert.ReferenceIdeal.RefValue

open Cert.Rollout Idealize.ShloMosaic Idealize.ShloMosaic.ValueIdx

/-- One step of the chain over positions. -/
theorem chain_step {n : ℕ} (e : Fin 4) (ι : Fin n → Fin 201)
    (hι : ∀ g : Fin 201 → EReal, ∑ k : Fin n, g (ι k) = ∑ q ∈ partSet e, g q)
    (x : SX.Idx → EReal) (i : ℕ) (hi : i + 1 < 12) (l : Fin 12) (hl : l.val = i + 1)
    (A L N : Fin 64 → Fin n → Fin n → EReal)
    (hA : ∀ b r c, A b r c = x (ix4 l b (ι r) (ι c)))
    (hL : ∀ b r c, L b r c = chain x e i b (ι r) (ι c))
    (hN : ∀ b r c, N b r c = ∑ k : Fin n, A b r k * L b k c) (b : Fin 64) (r c : Fin n) :
    N b r c = chain x e (i + 1) b (ι r) (ι c) := by
  have hc : chain x e (i + 1) b (ι r) (ι c)
      = ∑ q ∈ partSet e, x (ix4 (⟨(i + 1) % 12, Nat.mod_lt _ (by norm_num)⟩ : Fin 12) b (ι r) q) * chain x e i b q (ι c) := rfl
  have hl' : (⟨(i + 1) % 12, Nat.mod_lt _ (by norm_num)⟩ : Fin 12) = l :=
    Fin.ext (by rw [hl]; exact Nat.mod_eq_of_lt hi)
  rw [hc, hl', hN]
  simp only [hA, hL]
  exact hι (fun q => x (ix4 l b (ι r) q) * chain x e i b q (ι c))

/-- The chain's start: layer 0 at the positions' tokens. -/
theorem chain_zero {n : ℕ} (e : Fin 4) (ι : Fin n → Fin 201) (x : SX.Idx → EReal)
    (A : Fin 64 → Fin n → Fin n → EReal) (hA : ∀ b r c, A b r c = x (ix4 (0 : Fin 12) b (ι r) (ι c)))
    (b : Fin 64) (r c : Fin n) : A b r c = chain x e 0 b (ι r) (ι c) := hA b r c

/-- The result row: the whole product's class-token row at the range's tokens, into the rectified features, summed over
    the offsets of the range. -/
theorem out_row {p : ℕ} (e : Fin 4) (σ : Fin p → Fin 201)
    (hσ : ∀ g : Fin 201 → EReal, ∑ k : Fin p, g (σ k) = ∑ q ∈ rangeSet e, g q)
    (x : SX.Idx → EReal) (f : SF.Idx → EReal) (b : Fin 64) (d : Fin 768)
    (W R : Fin p → EReal)
    (hW : ∀ k, W k = chain x e 11 b (tok e) (σ k))
    (hR : ∀ k, R k = max (f (ix3 b (σ k) d)) 0) :
    ∑ k : Fin p, W k * R k = chainOut x f b e d := by
  simp only [hW, hR]
  exact hσ (fun j => chain x e 11 b (tok e) j * max (f (ix3 b j d)) 0)

end Cert.ReferenceIdeal.RefValue

end
-- ==== Proof.RefP1.lean ====
/- Text written by:  cd <unit directory> && bun scratch/gen_ref_parts.js proof/Proof   (one template, filled in for this part's
   extents and buffer names and repeated for its twelve layers and eleven products; the argument is in the modules it imports)

  Part 1 of the reference (result row 0).

  Its index vector holds the class token 1 at position 0 and the token 5 + k at position k + 1 (197 positions). No entry is
  negative, so the "count from the end" selects keep it, and every entry is below 201, so the gathers' clamps keep it: the
  twice-gathered stack of matrices at (layer, batch, r, c) is the argument at the tokens of the positions r and c.
  Layer i of that stack, sliced out and re-laid as a batch of 197 × 197 matrices, is the argument's layer i at the positions'
  tokens. The eleven products, each the next layer times the product so far, are the specification's chain at the positions'
  tokens. The last product's row 0 at the columns 1 .. 196, into the rectified features of the range, is the specification's
  result row.
-/
import proofs.«109065_j67542655697208_2_alg».proof.Proof.Spec
import proofs.«109065_j67542655697208_2_alg».proof.Proof.RefRead
import proofs.«109065_j67542655697208_2_alg».proof.Proof.RefSums
import proofs.«109065_j67542655697208_2_alg».proof.Proof.RefWords
import proofs.«109065_j67542655697208_2_alg».proof.Proof.RefGather
import proofs.«109065_j67542655697208_2_alg».proof.Proof.RefStep
import Idealize.ShloMosaic.PureOps.Ideal.Laws

noncomputable section

open scoped BigOperators

namespace Cert.ReferenceIdeal.RefValue

open Cert.ReferenceIdeal Cert.ReferenceIdeal.Gen Cert.ReferenceIdeal.ReadP Cert.Rollout Cert.RefGather
open Idealize.ShloMosaic Idealize.ShloMosaic.ValueIdx

/-- The token at a position of part 1. -/
def pos1 : Fin 197 → Fin 201 := emb 1 5 197 (by norm_num) (by norm_num)

/-- Summing over the positions of part 1 is summing over row 0's index set. -/
theorem sum_pos1 (g : Fin 201 → EReal) : ∑ k : Fin 197, g (pos1 k) = ∑ q ∈ partSet (0 : Fin 4), g q :=
  sum_emb 1 5 197 (by norm_num) (by norm_num) (by norm_num) (by norm_num) (partSet (0 : Fin 4))
    (fun q => by
      rw [mem_partSet]
      show (q.val = 0 + 1 ∨ 5 ≤ q.val ∧ q.val < 201) ↔ (q.val = 1 ∨ 5 ≤ q.val ∧ q.val < 5 + (197 - 1))
      omega) g

/-- The token at an offset of part 1's range. -/
def off1 : Fin 196 → Fin 201 := shift 5 196 (by norm_num)

/-- Summing over the offsets of part 1's range is summing over row 0's range. -/
theorem sum_off1 (g : Fin 201 → EReal) : ∑ k : Fin 196, g (off1 k) = ∑ q ∈ rangeSet (0 : Fin 4), g q :=
  sum_shift 5 196 (by norm_num) (rangeSet (0 : Fin 4))
    (fun q => by
      rw [mem_rangeSet]
      show (5 ≤ q.val ∧ q.val < 201) ↔ (5 ≤ q.val ∧ q.val < 5 + 196)
      omega) g

/-- Position 0 is the class token. -/
theorem pos1_zero : pos1 (0 : Fin 197) = tok (0 : Fin 4) := rfl

/-- Position k + 1 is the range's token at offset k. -/
theorem pos1_succ (k : Fin 196) : pos1 ⟨k.val + 1, by have := k.isLt; omega⟩ = off1 k := by
  refine Fin.ext ?_
  unfold pos1 off1
  rw [emb_val]
  show (if k.val + 1 = 0 then 1 else 5 + (k.val + 1 - 1)) = 5 + k.val
  rw [if_neg (by omega)]
  omega

/-- The index vector of part 1: the token of each position, as a word. -/
theorem idxvec1 (k : Fin 197) : val_main_v60 (F := Ideal) (ix1 k) = BitVec.ofNat 32 (pos1 k).val := by
  unfold val_main_v60 pos1
  rw [emb_val]
  by_cases hk : k.val = 0
  · rw [if_pos hk]
    exact concatenate_pair_apply_left (0 : Fin S197.rank) (val_main_c_0 (F := Ideal)) (val_main_v59 (F := Ideal)) concatenates_S1_S196_S197_d0 (ix1 k) rfl
      (ix1 (0 : Fin 1)) (fun b => match b with | ⟨0, _⟩ => hk.symm)
  · rw [if_neg hk]
    refine (concatenate_pair_apply_right (0 : Fin S197.rank) (val_main_c_0 (F := Ideal)) (val_main_v59 (F := Ideal)) concatenates_S1_S196_S197_d0 (ix1 k) rfl rfl
      (ix1 (⟨k.val - 1, by have := k.isLt; omega⟩ : Fin 196)) (fun b hb => match b, hb with | ⟨0, _⟩, hb => absurd rfl hb)
      (by show k.val - 1 + 1 = k.val; omega)).trans ?_
    rw [val_main_v59_apply, val_main_v58_apply, val_main_c_9_apply, val_main_v57_apply]
    exact addi_ofNat 5 (k.val - 1)

/-- The row gather's start indices: the index vector. -/
theorem rowidx1 (k : Fin 197) : val_main_v66 (F := Ideal) (ix2 k (0 : Fin 1)) = BitVec.ofNat 32 (pos1 k).val := by
  rw [val_main_v66_apply, show idx_main_v66 (ix2 k (0 : Fin 1)) = ix1 k from funext fun a => by match a with | ⟨0, _⟩ => rfl,
    val_main_v65_apply, val_main_v62_apply, val_main_v61_apply, val_main_c_10_apply, idxvec1]
  exact select_neg_ofNat _ (by have := (pos1 k).isLt; omega) _

/-- The column gather's start indices: the index vector again. -/
theorem colidx1 (k : Fin 197) : val_main_v73 (F := Ideal) (ix2 k (0 : Fin 1)) = BitVec.ofNat 32 (pos1 k).val := by
  rw [val_main_v73_apply, show idx_main_v73 (ix2 k (0 : Fin 1)) = ix1 k from funext fun a => by match a with | ⟨0, _⟩ => rfl,
    val_main_v72_apply, val_main_v69_apply, val_main_v68_apply, val_main_c_12_apply, idxvec1]
  exact select_neg_ofNat _ (by have := (pos1 k).isLt; omega) _

/-- The gathered stack of matrices of part 1 at (layer, batch, r, c): the argument at the positions' tokens. -/
theorem gathered1 (x : SX.Idx → EReal) (l : Fin 12) (b : Fin 64) (r c : Fin 197) :
    val_main_v74 (F := Ideal) x (ix4 l b r c) = x (ix4 l b (pos1 r) (pos1 c)) := by
  have hc : min (val_main_v73 (F := Ideal) (ix2 c (0 : Fin 1))).toInt.toNat (201 - 1) = (pos1 c).val := by
    rw [colidx1 c]; exact clamp_ofNat _ 201 (pos1 c).isLt (by norm_num)
  have hr : min (val_main_v66 (F := Ideal) (ix2 r (0 : Fin 1))).toInt.toNat (201 - 1) = (pos1 r).val := by
    rw [rowidx1 r]; exact clamp_ofNat _ 201 (pos1 r).isLt (by norm_num)
  unfold val_main_v74
  refine (gather_cols_at gather_S12x64x197x201_S197x1_S12x64x197x197_012_3_n_n_3_1_12641971_wf (by norm_num) (val_main_v67 (F := Ideal) x) (val_main_v73 (F := Ideal)) l b r c (pos1 c) hc).trans ?_
  unfold val_main_v67
  exact gather_rows_at gather_S12x64x201x201_S197x1_S12x64x197x201_013_2_n_n_2_1_12641201_wf (by norm_num) x (val_main_v66 (F := Ideal)) l b r (pos1 c) (pos1 r) hr

/-- The re-laying of a one-layer slice as a batch of matrices reads (0, b, r, c) at (b, r, c). -/
theorem resh1 (b : Fin 64) (r c : Fin 197) : idx_main_v76 (ix3 b r c) = ix4 (0 : Fin 1) b r c :=
  funext fun a => Fin.ext (by
    have hb := b.isLt; have hr := r.isLt; have hc := c.isLt
    match a with
    | ⟨0, _⟩ => rfl
    | ⟨1, _⟩ => show ((b.val * 197 + r.val) * 197 + c.val) / 38809 % 64 = b.val; omega
    | ⟨2, _⟩ => show ((b.val * 197 + r.val) * 197 + c.val) / 197 % 197 = r.val; omega
    | ⟨3, _⟩ => show ((b.val * 197 + r.val) * 197 + c.val) % 197 = c.val; omega)

/-- A matrix product's left operand is read at (b, r, k), -/
theorem lidx1 (b : Fin 64) (r c k : Fin 197) : lidx_main_v79 (ix3 b r c) k = ix3 b r k :=
  funext fun a => by match a with | ⟨0, _⟩ => rfl | ⟨1, _⟩ => rfl | ⟨2, _⟩ => rfl
/-- and its right operand at (b, k, c). -/
theorem ridx1 (b : Fin 64) (r c k : Fin 197) : ridx_main_v79 (ix3 b r c) k = ix3 b k c :=
  funext fun a => by match a with | ⟨0, _⟩ => rfl | ⟨1, _⟩ => rfl | ⟨2, _⟩ => rfl

/-- Layer 0 of part 1. -/
theorem layer1_0 (x : SX.Idx → EReal) (b : Fin 64) (r c : Fin 197) :
    val_main_v76 (F := Ideal) x (ix3 b r c) = x (ix4 (0 : Fin 12) b (pos1 r) (pos1 c)) := by
  rw [val_main_v76_apply, show idx_main_v76 (ix3 b r c) = ix4 (0 : Fin 1) b r c from resh1 b r c, val_main_v75_apply,
    show idx_main_v75 (ix4 (0 : Fin 1) b r c) = ix4 (0 : Fin 12) b r c from
      funext fun a => Fin.ext (by match a with | ⟨0, _⟩ => rfl | ⟨1, _⟩ => rfl | ⟨2, _⟩ => rfl | ⟨3, _⟩ => rfl)]
  exact gathered1 x _ b r c

/-- Layer 1 of part 1. -/
theorem layer1_1 (x : SX.Idx → EReal) (b : Fin 64) (r c : Fin 197) :
    val_main_v78 (F := Ideal) x (ix3 b r c) = x (ix4 (1 : Fin 12) b (pos1 r) (pos1 c)) := by
  rw [val_main_v78_apply, show idx_main_v78 (ix3 b r c) = ix4 (0 : Fin 1) b r c from resh1 b r c, val_main_v77_apply,
    show idx_main_v77 (ix4 (0 : Fin 1) b r c) = ix4 (1 : Fin 12) b r c from
      funext fun a => Fin.ext (by match a with | ⟨0, _⟩ => rfl | ⟨1, _⟩ => rfl | ⟨2, _⟩ => rfl | ⟨3, _⟩ => rfl)]
  exact gathered1 x _ b r c

/-- Layer 2 of part 1. -/
theorem layer1_2 (x : SX.Idx → EReal) (b : Fin 64) (r c : Fin 197) :
    val_main_v81 (F := Ideal) x (ix3 b r c) = x (ix4 (2 : Fin 12) b (pos1 r) (pos1 c)) := by
  rw [val_main_v81_apply, show idx_main_v81 (ix3 b r c) = ix4 (0 : Fin 1) b r c from resh1 b r c, val_main_v80_apply,
    show idx_main_v80 (ix4 (0 : Fin 1) b r c) = ix4 (2 : Fin 12) b r c from
      funext fun a => Fin.ext (by match a with | ⟨0, _⟩ => rfl | ⟨1, _⟩ => rfl | ⟨2, _⟩ => rfl | ⟨3, _⟩ => rfl)]
  exact gathered1 x _ b r c

/-- Layer 3 of part 1. -/
theorem layer1_3 (x : SX.Idx → EReal) (b : Fin 64) (r c : Fin 197) :
    val_main_v84 (F := Ideal) x (ix3 b r c) = x (ix4 (3 : Fin 12) b (pos1 r) (pos1 c)) := by
  rw [val_main_v84_apply, show idx_main_v84 (ix3 b r c) = ix4 (0 : Fin 1) b r c from resh1 b r c, val_main_v83_apply,
    show idx_main_v83 (ix4 (0 : Fin 1) b r c) = ix4 (3 : Fin 12) b r c from
      funext fun a => Fin.ext (by match a with | ⟨0, _⟩ => rfl | ⟨1, _⟩ => rfl | ⟨2, _⟩ => rfl | ⟨3, _⟩ => rfl)]
  exact gathered1 x _ b r c

/-- Layer 4 of part 1. -/
theorem layer1_4 (x : SX.Idx → EReal) (b : Fin 64) (r c : Fin 197) :
    val_main_v87 (F := Ideal) x (ix3 b r c) = x (ix4 (4 : Fin 12) b (pos1 r) (pos1 c)) := by
  rw [val_main_v87_apply, show idx_main_v87 (ix3 b r c) = ix4 (0 : Fin 1) b r c from resh1 b r c, val_main_v86_apply,
    show idx_main_v86 (ix4 (0 : Fin 1) b r c) = ix4 (4 : Fin 12) b r c from
      funext fun a => Fin.ext (by match a with | ⟨0, _⟩ => rfl | ⟨1, _⟩ => rfl | ⟨2, _⟩ => rfl | ⟨3, _⟩ => rfl)]
  exact gathered1 x _ b r c

/-- Layer 5 of part 1. -/
theorem layer1_5 (x : SX.Idx → EReal) (b : Fin 64) (r c : Fin 197) :
    val_main_v90 (F := Ideal) x (ix3 b r c) = x (ix4 (5 : Fin 12) b (pos1 r) (pos1 c)) := by
  rw [val_main_v90_apply, show idx_main_v90 (ix3 b r c) = ix4 (0 : Fin 1) b r c from resh1 b r c, val_main_v89_apply,
    show idx_main_v89 (ix4 (0 : Fin 1) b r c) = ix4 (5 : Fin 12) b r c from
      funext fun a => Fin.ext (by match a with | ⟨0, _⟩ => rfl | ⟨1, _⟩ => rfl | ⟨2, _⟩ => rfl | ⟨3, _⟩ => rfl)]
  exact gathered1 x _ b r c

/-- Layer 6 of part 1. -/
theorem layer1_6 (x : SX.Idx → EReal) (b : Fin 64) (r c : Fin 197) :
    val_main_v93 (F := Ideal) x (ix3 b r c) = x (ix4 (6 : Fin 12) b (pos1 r) (pos1 c)) := by
  rw [val_main_v93_apply, show idx_main_v93 (ix3 b r c) = ix4 (0 : Fin 1) b r c from resh1 b r c, val_main_v92_apply,
    show idx_main_v92 (ix4 (0 : Fin 1) b r c) = ix4 (6 : Fin 12) b r c from
      funext fun a => Fin.ext (by match a with | ⟨0, _⟩ => rfl | ⟨1, _⟩ => rfl | ⟨2, _⟩ => rfl | ⟨3, _⟩ => rfl)]
  exact gathered1 x _ b r c

/-- Layer 7 of part 1. -/
theorem layer1_7 (x : SX.Idx → EReal) (b : Fin 64) (r c : Fin 197) :
    val_main_v96 (F := Ideal) x (ix3 b r c) = x (ix4 (7 : Fin 12) b (pos1 r) (pos1 c)) := by
  rw [val_main_v96_apply, show idx_main_v96 (ix3 b r c) = ix4 (0 : Fin 1) b r c from resh1 b r c, val_main_v95_apply,
    show idx_main_v95 (ix4 (0 : Fin 1) b r c) = ix4 (7 : Fin 12) b r c from
      funext fun a => Fin.ext (by match a with | ⟨0, _⟩ => rfl | ⟨1, _⟩ => rfl | ⟨2, _⟩ => rfl | ⟨3, _⟩ => rfl)]
  exact gathered1 x _ b r c

/-- Layer 8 of part 1. -/
theorem layer1_8 (x : SX.Idx → EReal) (b : Fin 64) (r c : Fin 197) :
    val_main_v99 (F := Ideal) x (ix3 b r c) = x (ix4 (8 : Fin 12) b (pos1 r) (pos1 c)) := by
  rw [val_main_v99_apply, show idx_main_v99 (ix3 b r c) = ix4 (0 : Fin 1) b r c from resh1 b r c, val_main_v98_apply,
    show idx_main_v98 (ix4 (0 : Fin 1) b r c) = ix4 (8 : Fin 12) b r c from
      funext fun a => Fin.ext (by match a with | ⟨0, _⟩ => rfl | ⟨1, _⟩ => rfl | ⟨2, _⟩ => rfl | ⟨3, _⟩ => rfl)]
  exact gathered1 x _ b r c

/-- Layer 9 of part 1. -/
theorem layer1_9 (x : SX.Idx → EReal) (b : Fin 64) (r c : Fin 197) :
    val_main_v102 (F := Ideal) x (ix3 b r c) = x (ix4 (9 : Fin 12) b (pos1 r) (pos1 c)) := by
  rw [val_main_v102_apply, show idx_main_v102 (ix3 b r c) = ix4 (0 : Fin 1) b r c from resh1 b r c, val_main_v101_apply,
    show idx_main_v101 (ix4 (0 : Fin 1) b r c) = ix4 (9 : Fin 12) b r c from
      funext fun a => Fin.ext (by match a with | ⟨0, _⟩ => rfl | ⟨1, _⟩ => rfl | ⟨2, _⟩ => rfl | ⟨3, _⟩ => rfl)]
  exact gathered1 x _ b r c

/-- Layer 10 of part 1. -/
theorem layer1_10 (x : SX.Idx → EReal) (b : Fin 64) (r c : Fin 197) :
    val_main_v105 (F := Ideal) x (ix3 b r c) = x (ix4 (10 : Fin 12) b (pos1 r) (pos1 c)) := by
  rw [val_main_v105_apply, show idx_main_v105 (ix3 b r c) = ix4 (0 : Fin 1) b r c from resh1 b r c, val_main_v104_apply,
    show idx_main_v104 (ix4 (0 : Fin 1) b r c) = ix4 (10 : Fin 12) b r c from
      funext fun a => Fin.ext (by match a with | ⟨0, _⟩ => rfl | ⟨1, _⟩ => rfl | ⟨2, _⟩ => rfl | ⟨3, _⟩ => rfl)]
  exact gathered1 x _ b r c

/-- Layer 11 of part 1. -/
theorem layer1_11 (x : SX.Idx → EReal) (b : Fin 64) (r c : Fin 197) :
    val_main_v108 (F := Ideal) x (ix3 b r c) = x (ix4 (11 : Fin 12) b (pos1 r) (pos1 c)) := by
  rw [val_main_v108_apply, show idx_main_v108 (ix3 b r c) = ix4 (0 : Fin 1) b r c from resh1 b r c, val_main_v107_apply,
    show idx_main_v107 (ix4 (0 : Fin 1) b r c) = ix4 (11 : Fin 12) b r c from
      funext fun a => Fin.ext (by match a with | ⟨0, _⟩ => rfl | ⟨1, _⟩ => rfl | ⟨2, _⟩ => rfl | ⟨3, _⟩ => rfl)]
  exact gathered1 x _ b r c

/-- The chain's start: layer 0. -/
theorem chain1_0 (x : SX.Idx → EReal) (b : Fin 64) (r c : Fin 197) :
    val_main_v76 (F := Ideal) x (ix3 b r c) = chain x (0 : Fin 4) 0 b (pos1 r) (pos1 c) :=
  layer1_0 x b r c

/-- The product of the layers 0 .. 1 of part 1. -/
theorem chain1_1 (x : SX.Idx → EReal) (b : Fin 64) (r c : Fin 197) :
    val_main_v79 (F := Ideal) x (ix3 b r c) = chain x (0 : Fin 4) 1 b (pos1 r) (pos1 c) :=
  chain_step (0 : Fin 4) pos1 sum_pos1 x 0 (by norm_num) (1 : Fin 12) rfl
    (fun b r c => val_main_v78 (F := Ideal) x (ix3 b r c)) (fun b r c => val_main_v76 (F := Ideal) x (ix3 b r c))
    (fun b r c => val_main_v79 (F := Ideal) x (ix3 b r c))
    (layer1_1 x) (chain1_0 x)
    (fun b r c => by
      rw [val_main_v79_apply]
      refine Finset.sum_congr rfl fun k _ => ?_
      rw [show lidx_main_v79 (ix3 b r c) k = ix3 b r k from lidx1 b r c k,
        show ridx_main_v79 (ix3 b r c) k = ix3 b k c from ridx1 b r c k]) b r c

/-- The product of the layers 0 .. 2 of part 1. -/
theorem chain1_2 (x : SX.Idx → EReal) (b : Fin 64) (r c : Fin 197) :
    val_main_v82 (F := Ideal) x (ix3 b r c) = chain x (0 : Fin 4) 2 b (pos1 r) (pos1 c) :=
  chain_step (0 : Fin 4) pos1 sum_pos1 x 1 (by norm_num) (2 : Fin 12) rfl
    (fun b r c => val_main_v81 (F := Ideal) x (ix3 b r c)) (fun b r c => val_main_v79 (F := Ideal) x (ix3 b r c))
    (fun b r c => val_main_v82 (F := Ideal) x (ix3 b r c))
    (layer1_2 x) (chain1_1 x)
    (fun b r c => by
      rw [val_main_v82_apply]
      refine Finset.sum_congr rfl fun k _ => ?_
      rw [show lidx_main_v82 (ix3 b r c) k = ix3 b r k from lidx1 b r c k,
        show ridx_main_v82 (ix3 b r c) k = ix3 b k c from ridx1 b r c k]) b r c

/-- The product of the layers 0 .. 3 of part 1. -/
theorem chain1_3 (x : SX.Idx → EReal) (b : Fin 64) (r c : Fin 197) :
    val_main_v85 (F := Ideal) x (ix3 b r c) = chain x (0 : Fin 4) 3 b (pos1 r) (pos1 c) :=
  chain_step (0 : Fin 4) pos1 sum_pos1 x 2 (by norm_num) (3 : Fin 12) rfl
    (fun b r c => val_main_v84 (F := Ideal) x (ix3 b r c)) (fun b r c => val_main_v82 (F := Ideal) x (ix3 b r c))
    (fun b r c => val_main_v85 (F := Ideal) x (ix3 b r c))
    (layer1_3 x) (chain1_2 x)
    (fun b r c => by
      rw [val_main_v85_apply]
      refine Finset.sum_congr rfl fun k _ => ?_
      rw [show lidx_main_v85 (ix3 b r c) k = ix3 b r k from lidx1 b r c k,
        show ridx_main_v85 (ix3 b r c) k = ix3 b k c from ridx1 b r c k]) b r c

/-- The product of the layers 0 .. 4 of part 1. -/
theorem chain1_4 (x : SX.Idx → EReal) (b : Fin 64) (r c : Fin 197) :
    val_main_v88 (F := Ideal) x (ix3 b r c) = chain x (0 : Fin 4) 4 b (pos1 r) (pos1 c) :=
  chain_step (0 : Fin 4) pos1 sum_pos1 x 3 (by norm_num) (4 : Fin 12) rfl
    (fun b r c => val_main_v87 (F := Ideal) x (ix3 b r c)) (fun b r c => val_main_v85 (F := Ideal) x (ix3 b r c))
    (fun b r c => val_main_v88 (F := Ideal) x (ix3 b r c))
    (layer1_4 x) (chain1_3 x)
    (fun b r c => by
      rw [val_main_v88_apply]
      refine Finset.sum_congr rfl fun k _ => ?_
      rw [show lidx_main_v88 (ix3 b r c) k = ix3 b r k from lidx1 b r c k,
        show ridx_main_v88 (ix3 b r c) k = ix3 b k c from ridx1 b r c k]) b r c

/-- The product of the layers 0 .. 5 of part 1. -/
theorem chain1_5 (x : SX.Idx → EReal) (b : Fin 64) (r c : Fin 197) :
    val_main_v91 (F := Ideal) x (ix3 b r c) = chain x (0 : Fin 4) 5 b (pos1 r) (pos1 c) :=
  chain_step (0 : Fin 4) pos1 sum_pos1 x 4 (by norm_num) (5 : Fin 12) rfl
    (fun b r c => val_main_v90 (F := Ideal) x (ix3 b r c)) (fun b r c => val_main_v88 (F := Ideal) x (ix3 b r c))
    (fun b r c => val_main_v91 (F := Ideal) x (ix3 b r c))
    (layer1_5 x) (chain1_4 x)
    (fun b r c => by
      rw [val_main_v91_apply]
      refine Finset.sum_congr rfl fun k _ => ?_
      rw [show lidx_main_v91 (ix3 b r c) k = ix3 b r k from lidx1 b r c k,
        show ridx_main_v91 (ix3 b r c) k = ix3 b k c from ridx1 b r c k]) b r c

/-- The product of the layers 0 .. 6 of part 1. -/
theorem chain1_6 (x : SX.Idx → EReal) (b : Fin 64) (r c : Fin 197) :
    val_main_v94 (F := Ideal) x (ix3 b r c) = chain x (0 : Fin 4) 6 b (pos1 r) (pos1 c) :=
  chain_step (0 : Fin 4) pos1 sum_pos1 x 5 (by norm_num) (6 : Fin 12) rfl
    (fun b r c => val_main_v93 (F := Ideal) x (ix3 b r c)) (fun b r c => val_main_v91 (F := Ideal) x (ix3 b r c))
    (fun b r c => val_main_v94 (F := Ideal) x (ix3 b r c))
    (layer1_6 x) (chain1_5 x)
    (fun b r c => by
      rw [val_main_v94_apply]
      refine Finset.sum_congr rfl fun k _ => ?_
      rw [show lidx_main_v94 (ix3 b r c) k = ix3 b r k from lidx1 b r c k,
        show ridx_main_v94 (ix3 b r c) k = ix3 b k c from ridx1 b r c k]) b r c

/-- The product of the layers 0 .. 7 of part 1. -/
theorem chain1_7 (x : SX.Idx → EReal) (b : Fin 64) (r c : Fin 197) :
    val_main_v97 (F := Ideal) x (ix3 b r c) = chain x (0 : Fin 4) 7 b (pos1 r) (pos1 c) :=
  chain_step (0 : Fin 4) pos1 sum_pos1 x 6 (by norm_num) (7 : Fin 12) rfl
    (fun b r c => val_main_v96 (F := Ideal) x (ix3 b r c)) (fun b r c => val_main_v94 (F := Ideal) x (ix3 b r c))
    (fun b r c => val_main_v97 (F := Ideal) x (ix3 b r c))
    (layer1_7 x) (chain1_6 x)
    (fun b r c => by
      rw [val_main_v97_apply]
      refine Finset.sum_congr rfl fun k _ => ?_
      rw [show lidx_main_v97 (ix3 b r c) k = ix3 b r k from lidx1 b r c k,
        show ridx_main_v97 (ix3 b r c) k = ix3 b k c from ridx1 b r c k]) b r c

/-- The product of the layers 0 .. 8 of part 1. -/
theorem chain1_8 (x : SX.Idx → EReal) (b : Fin 64) (r c : Fin 197) :
    val_main_v100 (F := Ideal) x (ix3 b r c) = chain x (0 : Fin 4) 8 b (pos1 r) (pos1 c) :=
  chain_step (0 : Fin 4) pos1 sum_pos1 x 7 (by norm_num) (8 : Fin 12) rfl
    (fun b r c => val_main_v99 (F := Ideal) x (ix3 b r c)) (fun b r c => val_main_v97 (F := Ideal) x (ix3 b r c))
    (fun b r c => val_main_v100 (F := Ideal) x (ix3 b r c))
    (layer1_8 x) (chain1_7 x)
    (fun b r c => by
      rw [val_main_v100_apply]
      refine Finset.sum_congr rfl fun k _ => ?_
      rw [show lidx_main_v100 (ix3 b r c) k = ix3 b r k from lidx1 b r c k,
        show ridx_main_v100 (ix3 b r c) k = ix3 b k c from ridx1 b r c k]) b r c

/-- The product of the layers 0 .. 9 of part 1. -/
theorem chain1_9 (x : SX.Idx → EReal) (b : Fin 64) (r c : Fin 197) :
    val_main_v103 (F := Ideal) x (ix3 b r c) = chain x (0 : Fin 4) 9 b (pos1 r) (pos1 c) :=
  chain_step (0 : Fin 4) pos1 sum_pos1 x 8 (by norm_num) (9 : Fin 12) rfl
    (fun b r c => val_main_v102 (F := Ideal) x (ix3 b r c)) (fun b r c => val_main_v100 (F := Ideal) x (ix3 b r c))
    (fun b r c => val_main_v103 (F := Ideal) x (ix3 b r c))
    (layer1_9 x) (chain1_8 x)
    (fun b r c => by
      rw [val_main_v103_apply]
      refine Finset.sum_congr rfl fun k _ => ?_
      rw [show lidx_main_v103 (ix3 b r c) k = ix3 b r k from lidx1 b r c k,
        show ridx_main_v103 (ix3 b r c) k = ix3 b k c from ridx1 b r c k]) b r c

/-- The product of the layers 0 .. 10 of part 1. -/
theorem chain1_10 (x : SX.Idx → EReal) (b : Fin 64) (r c : Fin 197) :
    val_main_v106 (F := Ideal) x (ix3 b r c) = chain x (0 : Fin 4) 10 b (pos1 r) (pos1 c) :=
  chain_step (0 : Fin 4) pos1 sum_pos1 x 9 (by norm_num) (10 : Fin 12) rfl
    (fun b r c => val_main_v105 (F := Ideal) x (ix3 b r c)) (fun b r c => val_main_v103 (F := Ideal) x (ix3 b r c))
    (fun b r c => val_main_v106 (F := Ideal) x (ix3 b r c))
    (layer1_10 x) (chain1_9 x)
    (fun b r c => by
      rw [val_main_v106_apply]
      refine Finset.sum_congr rfl fun k _ => ?_
      rw [show lidx_main_v106 (ix3 b r c) k = ix3 b r k from lidx1 b r c k,
        show ridx_main_v106 (ix3 b r c) k = ix3 b k c from ridx1 b r c k]) b r c

/-- The product of the layers 0 .. 11 of part 1. -/
theorem chain1_11 (x : SX.Idx → EReal) (b : Fin 64) (r c : Fin 197) :
    val_main_v109 (F := Ideal) x (ix3 b r c) = chain x (0 : Fin 4) 11 b (pos1 r) (pos1 c) :=
  chain_step (0 : Fin 4) pos1 sum_pos1 x 10 (by norm_num) (11 : Fin 12) rfl
    (fun b r c => val_main_v108 (F := Ideal) x (ix3 b r c)) (fun b r c => val_main_v106 (F := Ideal) x (ix3 b r c))
    (fun b r c => val_main_v109 (F := Ideal) x (ix3 b r c))
    (layer1_11 x) (chain1_10 x)
    (fun b r c => by
      rw [val_main_v109_apply]
      refine Finset.sum_congr rfl fun k _ => ?_
      rw [show lidx_main_v109 (ix3 b r c) k = ix3 b r k from lidx1 b r c k,
        show ridx_main_v109 (ix3 b r c) k = ix3 b k c from ridx1 b r c k]) b r c

/-- The result row of part 1: the specification's row 0. -/
theorem part1_out (x : SX.Idx → EReal) (f : SF.Idx → EReal) (b : Fin 64) (d : Fin 768) :
    val_main_v113 (F := Ideal) x f (ix3 b (0 : Fin 1) d) = chainOut x f b (0 : Fin 4) d := by
  rw [val_main_v113_apply]
  refine (Finset.sum_congr rfl fun k _ => ?_).trans (out_row (0 : Fin 4) off1 sum_off1 x f b d
    (fun k => chain x (0 : Fin 4) 11 b (tok (0 : Fin 4)) (off1 k)) (fun k => max (f (ix3 b (off1 k) d)) 0)
    (fun _ => rfl) (fun _ => rfl))
  have hw : val_main_v110 (F := Ideal) x (lidx_main_v113 (ix3 b (0 : Fin 1) d) k)
      = chain x (0 : Fin 4) 11 b (tok (0 : Fin 4)) (off1 k) := by
    rw [show lidx_main_v113 (ix3 b (0 : Fin 1) d) k = ix3 b (0 : Fin 1) k from funext fun a => by match a with | ⟨0, _⟩ => rfl | ⟨1, _⟩ => rfl | ⟨2, _⟩ => rfl,
      val_main_v110_apply,
      show idx_main_v110 (ix3 b (0 : Fin 1) k) = ix3 b (0 : Fin 197) (⟨k.val + 1, by have := k.isLt; omega⟩ : Fin 197) from
        funext fun a => Fin.ext (by
          match a with
          | ⟨0, _⟩ => rfl
          | ⟨1, _⟩ => rfl
          | ⟨2, _⟩ => show 1 + k.val = k.val + 1; omega),
      chain1_11 x b _ _, pos1_zero, pos1_succ k]
  have hr : val_main_v112 (F := Ideal) f (ridx_main_v113 (ix3 b (0 : Fin 1) d) k) = max (f (ix3 b (off1 k) d)) 0 := by
    rw [show ridx_main_v113 (ix3 b (0 : Fin 1) d) k = ix3 b k d from funext fun a => by match a with | ⟨0, _⟩ => rfl | ⟨1, _⟩ => rfl | ⟨2, _⟩ => rfl,
      val_main_v112_apply, val_main_v111_apply, val_main_call1_v0_apply, val_main_call1_cst_apply,
      show idx_main_v111 (ix3 b k d) = ix3 b (off1 k) d from funext fun a => Fin.ext (by match a with | ⟨0, _⟩ => rfl | ⟨1, _⟩ => rfl | ⟨2, _⟩ => rfl)]
    show max (f (ix3 b (off1 k) d)) (Ideal.ofBits .f32 0x00000000#32) = max (f (ix3 b (off1 k) d)) 0
    rw [Ideal.ofBits_zero_f32]
  rw [hw, hr]

end Cert.ReferenceIdeal.RefValue

end
-- ==== Proof.RefP2.lean ====
/- Text written by:  cd <unit directory> && bun scratch/gen_ref_parts.js proof/Proof   (one template, filled in for this part's
   extents and buffer names and repeated for its twelve layers and eleven products; the argument is in the modules it imports)

  Part 2 of the reference (result row 1).

  Its index vector holds the class token 2 at position 0 and the token 5 + k at position k + 1 (99 positions). No entry is
  negative, so the "count from the end" selects keep it, and every entry is below 201, so the gathers' clamps keep it: the
  twice-gathered stack of matrices at (layer, batch, r, c) is the argument at the tokens of the positions r and c.
  Layer i of that stack, sliced out and re-laid as a batch of 99 × 99 matrices, is the argument's layer i at the positions'
  tokens. The eleven products, each the next layer times the product so far, are the specification's chain at the positions'
  tokens. The last product's row 0 at the columns 1 .. 98, into the rectified features of the range, is the specification's
  result row.
-/
import proofs.«109065_j67542655697208_2_alg».proof.Proof.Spec
import proofs.«109065_j67542655697208_2_alg».proof.Proof.RefRead
import proofs.«109065_j67542655697208_2_alg».proof.Proof.RefSums
import proofs.«109065_j67542655697208_2_alg».proof.Proof.RefWords
import proofs.«109065_j67542655697208_2_alg».proof.Proof.RefGather
import proofs.«109065_j67542655697208_2_alg».proof.Proof.RefStep
import Idealize.ShloMosaic.PureOps.Ideal.Laws

noncomputable section

open scoped BigOperators

namespace Cert.ReferenceIdeal.RefValue

open Cert.ReferenceIdeal Cert.ReferenceIdeal.Gen Cert.ReferenceIdeal.ReadP Cert.Rollout Cert.RefGather
open Idealize.ShloMosaic Idealize.ShloMosaic.ValueIdx

/-- The token at a position of part 2. -/
def pos2 : Fin 99 → Fin 201 := emb 2 5 99 (by norm_num) (by norm_num)

/-- Summing over the positions of part 2 is summing over row 1's index set. -/
theorem sum_pos2 (g : Fin 201 → EReal) : ∑ k : Fin 99, g (pos2 k) = ∑ q ∈ partSet (1 : Fin 4), g q :=
  sum_emb 2 5 99 (by norm_num) (by norm_num) (by norm_num) (by norm_num) (partSet (1 : Fin 4))
    (fun q => by
      rw [mem_partSet]
      show (q.val = 1 + 1 ∨ 5 ≤ q.val ∧ q.val < 103) ↔ (q.val = 2 ∨ 5 ≤ q.val ∧ q.val < 5 + (99 - 1))
      omega) g

/-- The token at an offset of part 2's range. -/
def off2 : Fin 98 → Fin 201 := shift 5 98 (by norm_num)

/-- Summing over the offsets of part 2's range is summing over row 1's range. -/
theorem sum_off2 (g : Fin 201 → EReal) : ∑ k : Fin 98, g (off2 k) = ∑ q ∈ rangeSet (1 : Fin 4), g q :=
  sum_shift 5 98 (by norm_num) (rangeSet (1 : Fin 4))
    (fun q => by
      rw [mem_rangeSet]
      show (5 ≤ q.val ∧ q.val < 103) ↔ (5 ≤ q.val ∧ q.val < 5 + 98)
      omega) g

/-- Position 0 is the class token. -/
theorem pos2_zero : pos2 (0 : Fin 99) = tok (1 : Fin 4) := rfl

/-- Position k + 1 is the range's token at offset k. -/
theorem pos2_succ (k : Fin 98) : pos2 ⟨k.val + 1, by have := k.isLt; omega⟩ = off2 k := by
  refine Fin.ext ?_
  unfold pos2 off2
  rw [emb_val]
  show (if k.val + 1 = 0 then 2 else 5 + (k.val + 1 - 1)) = 5 + k.val
  rw [if_neg (by omega)]
  omega

/-- The index vector of part 2: the token of each position, as a word. -/
theorem idxvec2 (k : Fin 99) : val_main_v117 (F := Ideal) (ix1 k) = BitVec.ofNat 32 (pos2 k).val := by
  unfold val_main_v117 pos2
  rw [emb_val]
  by_cases hk : k.val = 0
  · rw [if_pos hk]
    exact concatenate_pair_apply_left (0 : Fin S99.rank) (val_main_c_1 (F := Ideal)) (val_main_v116 (F := Ideal)) concatenates_S1_S98_S99_d0 (ix1 k) rfl
      (ix1 (0 : Fin 1)) (fun b => match b with | ⟨0, _⟩ => hk.symm)
  · rw [if_neg hk]
    refine (concatenate_pair_apply_right (0 : Fin S99.rank) (val_main_c_1 (F := Ideal)) (val_main_v116 (F := Ideal)) concatenates_S1_S98_S99_d0 (ix1 k) rfl rfl
      (ix1 (⟨k.val - 1, by have := k.isLt; omega⟩ : Fin 98)) (fun b hb => match b, hb with | ⟨0, _⟩, hb => absurd rfl hb)
      (by show k.val - 1 + 1 = k.val; omega)).trans ?_
    rw [val_main_v116_apply, val_main_v115_apply, val_main_c_14_apply, val_main_v114_apply]
    exact addi_ofNat 5 (k.val - 1)

/-- The row gather's start indices: the index vector. -/
theorem rowidx2 (k : Fin 99) : val_main_v123 (F := Ideal) (ix2 k (0 : Fin 1)) = BitVec.ofNat 32 (pos2 k).val := by
  rw [val_main_v123_apply, show idx_main_v123 (ix2 k (0 : Fin 1)) = ix1 k from funext fun a => by match a with | ⟨0, _⟩ => rfl,
    val_main_v122_apply, val_main_v119_apply, val_main_v118_apply, val_main_c_15_apply, idxvec2]
  exact select_neg_ofNat _ (by have := (pos2 k).isLt; omega) _

/-- The column gather's start indices: the index vector again. -/
theorem colidx2 (k : Fin 99) : val_main_v130 (F := Ideal) (ix2 k (0 : Fin 1)) = BitVec.ofNat 32 (pos2 k).val := by
  rw [val_main_v130_apply, show idx_main_v130 (ix2 k (0 : Fin 1)) = ix1 k from funext fun a => by match a with | ⟨0, _⟩ => rfl,
    val_main_v129_apply, val_main_v126_apply, val_main_v125_apply, val_main_c_17_apply, idxvec2]
  exact select_neg_ofNat _ (by have := (pos2 k).isLt; omega) _

/-- The gathered stack of matrices of part 2 at (layer, batch, r, c): the argument at the positions' tokens. -/
theorem gathered2 (x : SX.Idx → EReal) (l : Fin 12) (b : Fin 64) (r c : Fin 99) :
    val_main_v131 (F := Ideal) x (ix4 l b r c) = x (ix4 l b (pos2 r) (pos2 c)) := by
  have hc : min (val_main_v130 (F := Ideal) (ix2 c (0 : Fin 1))).toInt.toNat (201 - 1) = (pos2 c).val := by
    rw [colidx2 c]; exact clamp_ofNat _ 201 (pos2 c).isLt (by norm_num)
  have hr : min (val_main_v123 (F := Ideal) (ix2 r (0 : Fin 1))).toInt.toNat (201 - 1) = (pos2 r).val := by
    rw [rowidx2 r]; exact clamp_ofNat _ 201 (pos2 r).isLt (by norm_num)
  unfold val_main_v131
  refine (gather_cols_at gather_S12x64x99x201_S99x1_S12x64x99x99_012_3_n_n_3_1_1264991_wf (by norm_num) (val_main_v124 (F := Ideal) x) (val_main_v130 (F := Ideal)) l b r c (pos2 c) hc).trans ?_
  unfold val_main_v124
  exact gather_rows_at gather_S12x64x201x201_S99x1_S12x64x99x201_013_2_n_n_2_1_12641201_wf (by norm_num) x (val_main_v123 (F := Ideal)) l b r (pos2 c) (pos2 r) hr

/-- The re-laying of a one-layer slice as a batch of matrices reads (0, b, r, c) at (b, r, c). -/
theorem resh2 (b : Fin 64) (r c : Fin 99) : idx_main_v133 (ix3 b r c) = ix4 (0 : Fin 1) b r c :=
  funext fun a => Fin.ext (by
    have hb := b.isLt; have hr := r.isLt; have hc := c.isLt
    match a with
    | ⟨0, _⟩ => rfl
    | ⟨1, _⟩ => show ((b.val * 99 + r.val) * 99 + c.val) / 9801 % 64 = b.val; omega
    | ⟨2, _⟩ => show ((b.val * 99 + r.val) * 99 + c.val) / 99 % 99 = r.val; omega
    | ⟨3, _⟩ => show ((b.val * 99 + r.val) * 99 + c.val) % 99 = c.val; omega)

/-- A matrix product's left operand is read at (b, r, k), -/
theorem lidx2 (b : Fin 64) (r c k : Fin 99) : lidx_main_v136 (ix3 b r c) k = ix3 b r k :=
  funext fun a => by match a with | ⟨0, _⟩ => rfl | ⟨1, _⟩ => rfl | ⟨2, _⟩ => rfl
/-- and its right operand at (b, k, c). -/
theorem ridx2 (b : Fin 64) (r c k : Fin 99) : ridx_main_v136 (ix3 b r c) k = ix3 b k c :=
  funext fun a => by match a with | ⟨0, _⟩ => rfl | ⟨1, _⟩ => rfl | ⟨2, _⟩ => rfl

/-- Layer 0 of part 2. -/
theorem layer2_0 (x : SX.Idx → EReal) (b : Fin 64) (r c : Fin 99) :
    val_main_v133 (F := Ideal) x (ix3 b r c) = x (ix4 (0 : Fin 12) b (pos2 r) (pos2 c)) := by
  rw [val_main_v133_apply, show idx_main_v133 (ix3 b r c) = ix4 (0 : Fin 1) b r c from resh2 b r c, val_main_v132_apply,
    show idx_main_v132 (ix4 (0 : Fin 1) b r c) = ix4 (0 : Fin 12) b r c from
      funext fun a => Fin.ext (by match a with | ⟨0, _⟩ => rfl | ⟨1, _⟩ => rfl | ⟨2, _⟩ => rfl | ⟨3, _⟩ => rfl)]
  exact gathered2 x _ b r c

/-- Layer 1 of part 2. -/
theorem layer2_1 (x : SX.Idx → EReal) (b : Fin 64) (r c : Fin 99) :
    val_main_v135 (F := Ideal) x (ix3 b r c) = x (ix4 (1 : Fin 12) b (pos2 r) (pos2 c)) := by
  rw [val_main_v135_apply, show idx_main_v135 (ix3 b r c) = ix4 (0 : Fin 1) b r c from resh2 b r c, val_main_v134_apply,
    show idx_main_v134 (ix4 (0 : Fin 1) b r c) = ix4 (1 : Fin 12) b r c from
      funext fun a => Fin.ext (by match a with | ⟨0, _⟩ => rfl | ⟨1, _⟩ => rfl | ⟨2, _⟩ => rfl | ⟨3, _⟩ => rfl)]
  exact gathered2 x _ b r c

/-- Layer 2 of part 2. -/
theorem layer2_2 (x : SX.Idx → EReal) (b : Fin 64) (r c : Fin 99) :
    val_main_v138 (F := Ideal) x (ix3 b r c) = x (ix4 (2 : Fin 12) b (pos2 r) (pos2 c)) := by
  rw [val_main_v138_apply, show idx_main_v138 (ix3 b r c) = ix4 (0 : Fin 1) b r c from resh2 b r c, val_main_v137_apply,
    show idx_main_v137 (ix4 (0 : Fin 1) b r c) = ix4 (2 : Fin 12) b r c from
      funext fun a => Fin.ext (by match a with | ⟨0, _⟩ => rfl | ⟨1, _⟩ => rfl | ⟨2, _⟩ => rfl | ⟨3, _⟩ => rfl)]
  exact gathered2 x _ b r c

/-- Layer 3 of part 2. -/
theorem layer2_3 (x : SX.Idx → EReal) (b : Fin 64) (r c : Fin 99) :
    val_main_v141 (F := Ideal) x (ix3 b r c) = x (ix4 (3 : Fin 12) b (pos2 r) (pos2 c)) := by
  rw [val_main_v141_apply, show idx_main_v141 (ix3 b r c) = ix4 (0 : Fin 1) b r c from resh2 b r c, val_main_v140_apply,
    show idx_main_v140 (ix4 (0 : Fin 1) b r c) = ix4 (3 : Fin 12) b r c from
      funext fun a => Fin.ext (by match a with | ⟨0, _⟩ => rfl | ⟨1, _⟩ => rfl | ⟨2, _⟩ => rfl | ⟨3, _⟩ => rfl)]
  exact gathered2 x _ b r c

/-- Layer 4 of part 2. -/
theorem layer2_4 (x : SX.Idx → EReal) (b : Fin 64) (r c : Fin 99) :
    val_main_v144 (F := Ideal) x (ix3 b r c) = x (ix4 (4 : Fin 12) b (pos2 r) (pos2 c)) := by
  rw [val_main_v144_apply, show idx_main_v144 (ix3 b r c) = ix4 (0 : Fin 1) b r c from resh2 b r c, val_main_v143_apply,
    show idx_main_v143 (ix4 (0 : Fin 1) b r c) = ix4 (4 : Fin 12) b r c from
      funext fun a => Fin.ext (by match a with | ⟨0, _⟩ => rfl | ⟨1, _⟩ => rfl | ⟨2, _⟩ => rfl | ⟨3, _⟩ => rfl)]
  exact gathered2 x _ b r c

/-- Layer 5 of part 2. -/
theorem layer2_5 (x : SX.Idx → EReal) (b : Fin 64) (r c : Fin 99) :
    val_main_v147 (F := Ideal) x (ix3 b r c) = x (ix4 (5 : Fin 12) b (pos2 r) (pos2 c)) := by
  rw [val_main_v147_apply, show idx_main_v147 (ix3 b r c) = ix4 (0 : Fin 1) b r c from resh2 b r c, val_main_v146_apply,
    show idx_main_v146 (ix4 (0 : Fin 1) b r c) = ix4 (5 : Fin 12) b r c from
      funext fun a => Fin.ext (by match a with | ⟨0, _⟩ => rfl | ⟨1, _⟩ => rfl | ⟨2, _⟩ => rfl | ⟨3, _⟩ => rfl)]
  exact gathered2 x _ b r c

/-- Layer 6 of part 2. -/
theorem layer2_6 (x : SX.Idx → EReal) (b : Fin 64) (r c : Fin 99) :
    val_main_v150 (F := Ideal) x (ix3 b r c) = x (ix4 (6 : Fin 12) b (pos2 r) (pos2 c)) := by
  rw [val_main_v150_apply, show idx_main_v150 (ix3 b r c) = ix4 (0 : Fin 1) b r c from resh2 b r c, val_main_v149_apply,
    show idx_main_v149 (ix4 (0 : Fin 1) b r c) = ix4 (6 : Fin 12) b r c from
      funext fun a => Fin.ext (by match a with | ⟨0, _⟩ => rfl | ⟨1, _⟩ => rfl | ⟨2, _⟩ => rfl | ⟨3, _⟩ => rfl)]
  exact gathered2 x _ b r c

/-- Layer 7 of part 2. -/
theorem layer2_7 (x : SX.Idx → EReal) (b : Fin 64) (r c : Fin 99) :
    val_main_v153 (F := Ideal) x (ix3 b r c) = x (ix4 (7 : Fin 12) b (pos2 r) (pos2 c)) := by
  rw [val_main_v153_apply, show idx_main_v153 (ix3 b r c) = ix4 (0 : Fin 1) b r c from resh2 b r c, val_main_v152_apply,
    show idx_main_v152 (ix4 (0 : Fin 1) b r c) = ix4 (7 : Fin 12) b r c from
      funext fun a => Fin.ext (by match a with | ⟨0, _⟩ => rfl | ⟨1, _⟩ => rfl | ⟨2, _⟩ => rfl | ⟨3, _⟩ => rfl)]
  exact gathered2 x _ b r c

/-- Layer 8 of part 2. -/
theorem layer2_8 (x : SX.Idx → EReal) (b : Fin 64) (r c : Fin 99) :
    val_main_v156 (F := Ideal) x (ix3 b r c) = x (ix4 (8 : Fin 12) b (pos2 r) (pos2 c)) := by
  rw [val_main_v156_apply, show idx_main_v156 (ix3 b r c) = ix4 (0 : Fin 1) b r c from resh2 b r c, val_main_v155_apply,
    show idx_main_v155 (ix4 (0 : Fin 1) b r c) = ix4 (8 : Fin 12) b r c from
      funext fun a => Fin.ext (by match a with | ⟨0, _⟩ => rfl | ⟨1, _⟩ => rfl | ⟨2, _⟩ => rfl | ⟨3, _⟩ => rfl)]
  exact gathered2 x _ b r c

/-- Layer 9 of part 2. -/
theorem layer2_9 (x : SX.Idx → EReal) (b : Fin 64) (r c : Fin 99) :
    val_main_v159 (F := Ideal) x (ix3 b r c) = x (ix4 (9 : Fin 12) b (pos2 r) (pos2 c)) := by
  rw [val_main_v159_apply, show idx_main_v159 (ix3 b r c) = ix4 (0 : Fin 1) b r c from resh2 b r c, val_main_v158_apply,
    show idx_main_v158 (ix4 (0 : Fin 1) b r c) = ix4 (9 : Fin 12) b r c from
      funext fun a => Fin.ext (by match a with | ⟨0, _⟩ => rfl | ⟨1, _⟩ => rfl | ⟨2, _⟩ => rfl | ⟨3, _⟩ => rfl)]
  exact gathered2 x _ b r c

/-- Layer 10 of part 2. -/
theorem layer2_10 (x : SX.Idx → EReal) (b : Fin 64) (r c : Fin 99) :
    val_main_v162 (F := Ideal) x (ix3 b r c) = x (ix4 (10 : Fin 12) b (pos2 r) (pos2 c)) := by
  rw [val_main_v162_apply, show idx_main_v162 (ix3 b r c) = ix4 (0 : Fin 1) b r c from resh2 b r c, val_main_v161_apply,
    show idx_main_v161 (ix4 (0 : Fin 1) b r c) = ix4 (10 : Fin 12) b r c from
      funext fun a => Fin.ext (by match a with | ⟨0, _⟩ => rfl | ⟨1, _⟩ => rfl | ⟨2, _⟩ => rfl | ⟨3, _⟩ => rfl)]
  exact gathered2 x _ b r c

/-- Layer 11 of part 2. -/
theorem layer2_11 (x : SX.Idx → EReal) (b : Fin 64) (r c : Fin 99) :
    val_main_v165 (F := Ideal) x (ix3 b r c) = x (ix4 (11 : Fin 12) b (pos2 r) (pos2 c)) := by
  rw [val_main_v165_apply, show idx_main_v165 (ix3 b r c) = ix4 (0 : Fin 1) b r c from resh2 b r c, val_main_v164_apply,
    show idx_main_v164 (ix4 (0 : Fin 1) b r c) = ix4 (11 : Fin 12) b r c from
      funext fun a => Fin.ext (by match a with | ⟨0, _⟩ => rfl | ⟨1, _⟩ => rfl | ⟨2, _⟩ => rfl | ⟨3, _⟩ => rfl)]
  exact gathered2 x _ b r c

/-- The chain's start: layer 0. -/
theorem chain2_0 (x : SX.Idx → EReal) (b : Fin 64) (r c : Fin 99) :
    val_main_v133 (F := Ideal) x (ix3 b r c) = chain x (1 : Fin 4) 0 b (pos2 r) (pos2 c) :=
  layer2_0 x b r c

/-- The product of the layers 0 .. 1 of part 2. -/
theorem chain2_1 (x : SX.Idx → EReal) (b : Fin 64) (r c : Fin 99) :
    val_main_v136 (F := Ideal) x (ix3 b r c) = chain x (1 : Fin 4) 1 b (pos2 r) (pos2 c) :=
  chain_step (1 : Fin 4) pos2 sum_pos2 x 0 (by norm_num) (1 : Fin 12) rfl
    (fun b r c => val_main_v135 (F := Ideal) x (ix3 b r c)) (fun b r c => val_main_v133 (F := Ideal) x (ix3 b r c))
    (fun b r c => val_main_v136 (F := Ideal) x (ix3 b r c))
    (layer2_1 x) (chain2_0 x)
    (fun b r c => by
      rw [val_main_v136_apply]
      refine Finset.sum_congr rfl fun k _ => ?_
      rw [show lidx_main_v136 (ix3 b r c) k = ix3 b r k from lidx2 b r c k,
        show ridx_main_v136 (ix3 b r c) k = ix3 b k c from ridx2 b r c k]) b r c

/-- The product of the layers 0 .. 2 of part 2. -/
theorem chain2_2 (x : SX.Idx → EReal) (b : Fin 64) (r c : Fin 99) :
    val_main_v139 (F := Ideal) x (ix3 b r c) = chain x (1 : Fin 4) 2 b (pos2 r) (pos2 c) :=
  chain_step (1 : Fin 4) pos2 sum_pos2 x 1 (by norm_num) (2 : Fin 12) rfl
    (fun b r c => val_main_v138 (F := Ideal) x (ix3 b r c)) (fun b r c => val_main_v136 (F := Ideal) x (ix3 b r c))
    (fun b r c => val_main_v139 (F := Ideal) x (ix3 b r c))
    (layer2_2 x) (chain2_1 x)
    (fun b r c => by
      rw [val_main_v139_apply]
      refine Finset.sum_congr rfl fun k _ => ?_
      rw [show lidx_main_v139 (ix3 b r c) k = ix3 b r k from lidx2 b r c k,
        show ridx_main_v139 (ix3 b r c) k = ix3 b k c from ridx2 b r c k]) b r c

/-- The product of the layers 0 .. 3 of part 2. -/
theorem chain2_3 (x : SX.Idx → EReal) (b : Fin 64) (r c : Fin 99) :
    val_main_v142 (F := Ideal) x (ix3 b r c) = chain x (1 : Fin 4) 3 b (pos2 r) (pos2 c) :=
  chain_step (1 : Fin 4) pos2 sum_pos2 x 2 (by norm_num) (3 : Fin 12) rfl
    (fun b r c => val_main_v141 (F := Ideal) x (ix3 b r c)) (fun b r c => val_main_v139 (F := Ideal) x (ix3 b r c))
    (fun b r c => val_main_v142 (F := Ideal) x (ix3 b r c))
    (layer2_3 x) (chain2_2 x)
    (fun b r c => by
      rw [val_main_v142_apply]
      refine Finset.sum_congr rfl fun k _ => ?_
      rw [show lidx_main_v142 (ix3 b r c) k = ix3 b r k from lidx2 b r c k,
        show ridx_main_v142 (ix3 b r c) k = ix3 b k c from ridx2 b r c k]) b r c

/-- The product of the layers 0 .. 4 of part 2. -/
theorem chain2_4 (x : SX.Idx → EReal) (b : Fin 64) (r c : Fin 99) :
    val_main_v145 (F := Ideal) x (ix3 b r c) = chain x (1 : Fin 4) 4 b (pos2 r) (pos2 c) :=
  chain_step (1 : Fin 4) pos2 sum_pos2 x 3 (by norm_num) (4 : Fin 12) rfl
    (fun b r c => val_main_v144 (F := Ideal) x (ix3 b r c)) (fun b r c => val_main_v142 (F := Ideal) x (ix3 b r c))
    (fun b r c => val_main_v145 (F := Ideal) x (ix3 b r c))
    (layer2_4 x) (chain2_3 x)
    (fun b r c => by
      rw [val_main_v145_apply]
      refine Finset.sum_congr rfl fun k _ => ?_
      rw [show lidx_main_v145 (ix3 b r c) k = ix3 b r k from lidx2 b r c k,
        show ridx_main_v145 (ix3 b r c) k = ix3 b k c from ridx2 b r c k]) b r c

/-- The product of the layers 0 .. 5 of part 2. -/
theorem chain2_5 (x : SX.Idx → EReal) (b : Fin 64) (r c : Fin 99) :
    val_main_v148 (F := Ideal) x (ix3 b r c) = chain x (1 : Fin 4) 5 b (pos2 r) (pos2 c) :=
  chain_step (1 : Fin 4) pos2 sum_pos2 x 4 (by norm_num) (5 : Fin 12) rfl
    (fun b r c => val_main_v147 (F := Ideal) x (ix3 b r c)) (fun b r c => val_main_v145 (F := Ideal) x (ix3 b r c))
    (fun b r c => val_main_v148 (F := Ideal) x (ix3 b r c))
    (layer2_5 x) (chain2_4 x)
    (fun b r c => by
      rw [val_main_v148_apply]
      refine Finset.sum_congr rfl fun k _ => ?_
      rw [show lidx_main_v148 (ix3 b r c) k = ix3 b r k from lidx2 b r c k,
        show ridx_main_v148 (ix3 b r c) k = ix3 b k c from ridx2 b r c k]) b r c

/-- The product of the layers 0 .. 6 of part 2. -/
theorem chain2_6 (x : SX.Idx → EReal) (b : Fin 64) (r c : Fin 99) :
    val_main_v151 (F := Ideal) x (ix3 b r c) = chain x (1 : Fin 4) 6 b (pos2 r) (pos2 c) :=
  chain_step (1 : Fin 4) pos2 sum_pos2 x 5 (by norm_num) (6 : Fin 12) rfl
    (fun b r c => val_main_v150 (F := Ideal) x (ix3 b r c)) (fun b r c => val_main_v148 (F := Ideal) x (ix3 b r c))
    (fun b r c => val_main_v151 (F := Ideal) x (ix3 b r c))
    (layer2_6 x) (chain2_5 x)
    (fun b r c => by
      rw [val_main_v151_apply]
      refine Finset.sum_congr rfl fun k _ => ?_
      rw [show lidx_main_v151 (ix3 b r c) k = ix3 b r k from lidx2 b r c k,
        show ridx_main_v151 (ix3 b r c) k = ix3 b k c from ridx2 b r c k]) b r c

/-- The product of the layers 0 .. 7 of part 2. -/
theorem chain2_7 (x : SX.Idx → EReal) (b : Fin 64) (r c : Fin 99) :
    val_main_v154 (F := Ideal) x (ix3 b r c) = chain x (1 : Fin 4) 7 b (pos2 r) (pos2 c) :=
  chain_step (1 : Fin 4) pos2 sum_pos2 x 6 (by norm_num) (7 : Fin 12) rfl
    (fun b r c => val_main_v153 (F := Ideal) x (ix3 b r c)) (fun b r c => val_main_v151 (F := Ideal) x (ix3 b r c))
    (fun b r c => val_main_v154 (F := Ideal) x (ix3 b r c))
    (layer2_7 x) (chain2_6 x)
    (fun b r c => by
      rw [val_main_v154_apply]
      refine Finset.sum_congr rfl fun k _ => ?_
      rw [show lidx_main_v154 (ix3 b r c) k = ix3 b r k from lidx2 b r c k,
        show ridx_main_v154 (ix3 b r c) k = ix3 b k c from ridx2 b r c k]) b r c

/-- The product of the layers 0 .. 8 of part 2. -/
theorem chain2_8 (x : SX.Idx → EReal) (b : Fin 64) (r c : Fin 99) :
    val_main_v157 (F := Ideal) x (ix3 b r c) = chain x (1 : Fin 4) 8 b (pos2 r) (pos2 c) :=
  chain_step (1 : Fin 4) pos2 sum_pos2 x 7 (by norm_num) (8 : Fin 12) rfl
    (fun b r c => val_main_v156 (F := Ideal) x (ix3 b r c)) (fun b r c => val_main_v154 (F := Ideal) x (ix3 b r c))
    (fun b r c => val_main_v157 (F := Ideal) x (ix3 b r c))
    (layer2_8 x) (chain2_7 x)
    (fun b r c => by
      rw [val_main_v157_apply]
      refine Finset.sum_congr rfl fun k _ => ?_
      rw [show lidx_main_v157 (ix3 b r c) k = ix3 b r k from lidx2 b r c k,
        show ridx_main_v157 (ix3 b r c) k = ix3 b k c from ridx2 b r c k]) b r c

/-- The product of the layers 0 .. 9 of part 2. -/
theorem chain2_9 (x : SX.Idx → EReal) (b : Fin 64) (r c : Fin 99) :
    val_main_v160 (F := Ideal) x (ix3 b r c) = chain x (1 : Fin 4) 9 b (pos2 r) (pos2 c) :=
  chain_step (1 : Fin 4) pos2 sum_pos2 x 8 (by norm_num) (9 : Fin 12) rfl
    (fun b r c => val_main_v159 (F := Ideal) x (ix3 b r c)) (fun b r c => val_main_v157 (F := Ideal) x (ix3 b r c))
    (fun b r c => val_main_v160 (F := Ideal) x (ix3 b r c))
    (layer2_9 x) (chain2_8 x)
    (fun b r c => by
      rw [val_main_v160_apply]
      refine Finset.sum_congr rfl fun k _ => ?_
      rw [show lidx_main_v160 (ix3 b r c) k = ix3 b r k from lidx2 b r c k,
        show ridx_main_v160 (ix3 b r c) k = ix3 b k c from ridx2 b r c k]) b r c

/-- The product of the layers 0 .. 10 of part 2. -/
theorem chain2_10 (x : SX.Idx → EReal) (b : Fin 64) (r c : Fin 99) :
    val_main_v163 (F := Ideal) x (ix3 b r c) = chain x (1 : Fin 4) 10 b (pos2 r) (pos2 c) :=
  chain_step (1 : Fin 4) pos2 sum_pos2 x 9 (by norm_num) (10 : Fin 12) rfl
    (fun b r c => val_main_v162 (F := Ideal) x (ix3 b r c)) (fun b r c => val_main_v160 (F := Ideal) x (ix3 b r c))
    (fun b r c => val_main_v163 (F := Ideal) x (ix3 b r c))
    (layer2_10 x) (chain2_9 x)
    (fun b r c => by
      rw [val_main_v163_apply]
      refine Finset.sum_congr rfl fun k _ => ?_
      rw [show lidx_main_v163 (ix3 b r c) k = ix3 b r k from lidx2 b r c k,
        show ridx_main_v163 (ix3 b r c) k = ix3 b k c from ridx2 b r c k]) b r c

/-- The product of the layers 0 .. 11 of part 2. -/
theorem chain2_11 (x : SX.Idx → EReal) (b : Fin 64) (r c : Fin 99) :
    val_main_v166 (F := Ideal) x (ix3 b r c) = chain x (1 : Fin 4) 11 b (pos2 r) (pos2 c) :=
  chain_step (1 : Fin 4) pos2 sum_pos2 x 10 (by norm_num) (11 : Fin 12) rfl
    (fun b r c => val_main_v165 (F := Ideal) x (ix3 b r c)) (fun b r c => val_main_v163 (F := Ideal) x (ix3 b r c))
    (fun b r c => val_main_v166 (F := Ideal) x (ix3 b r c))
    (layer2_11 x) (chain2_10 x)
    (fun b r c => by
      rw [val_main_v166_apply]
      refine Finset.sum_congr rfl fun k _ => ?_
      rw [show lidx_main_v166 (ix3 b r c) k = ix3 b r k from lidx2 b r c k,
        show ridx_main_v166 (ix3 b r c) k = ix3 b k c from ridx2 b r c k]) b r c

/-- The result row of part 2: the specification's row 1. -/
theorem part2_out (x : SX.Idx → EReal) (f : SF.Idx → EReal) (b : Fin 64) (d : Fin 768) :
    val_main_v170 (F := Ideal) x f (ix3 b (0 : Fin 1) d) = chainOut x f b (1 : Fin 4) d := by
  rw [val_main_v170_apply]
  refine (Finset.sum_congr rfl fun k _ => ?_).trans (out_row (1 : Fin 4) off2 sum_off2 x f b d
    (fun k => chain x (1 : Fin 4) 11 b (tok (1 : Fin 4)) (off2 k)) (fun k => max (f (ix3 b (off2 k) d)) 0)
    (fun _ => rfl) (fun _ => rfl))
  have hw : val_main_v167 (F := Ideal) x (lidx_main_v170 (ix3 b (0 : Fin 1) d) k)
      = chain x (1 : Fin 4) 11 b (tok (1 : Fin 4)) (off2 k) := by
    rw [show lidx_main_v170 (ix3 b (0 : Fin 1) d) k = ix3 b (0 : Fin 1) k from funext fun a => by match a with | ⟨0, _⟩ => rfl | ⟨1, _⟩ => rfl | ⟨2, _⟩ => rfl,
      val_main_v167_apply,
      show idx_main_v167 (ix3 b (0 : Fin 1) k) = ix3 b (0 : Fin 99) (⟨k.val + 1, by have := k.isLt; omega⟩ : Fin 99) from
        funext fun a => Fin.ext (by
          match a with
          | ⟨0, _⟩ => rfl
          | ⟨1, _⟩ => rfl
          | ⟨2, _⟩ => show 1 + k.val = k.val + 1; omega),
      chain2_11 x b _ _, pos2_zero, pos2_succ k]
  have hr : val_main_v169 (F := Ideal) f (ridx_main_v170 (ix3 b (0 : Fin 1) d) k) = max (f (ix3 b (off2 k) d)) 0 := by
    rw [show ridx_main_v170 (ix3 b (0 : Fin 1) d) k = ix3 b k d from funext fun a => by match a with | ⟨0, _⟩ => rfl | ⟨1, _⟩ => rfl | ⟨2, _⟩ => rfl,
      val_main_v169_apply, val_main_v168_apply, val_main_call2_v0_apply, val_main_call2_cst_apply,
      show idx_main_v168 (ix3 b k d) = ix3 b (off2 k) d from funext fun a => Fin.ext (by match a with | ⟨0, _⟩ => rfl | ⟨1, _⟩ => rfl | ⟨2, _⟩ => rfl)]
    show max (f (ix3 b (off2 k) d)) (Ideal.ofBits .f32 0x00000000#32) = max (f (ix3 b (off2 k) d)) 0
    rw [Ideal.ofBits_zero_f32]
  rw [hw, hr]

end Cert.ReferenceIdeal.RefValue

end
-- ==== Proof.RefP3.lean ====
/- Text written by:  cd <unit directory> && bun scratch/gen_ref_parts.js proof/Proof   (one template, filled in for this part's
   extents and buffer names and repeated for its twelve layers and eleven products; the argument is in the modules it imports)

  Part 3 of the reference (result row 2).

  Its index vector holds the class token 3 at position 0 and the token 54 + k at position k + 1 (99 positions). No entry is
  negative, so the "count from the end" selects keep it, and every entry is below 201, so the gathers' clamps keep it: the
  twice-gathered stack of matrices at (layer, batch, r, c) is the argument at the tokens of the positions r and c.
  Layer i of that stack, sliced out and re-laid as a batch of 99 × 99 matrices, is the argument's layer i at the positions'
  tokens. The eleven products, each the next layer times the product so far, are the specification's chain at the positions'
  tokens. The last product's row 0 at the columns 1 .. 98, into the rectified features of the range, is the specification's
  result row.
-/
import proofs.«109065_j67542655697208_2_alg».proof.Proof.Spec
import proofs.«109065_j67542655697208_2_alg».proof.Proof.RefRead
import proofs.«109065_j67542655697208_2_alg».proof.Proof.RefSums
import proofs.«109065_j67542655697208_2_alg».proof.Proof.RefWords
import proofs.«109065_j67542655697208_2_alg».proof.Proof.RefGather
import proofs.«109065_j67542655697208_2_alg».proof.Proof.RefStep
import Idealize.ShloMosaic.PureOps.Ideal.Laws

noncomputable section

open scoped BigOperators

namespace Cert.ReferenceIdeal.RefValue

open Cert.ReferenceIdeal Cert.ReferenceIdeal.Gen Cert.ReferenceIdeal.ReadP Cert.Rollout Cert.RefGather
open Idealize.ShloMosaic Idealize.ShloMosaic.ValueIdx

/-- The token at a position of part 3. -/
def pos3 : Fin 99 → Fin 201 := emb 3 54 99 (by norm_num) (by norm_num)

/-- Summing over the positions of part 3 is summing over row 2's index set. -/
theorem sum_pos3 (g : Fin 201 → EReal) : ∑ k : Fin 99, g (pos3 k) = ∑ q ∈ partSet (2 : Fin 4), g q :=
  sum_emb 3 54 99 (by norm_num) (by norm_num) (by norm_num) (by norm_num) (partSet (2 : Fin 4))
    (fun q => by
      rw [mem_partSet]
      show (q.val = 2 + 1 ∨ 54 ≤ q.val ∧ q.val < 152) ↔ (q.val = 3 ∨ 54 ≤ q.val ∧ q.val < 54 + (99 - 1))
      omega) g

/-- The token at an offset of part 3's range. -/
def off3 : Fin 98 → Fin 201 := shift 54 98 (by norm_num)

/-- Summing over the offsets of part 3's range is summing over row 2's range. -/
theorem sum_off3 (g : Fin 201 → EReal) : ∑ k : Fin 98, g (off3 k) = ∑ q ∈ rangeSet (2 : Fin 4), g q :=
  sum_shift 54 98 (by norm_num) (rangeSet (2 : Fin 4))
    (fun q => by
      rw [mem_rangeSet]
      show (54 ≤ q.val ∧ q.val < 152) ↔ (54 ≤ q.val ∧ q.val < 54 + 98)
      omega) g

/-- Position 0 is the class token. -/
theorem pos3_zero : pos3 (0 : Fin 99) = tok (2 : Fin 4) := rfl

/-- Position k + 1 is the range's token at offset k. -/
theorem pos3_succ (k : Fin 98) : pos3 ⟨k.val + 1, by have := k.isLt; omega⟩ = off3 k := by
  refine Fin.ext ?_
  unfold pos3 off3
  rw [emb_val]
  show (if k.val + 1 = 0 then 3 else 54 + (k.val + 1 - 1)) = 54 + k.val
  rw [if_neg (by omega)]
  omega

/-- The index vector of part 3: the token of each position, as a word. -/
theorem idxvec3 (k : Fin 99) : val_main_v174 (F := Ideal) (ix1 k) = BitVec.ofNat 32 (pos3 k).val := by
  unfold val_main_v174 pos3
  rw [emb_val]
  by_cases hk : k.val = 0
  · rw [if_pos hk]
    exact concatenate_pair_apply_left (0 : Fin S99.rank) (val_main_c_2 (F := Ideal)) (val_main_v173 (F := Ideal)) concatenates_S1_S98_S99_d0 (ix1 k) rfl
      (ix1 (0 : Fin 1)) (fun b => match b with | ⟨0, _⟩ => hk.symm)
  · rw [if_neg hk]
    refine (concatenate_pair_apply_right (0 : Fin S99.rank) (val_main_c_2 (F := Ideal)) (val_main_v173 (F := Ideal)) concatenates_S1_S98_S99_d0 (ix1 k) rfl rfl
      (ix1 (⟨k.val - 1, by have := k.isLt; omega⟩ : Fin 98)) (fun b hb => match b, hb with | ⟨0, _⟩, hb => absurd rfl hb)
      (by show k.val - 1 + 1 = k.val; omega)).trans ?_
    rw [val_main_v173_apply, val_main_v172_apply, val_main_c_19_apply, val_main_v171_apply]
    exact addi_ofNat 54 (k.val - 1)

/-- The row gather's start indices: the index vector. -/
theorem rowidx3 (k : Fin 99) : val_main_v180 (F := Ideal) (ix2 k (0 : Fin 1)) = BitVec.ofNat 32 (pos3 k).val := by
  rw [val_main_v180_apply, show idx_main_v180 (ix2 k (0 : Fin 1)) = ix1 k from funext fun a => by match a with | ⟨0, _⟩ => rfl,
    val_main_v179_apply, val_main_v176_apply, val_main_v175_apply, val_main_c_20_apply, idxvec3]
  exact select_neg_ofNat _ (by have := (pos3 k).isLt; omega) _

/-- The column gather's start indices: the index vector again. -/
theorem colidx3 (k : Fin 99) : val_main_v187 (F := Ideal) (ix2 k (0 : Fin 1)) = BitVec.ofNat 32 (pos3 k).val := by
  rw [val_main_v187_apply, show idx_main_v187 (ix2 k (0 : Fin 1)) = ix1 k from funext fun a => by match a with | ⟨0, _⟩ => rfl,
    val_main_v186_apply, val_main_v183_apply, val_main_v182_apply, val_main_c_22_apply, idxvec3]
  exact select_neg_ofNat _ (by have := (pos3 k).isLt; omega) _

/-- The gathered stack of matrices of part 3 at (layer, batch, r, c): the argument at the positions' tokens. -/
theorem gathered3 (x : SX.Idx → EReal) (l : Fin 12) (b : Fin 64) (r c : Fin 99) :
    val_main_v188 (F := Ideal) x (ix4 l b r c) = x (ix4 l b (pos3 r) (pos3 c)) := by
  have hc : min (val_main_v187 (F := Ideal) (ix2 c (0 : Fin 1))).toInt.toNat (201 - 1) = (pos3 c).val := by
    rw [colidx3 c]; exact clamp_ofNat _ 201 (pos3 c).isLt (by norm_num)
  have hr : min (val_main_v180 (F := Ideal) (ix2 r (0 : Fin 1))).toInt.toNat (201 - 1) = (pos3 r).val := by
    rw [rowidx3 r]; exact clamp_ofNat _ 201 (pos3 r).isLt (by norm_num)
  unfold val_main_v188
  refine (gather_cols_at gather_S12x64x99x201_S99x1_S12x64x99x99_012_3_n_n_3_1_1264991_wf (by norm_num) (val_main_v181 (F := Ideal) x) (val_main_v187 (F := Ideal)) l b r c (pos3 c) hc).trans ?_
  unfold val_main_v181
  exact gather_rows_at gather_S12x64x201x201_S99x1_S12x64x99x201_013_2_n_n_2_1_12641201_wf (by norm_num) x (val_main_v180 (F := Ideal)) l b r (pos3 c) (pos3 r) hr

/-- The re-laying of a one-layer slice as a batch of matrices reads (0, b, r, c) at (b, r, c). -/
theorem resh3 (b : Fin 64) (r c : Fin 99) : idx_main_v190 (ix3 b r c) = ix4 (0 : Fin 1) b r c :=
  funext fun a => Fin.ext (by
    have hb := b.isLt; have hr := r.isLt; have hc := c.isLt
    match a with
    | ⟨0, _⟩ => rfl
    | ⟨1, _⟩ => show ((b.val * 99 + r.val) * 99 + c.val) / 9801 % 64 = b.val; omega
    | ⟨2, _⟩ => show ((b.val * 99 + r.val) * 99 + c.val) / 99 % 99 = r.val; omega
    | ⟨3, _⟩ => show ((b.val * 99 + r.val) * 99 + c.val) % 99 = c.val; omega)

/-- A matrix product's left operand is read at (b, r, k), -/
theorem lidx3 (b : Fin 64) (r c k : Fin 99) : lidx_main_v193 (ix3 b r c) k = ix3 b r k :=
  funext fun a => by match a with | ⟨0, _⟩ => rfl | ⟨1, _⟩ => rfl | ⟨2, _⟩ => rfl
/-- and its right operand at (b, k, c). -/
theorem ridx3 (b : Fin 64) (r c k : Fin 99) : ridx_main_v193 (ix3 b r c) k = ix3 b k c :=
  funext fun a => by match a with | ⟨0, _⟩ => rfl | ⟨1, _⟩ => rfl | ⟨2, _⟩ => rfl

/-- Layer 0 of part 3. -/
theorem layer3_0 (x : SX.Idx → EReal) (b : Fin 64) (r c : Fin 99) :
    val_main_v190 (F := Ideal) x (ix3 b r c) = x (ix4 (0 : Fin 12) b (pos3 r) (pos3 c)) := by
  rw [val_main_v190_apply, show idx_main_v190 (ix3 b r c) = ix4 (0 : Fin 1) b r c from resh3 b r c, val_main_v189_apply,
    show idx_main_v189 (ix4 (0 : Fin 1) b r c) = ix4 (0 : Fin 12) b r c from
      funext fun a => Fin.ext (by match a with | ⟨0, _⟩ => rfl | ⟨1, _⟩ => rfl | ⟨2, _⟩ => rfl | ⟨3, _⟩ => rfl)]
  exact gathered3 x _ b r c

/-- Layer 1 of part 3. -/
theorem layer3_1 (x : SX.Idx → EReal) (b : Fin 64) (r c : Fin 99) :
    val_main_v192 (F := Ideal) x (ix3 b r c) = x (ix4 (1 : Fin 12) b (pos3 r) (pos3 c)) := by
  rw [val_main_v192_apply, show idx_main_v192 (ix3 b r c) = ix4 (0 : Fin 1) b r c from resh3 b r c, val_main_v191_apply,
    show idx_main_v191 (ix4 (0 : Fin 1) b r c) = ix4 (1 : Fin 12) b r c from
      funext fun a => Fin.ext (by match a with | ⟨0, _⟩ => rfl | ⟨1, _⟩ => rfl | ⟨2, _⟩ => rfl | ⟨3, _⟩ => rfl)]
  exact gathered3 x _ b r c

/-- Layer 2 of part 3. -/
theorem layer3_2 (x : SX.Idx → EReal) (b : Fin 64) (r c : Fin 99) :
    val_main_v195 (F := Ideal) x (ix3 b r c) = x (ix4 (2 : Fin 12) b (pos3 r) (pos3 c)) := by
  rw [val_main_v195_apply, show idx_main_v195 (ix3 b r c) = ix4 (0 : Fin 1) b r c from resh3 b r c, val_main_v194_apply,
    show idx_main_v194 (ix4 (0 : Fin 1) b r c) = ix4 (2 : Fin 12) b r c from
      funext fun a => Fin.ext (by match a with | ⟨0, _⟩ => rfl | ⟨1, _⟩ => rfl | ⟨2, _⟩ => rfl | ⟨3, _⟩ => rfl)]
  exact gathered3 x _ b r c

/-- Layer 3 of part 3. -/
theorem layer3_3 (x : SX.Idx → EReal) (b : Fin 64) (r c : Fin 99) :
    val_main_v198 (F := Ideal) x (ix3 b r c) = x (ix4 (3 : Fin 12) b (pos3 r) (pos3 c)) := by
  rw [val_main_v198_apply, show idx_main_v198 (ix3 b r c) = ix4 (0 : Fin 1) b r c from resh3 b r c, val_main_v197_apply,
    show idx_main_v197 (ix4 (0 : Fin 1) b r c) = ix4 (3 : Fin 12) b r c from
      funext fun a => Fin.ext (by match a with | ⟨0, _⟩ => rfl | ⟨1, _⟩ => rfl | ⟨2, _⟩ => rfl | ⟨3, _⟩ => rfl)]
  exact gathered3 x _ b r c

/-- Layer 4 of part 3. -/
theorem layer3_4 (x : SX.Idx → EReal) (b : Fin 64) (r c : Fin 99) :
    val_main_v201 (F := Ideal) x (ix3 b r c) = x (ix4 (4 : Fin 12) b (pos3 r) (pos3 c)) := by
  rw [val_main_v201_apply, show idx_main_v201 (ix3 b r c) = ix4 (0 : Fin 1) b r c from resh3 b r c, val_main_v200_apply,
    show idx_main_v200 (ix4 (0 : Fin 1) b r c) = ix4 (4 : Fin 12) b r c from
      funext fun a => Fin.ext (by match a with | ⟨0, _⟩ => rfl | ⟨1, _⟩ => rfl | ⟨2, _⟩ => rfl | ⟨3, _⟩ => rfl)]
  exact gathered3 x _ b r c

/-- Layer 5 of part 3. -/
theorem layer3_5 (x : SX.Idx → EReal) (b : Fin 64) (r c : Fin 99) :
    val_main_v204 (F := Ideal) x (ix3 b r c) = x (ix4 (5 : Fin 12) b (pos3 r) (pos3 c)) := by
  rw [val_main_v204_apply, show idx_main_v204 (ix3 b r c) = ix4 (0 : Fin 1) b r c from resh3 b r c, val_main_v203_apply,
    show idx_main_v203 (ix4 (0 : Fin 1) b r c) = ix4 (5 : Fin 12) b r c from
      funext fun a => Fin.ext (by match a with | ⟨0, _⟩ => rfl | ⟨1, _⟩ => rfl | ⟨2, _⟩ => rfl | ⟨3, _⟩ => rfl)]
  exact gathered3 x _ b r c

/-- Layer 6 of part 3. -/
theorem layer3_6 (x : SX.Idx → EReal) (b : Fin 64) (r c : Fin 99) :
    val_main_v207 (F := Ideal) x (ix3 b r c) = x (ix4 (6 : Fin 12) b (pos3 r) (pos3 c)) := by
  rw [val_main_v207_apply, show idx_main_v207 (ix3 b r c) = ix4 (0 : Fin 1) b r c from resh3 b r c, val_main_v206_apply,
    show idx_main_v206 (ix4 (0 : Fin 1) b r c) = ix4 (6 : Fin 12) b r c from
      funext fun a => Fin.ext (by match a with | ⟨0, _⟩ => rfl | ⟨1, _⟩ => rfl | ⟨2, _⟩ => rfl | ⟨3, _⟩ => rfl)]
  exact gathered3 x _ b r c

/-- Layer 7 of part 3. -/
theorem layer3_7 (x : SX.Idx → EReal) (b : Fin 64) (r c : Fin 99) :
    val_main_v210 (F := Ideal) x (ix3 b r c) = x (ix4 (7 : Fin 12) b (pos3 r) (pos3 c)) := by
  rw [val_main_v210_apply, show idx_main_v210 (ix3 b r c) = ix4 (0 : Fin 1) b r c from resh3 b r c, val_main_v209_apply,
    show idx_main_v209 (ix4 (0 : Fin 1) b r c) = ix4 (7 : Fin 12) b r c from
      funext fun a => Fin.ext (by match a with | ⟨0, _⟩ => rfl | ⟨1, _⟩ => rfl | ⟨2, _⟩ => rfl | ⟨3, _⟩ => rfl)]
  exact gathered3 x _ b r c

/-- Layer 8 of part 3. -/
theorem layer3_8 (x : SX.Idx → EReal) (b : Fin 64) (r c : Fin 99) :
    val_main_v213 (F := Ideal) x (ix3 b r c) = x (ix4 (8 : Fin 12) b (pos3 r) (pos3 c)) := by
  rw [val_main_v213_apply, show idx_main_v213 (ix3 b r c) = ix4 (0 : Fin 1) b r c from resh3 b r c, val_main_v212_apply,
    show idx_main_v212 (ix4 (0 : Fin 1) b r c) = ix4 (8 : Fin 12) b r c from
      funext fun a => Fin.ext (by match a with | ⟨0, _⟩ => rfl | ⟨1, _⟩ => rfl | ⟨2, _⟩ => rfl | ⟨3, _⟩ => rfl)]
  exact gathered3 x _ b r c

/-- Layer 9 of part 3. -/
theorem layer3_9 (x : SX.Idx → EReal) (b : Fin 64) (r c : Fin 99) :
    val_main_v216 (F := Ideal) x (ix3 b r c) = x (ix4 (9 : Fin 12) b (pos3 r) (pos3 c)) := by
  rw [val_main_v216_apply, show idx_main_v216 (ix3 b r c) = ix4 (0 : Fin 1) b r c from resh3 b r c, val_main_v215_apply,
    show idx_main_v215 (ix4 (0 : Fin 1) b r c) = ix4 (9 : Fin 12) b r c from
      funext fun a => Fin.ext (by match a with | ⟨0, _⟩ => rfl | ⟨1, _⟩ => rfl | ⟨2, _⟩ => rfl | ⟨3, _⟩ => rfl)]
  exact gathered3 x _ b r c

/-- Layer 10 of part 3. -/
theorem layer3_10 (x : SX.Idx → EReal) (b : Fin 64) (r c : Fin 99) :
    val_main_v219 (F := Ideal) x (ix3 b r c) = x (ix4 (10 : Fin 12) b (pos3 r) (pos3 c)) := by
  rw [val_main_v219_apply, show idx_main_v219 (ix3 b r c) = ix4 (0 : Fin 1) b r c from resh3 b r c, val_main_v218_apply,
    show idx_main_v218 (ix4 (0 : Fin 1) b r c) = ix4 (10 : Fin 12) b r c from
      funext fun a => Fin.ext (by match a with | ⟨0, _⟩ => rfl | ⟨1, _⟩ => rfl | ⟨2, _⟩ => rfl | ⟨3, _⟩ => rfl)]
  exact gathered3 x _ b r c

/-- Layer 11 of part 3. -/
theorem layer3_11 (x : SX.Idx → EReal) (b : Fin 64) (r c : Fin 99) :
    val_main_v222 (F := Ideal) x (ix3 b r c) = x (ix4 (11 : Fin 12) b (pos3 r) (pos3 c)) := by
  rw [val_main_v222_apply, show idx_main_v222 (ix3 b r c) = ix4 (0 : Fin 1) b r c from resh3 b r c, val_main_v221_apply,
    show idx_main_v221 (ix4 (0 : Fin 1) b r c) = ix4 (11 : Fin 12) b r c from
      funext fun a => Fin.ext (by match a with | ⟨0, _⟩ => rfl | ⟨1, _⟩ => rfl | ⟨2, _⟩ => rfl | ⟨3, _⟩ => rfl)]
  exact gathered3 x _ b r c

/-- The chain's start: layer 0. -/
theorem chain3_0 (x : SX.Idx → EReal) (b : Fin 64) (r c : Fin 99) :
    val_main_v190 (F := Ideal) x (ix3 b r c) = chain x (2 : Fin 4) 0 b (pos3 r) (pos3 c) :=
  layer3_0 x b r c

/-- The product of the layers 0 .. 1 of part 3. -/
theorem chain3_1 (x : SX.Idx → EReal) (b : Fin 64) (r c : Fin 99) :
    val_main_v193 (F := Ideal) x (ix3 b r c) = chain x (2 : Fin 4) 1 b (pos3 r) (pos3 c) :=
  chain_step (2 : Fin 4) pos3 sum_pos3 x 0 (by norm_num) (1 : Fin 12) rfl
    (fun b r c => val_main_v192 (F := Ideal) x (ix3 b r c)) (fun b r c => val_main_v190 (F := Ideal) x (ix3 b r c))
    (fun b r c => val_main_v193 (F := Ideal) x (ix3 b r c))
    (layer3_1 x) (chain3_0 x)
    (fun b r c => by
      rw [val_main_v193_apply]
      refine Finset.sum_congr rfl fun k _ => ?_
      rw [show lidx_main_v193 (ix3 b r c) k = ix3 b r k from lidx3 b r c k,
        show ridx_main_v193 (ix3 b r c) k = ix3 b k c from ridx3 b r c k]) b r c

/-- The product of the layers 0 .. 2 of part 3. -/
theorem chain3_2 (x : SX.Idx → EReal) (b : Fin 64) (r c : Fin 99) :
    val_main_v196 (F := Ideal) x (ix3 b r c) = chain x (2 : Fin 4) 2 b (pos3 r) (pos3 c) :=
  chain_step (2 : Fin 4) pos3 sum_pos3 x 1 (by norm_num) (2 : Fin 12) rfl
    (fun b r c => val_main_v195 (F := Ideal) x (ix3 b r c)) (fun b r c => val_main_v193 (F := Ideal) x (ix3 b r c))
    (fun b r c => val_main_v196 (F := Ideal) x (ix3 b r c))
    (layer3_2 x) (chain3_1 x)
    (fun b r c => by
      rw [val_main_v196_apply]
      refine Finset.sum_congr rfl fun k _ => ?_
      rw [show lidx_main_v196 (ix3 b r c) k = ix3 b r k from lidx3 b r c k,
        show ridx_main_v196 (ix3 b r c) k = ix3 b k c from ridx3 b r c k]) b r c

/-- The product of the layers 0 .. 3 of part 3. -/
theorem chain3_3 (x : SX.Idx → EReal) (b : Fin 64) (r c : Fin 99) :
    val_main_v199 (F := Ideal) x (ix3 b r c) = chain x (2 : Fin 4) 3 b (pos3 r) (pos3 c) :=
  chain_step (2 : Fin 4) pos3 sum_pos3 x 2 (by norm_num) (3 : Fin 12) rfl
    (fun b r c => val_main_v198 (F := Ideal) x (ix3 b r c)) (fun b r c => val_main_v196 (F := Ideal) x (ix3 b r c))
    (fun b r c => val_main_v199 (F := Ideal) x (ix3 b r c))
    (layer3_3 x) (chain3_2 x)
    (fun b r c => by
      rw [val_main_v199_apply]
      refine Finset.sum_congr rfl fun k _ => ?_
      rw [show lidx_main_v199 (ix3 b r c) k = ix3 b r k from lidx3 b r c k,
        show ridx_main_v199 (ix3 b r c) k = ix3 b k c from ridx3 b r c k]) b r c

/-- The product of the layers 0 .. 4 of part 3. -/
theorem chain3_4 (x : SX.Idx → EReal) (b : Fin 64) (r c : Fin 99) :
    val_main_v202 (F := Ideal) x (ix3 b r c) = chain x (2 : Fin 4) 4 b (pos3 r) (pos3 c) :=
  chain_step (2 : Fin 4) pos3 sum_pos3 x 3 (by norm_num) (4 : Fin 12) rfl
    (fun b r c => val_main_v201 (F := Ideal) x (ix3 b r c)) (fun b r c => val_main_v199 (F := Ideal) x (ix3 b r c))
    (fun b r c => val_main_v202 (F := Ideal) x (ix3 b r c))
    (layer3_4 x) (chain3_3 x)
    (fun b r c => by
      rw [val_main_v202_apply]
      refine Finset.sum_congr rfl fun k _ => ?_
      rw [show lidx_main_v202 (ix3 b r c) k = ix3 b r k from lidx3 b r c k,
        show ridx_main_v202 (ix3 b r c) k = ix3 b k c from ridx3 b r c k]) b r c

/-- The product of the layers 0 .. 5 of part 3. -/
theorem chain3_5 (x : SX.Idx → EReal) (b : Fin 64) (r c : Fin 99) :
    val_main_v205 (F := Ideal) x (ix3 b r c) = chain x (2 : Fin 4) 5 b (pos3 r) (pos3 c) :=
  chain_step (2 : Fin 4) pos3 sum_pos3 x 4 (by norm_num) (5 : Fin 12) rfl
    (fun b r c => val_main_v204 (F := Ideal) x (ix3 b r c)) (fun b r c => val_main_v202 (F := Ideal) x (ix3 b r c))
    (fun b r c => val_main_v205 (F := Ideal) x (ix3 b r c))
    (layer3_5 x) (chain3_4 x)
    (fun b r c => by
      rw [val_main_v205_apply]
      refine Finset.sum_congr rfl fun k _ => ?_
      rw [show lidx_main_v205 (ix3 b r c) k = ix3 b r k from lidx3 b r c k,
        show ridx_main_v205 (ix3 b r c) k = ix3 b k c from ridx3 b r c k]) b r c

/-- The product of the layers 0 .. 6 of part 3. -/
theorem chain3_6 (x : SX.Idx → EReal) (b : Fin 64) (r c : Fin 99) :
    val_main_v208 (F := Ideal) x (ix3 b r c) = chain x (2 : Fin 4) 6 b (pos3 r) (pos3 c) :=
  chain_step (2 : Fin 4) pos3 sum_pos3 x 5 (by norm_num) (6 : Fin 12) rfl
    (fun b r c => val_main_v207 (F := Ideal) x (ix3 b r c)) (fun b r c => val_main_v205 (F := Ideal) x (ix3 b r c))
    (fun b r c => val_main_v208 (F := Ideal) x (ix3 b r c))
    (layer3_6 x) (chain3_5 x)
    (fun b r c => by
      rw [val_main_v208_apply]
      refine Finset.sum_congr rfl fun k _ => ?_
      rw [show lidx_main_v208 (ix3 b r c) k = ix3 b r k from lidx3 b r c k,
        show ridx_main_v208 (ix3 b r c) k = ix3 b k c from ridx3 b r c k]) b r c

/-- The product of the layers 0 .. 7 of part 3. -/
theorem chain3_7 (x : SX.Idx → EReal) (b : Fin 64) (r c : Fin 99) :
    val_main_v211 (F := Ideal) x (ix3 b r c) = chain x (2 : Fin 4) 7 b (pos3 r) (pos3 c) :=
  chain_step (2 : Fin 4) pos3 sum_pos3 x 6 (by norm_num) (7 : Fin 12) rfl
    (fun b r c => val_main_v210 (F := Ideal) x (ix3 b r c)) (fun b r c => val_main_v208 (F := Ideal) x (ix3 b r c))
    (fun b r c => val_main_v211 (F := Ideal) x (ix3 b r c))
    (layer3_7 x) (chain3_6 x)
    (fun b r c => by
      rw [val_main_v211_apply]
      refine Finset.sum_congr rfl fun k _ => ?_
      rw [show lidx_main_v211 (ix3 b r c) k = ix3 b r k from lidx3 b r c k,
        show ridx_main_v211 (ix3 b r c) k = ix3 b k c from ridx3 b r c k]) b r c

/-- The product of the layers 0 .. 8 of part 3. -/
theorem chain3_8 (x : SX.Idx → EReal) (b : Fin 64) (r c : Fin 99) :
    val_main_v214 (F := Ideal) x (ix3 b r c) = chain x (2 : Fin 4) 8 b (pos3 r) (pos3 c) :=
  chain_step (2 : Fin 4) pos3 sum_pos3 x 7 (by norm_num) (8 : Fin 12) rfl
    (fun b r c => val_main_v213 (F := Ideal) x (ix3 b r c)) (fun b r c => val_main_v211 (F := Ideal) x (ix3 b r c))
    (fun b r c => val_main_v214 (F := Ideal) x (ix3 b r c))
    (layer3_8 x) (chain3_7 x)
    (fun b r c => by
      rw [val_main_v214_apply]
      refine Finset.sum_congr rfl fun k _ => ?_
      rw [show lidx_main_v214 (ix3 b r c) k = ix3 b r k from lidx3 b r c k,
        show ridx_main_v214 (ix3 b r c) k = ix3 b k c from ridx3 b r c k]) b r c

/-- The product of the layers 0 .. 9 of part 3. -/
theorem chain3_9 (x : SX.Idx → EReal) (b : Fin 64) (r c : Fin 99) :
    val_main_v217 (F := Ideal) x (ix3 b r c) = chain x (2 : Fin 4) 9 b (pos3 r) (pos3 c) :=
  chain_step (2 : Fin 4) pos3 sum_pos3 x 8 (by norm_num) (9 : Fin 12) rfl
    (fun b r c => val_main_v216 (F := Ideal) x (ix3 b r c)) (fun b r c => val_main_v214 (F := Ideal) x (ix3 b r c))
    (fun b r c => val_main_v217 (F := Ideal) x (ix3 b r c))
    (layer3_9 x) (chain3_8 x)
    (fun b r c => by
      rw [val_main_v217_apply]
      refine Finset.sum_congr rfl fun k _ => ?_
      rw [show lidx_main_v217 (ix3 b r c) k = ix3 b r k from lidx3 b r c k,
        show ridx_main_v217 (ix3 b r c) k = ix3 b k c from ridx3 b r c k]) b r c

/-- The product of the layers 0 .. 10 of part 3. -/
theorem chain3_10 (x : SX.Idx → EReal) (b : Fin 64) (r c : Fin 99) :
    val_main_v220 (F := Ideal) x (ix3 b r c) = chain x (2 : Fin 4) 10 b (pos3 r) (pos3 c) :=
  chain_step (2 : Fin 4) pos3 sum_pos3 x 9 (by norm_num) (10 : Fin 12) rfl
    (fun b r c => val_main_v219 (F := Ideal) x (ix3 b r c)) (fun b r c => val_main_v217 (F := Ideal) x (ix3 b r c))
    (fun b r c => val_main_v220 (F := Ideal) x (ix3 b r c))
    (layer3_10 x) (chain3_9 x)
    (fun b r c => by
      rw [val_main_v220_apply]
      refine Finset.sum_congr rfl fun k _ => ?_
      rw [show lidx_main_v220 (ix3 b r c) k = ix3 b r k from lidx3 b r c k,
        show ridx_main_v220 (ix3 b r c) k = ix3 b k c from ridx3 b r c k]) b r c

/-- The product of the layers 0 .. 11 of part 3. -/
theorem chain3_11 (x : SX.Idx → EReal) (b : Fin 64) (r c : Fin 99) :
    val_main_v223 (F := Ideal) x (ix3 b r c) = chain x (2 : Fin 4) 11 b (pos3 r) (pos3 c) :=
  chain_step (2 : Fin 4) pos3 sum_pos3 x 10 (by norm_num) (11 : Fin 12) rfl
    (fun b r c => val_main_v222 (F := Ideal) x (ix3 b r c)) (fun b r c => val_main_v220 (F := Ideal) x (ix3 b r c))
    (fun b r c => val_main_v223 (F := Ideal) x (ix3 b r c))
    (layer3_11 x) (chain3_10 x)
    (fun b r c => by
      rw [val_main_v223_apply]
      refine Finset.sum_congr rfl fun k _ => ?_
      rw [show lidx_main_v223 (ix3 b r c) k = ix3 b r k from lidx3 b r c k,
        show ridx_main_v223 (ix3 b r c) k = ix3 b k c from ridx3 b r c k]) b r c

/-- The result row of part 3: the specification's row 2. -/
theorem part3_out (x : SX.Idx → EReal) (f : SF.Idx → EReal) (b : Fin 64) (d : Fin 768) :
    val_main_v227 (F := Ideal) x f (ix3 b (0 : Fin 1) d) = chainOut x f b (2 : Fin 4) d := by
  rw [val_main_v227_apply]
  refine (Finset.sum_congr rfl fun k _ => ?_).trans (out_row (2 : Fin 4) off3 sum_off3 x f b d
    (fun k => chain x (2 : Fin 4) 11 b (tok (2 : Fin 4)) (off3 k)) (fun k => max (f (ix3 b (off3 k) d)) 0)
    (fun _ => rfl) (fun _ => rfl))
  have hw : val_main_v224 (F := Ideal) x (lidx_main_v227 (ix3 b (0 : Fin 1) d) k)
      = chain x (2 : Fin 4) 11 b (tok (2 : Fin 4)) (off3 k) := by
    rw [show lidx_main_v227 (ix3 b (0 : Fin 1) d) k = ix3 b (0 : Fin 1) k from funext fun a => by match a with | ⟨0, _⟩ => rfl | ⟨1, _⟩ => rfl | ⟨2, _⟩ => rfl,
      val_main_v224_apply,
      show idx_main_v224 (ix3 b (0 : Fin 1) k) = ix3 b (0 : Fin 99) (⟨k.val + 1, by have := k.isLt; omega⟩ : Fin 99) from
        funext fun a => Fin.ext (by
          match a with
          | ⟨0, _⟩ => rfl
          | ⟨1, _⟩ => rfl
          | ⟨2, _⟩ => show 1 + k.val = k.val + 1; omega),
      chain3_11 x b _ _, pos3_zero, pos3_succ k]
  have hr : val_main_v226 (F := Ideal) f (ridx_main_v227 (ix3 b (0 : Fin 1) d) k) = max (f (ix3 b (off3 k) d)) 0 := by
    rw [show ridx_main_v227 (ix3 b (0 : Fin 1) d) k = ix3 b k d from funext fun a => by match a with | ⟨0, _⟩ => rfl | ⟨1, _⟩ => rfl | ⟨2, _⟩ => rfl,
      val_main_v226_apply, val_main_v225_apply, val_main_call3_v0_apply, val_main_call3_cst_apply,
      show idx_main_v225 (ix3 b k d) = ix3 b (off3 k) d from funext fun a => Fin.ext (by match a with | ⟨0, _⟩ => rfl | ⟨1, _⟩ => rfl | ⟨2, _⟩ => rfl)]
    show max (f (ix3 b (off3 k) d)) (Ideal.ofBits .f32 0x00000000#32) = max (f (ix3 b (off3 k) d)) 0
    rw [Ideal.ofBits_zero_f32]
  rw [hw, hr]

end Cert.ReferenceIdeal.RefValue

end
-- ==== Proof.RefP4.lean ====
/- Text written by:  cd <unit directory> && bun scratch/gen_ref_parts.js proof/Proof   (one template, filled in for this part's
   extents and buffer names and repeated for its twelve layers and eleven products; the argument is in the modules it imports)

  Part 4 of the reference (result row 3).

  Its index vector holds the class token 4 at position 0 and the token 103 + k at position k + 1 (99 positions). No entry is
  negative, so the "count from the end" selects keep it, and every entry is below 201, so the gathers' clamps keep it: the
  twice-gathered stack of matrices at (layer, batch, r, c) is the argument at the tokens of the positions r and c.
  Layer i of that stack, sliced out and re-laid as a batch of 99 × 99 matrices, is the argument's layer i at the positions'
  tokens. The eleven products, each the next layer times the product so far, are the specification's chain at the positions'
  tokens. The last product's row 0 at the columns 1 .. 98, into the rectified features of the range, is the specification's
  result row.
-/
import proofs.«109065_j67542655697208_2_alg».proof.Proof.Spec
import proofs.«109065_j67542655697208_2_alg».proof.Proof.RefRead
import proofs.«109065_j67542655697208_2_alg».proof.Proof.RefSums
import proofs.«109065_j67542655697208_2_alg».proof.Proof.RefWords
import proofs.«109065_j67542655697208_2_alg».proof.Proof.RefGather
import proofs.«109065_j67542655697208_2_alg».proof.Proof.RefStep
import Idealize.ShloMosaic.PureOps.Ideal.Laws

noncomputable section

open scoped BigOperators

namespace Cert.ReferenceIdeal.RefValue

open Cert.ReferenceIdeal Cert.ReferenceIdeal.Gen Cert.ReferenceIdeal.ReadP Cert.Rollout Cert.RefGather
open Idealize.ShloMosaic Idealize.ShloMosaic.ValueIdx

/-- The token at a position of part 4. -/
def pos4 : Fin 99 → Fin 201 := emb 4 103 99 (by norm_num) (by norm_num)

/-- Summing over the positions of part 4 is summing over row 3's index set. -/
theorem sum_pos4 (g : Fin 201 → EReal) : ∑ k : Fin 99, g (pos4 k) = ∑ q ∈ partSet (3 : Fin 4), g q :=
  sum_emb 4 103 99 (by norm_num) (by norm_num) (by norm_num) (by norm_num) (partSet (3 : Fin 4))
    (fun q => by
      rw [mem_partSet]
      show (q.val = 3 + 1 ∨ 103 ≤ q.val ∧ q.val < 201) ↔ (q.val = 4 ∨ 103 ≤ q.val ∧ q.val < 103 + (99 - 1))
      omega) g

/-- The token at an offset of part 4's range. -/
def off4 : Fin 98 → Fin 201 := shift 103 98 (by norm_num)

/-- Summing over the offsets of part 4's range is summing over row 3's range. -/
theorem sum_off4 (g : Fin 201 → EReal) : ∑ k : Fin 98, g (off4 k) = ∑ q ∈ rangeSet (3 : Fin 4), g q :=
  sum_shift 103 98 (by norm_num) (rangeSet (3 : Fin 4))
    (fun q => by
      rw [mem_rangeSet]
      show (103 ≤ q.val ∧ q.val < 201) ↔ (103 ≤ q.val ∧ q.val < 103 + 98)
      omega) g

/-- Position 0 is the class token. -/
theorem pos4_zero : pos4 (0 : Fin 99) = tok (3 : Fin 4) := rfl

/-- Position k + 1 is the range's token at offset k. -/
theorem pos4_succ (k : Fin 98) : pos4 ⟨k.val + 1, by have := k.isLt; omega⟩ = off4 k := by
  refine Fin.ext ?_
  unfold pos4 off4
  rw [emb_val]
  show (if k.val + 1 = 0 then 4 else 103 + (k.val + 1 - 1)) = 103 + k.val
  rw [if_neg (by omega)]
  omega

/-- The index vector of part 4: the token of each position, as a word. -/
theorem idxvec4 (k : Fin 99) : val_main_v231 (F := Ideal) (ix1 k) = BitVec.ofNat 32 (pos4 k).val := by
  unfold val_main_v231 pos4
  rw [emb_val]
  by_cases hk : k.val = 0
  · rw [if_pos hk]
    exact concatenate_pair_apply_left (0 : Fin S99.rank) (val_main_c_3 (F := Ideal)) (val_main_v230 (F := Ideal)) concatenates_S1_S98_S99_d0 (ix1 k) rfl
      (ix1 (0 : Fin 1)) (fun b => match b with | ⟨0, _⟩ => hk.symm)
  · rw [if_neg hk]
    refine (concatenate_pair_apply_right (0 : Fin S99.rank) (val_main_c_3 (F := Ideal)) (val_main_v230 (F := Ideal)) concatenates_S1_S98_S99_d0 (ix1 k) rfl rfl
      (ix1 (⟨k.val - 1, by have := k.isLt; omega⟩ : Fin 98)) (fun b hb => match b, hb with | ⟨0, _⟩, hb => absurd rfl hb)
      (by show k.val - 1 + 1 = k.val; omega)).trans ?_
    rw [val_main_v230_apply, val_main_v229_apply, val_main_c_24_apply, val_main_v228_apply]
    exact addi_ofNat 103 (k.val - 1)

/-- The row gather's start indices: the index vector. -/
theorem rowidx4 (k : Fin 99) : val_main_v237 (F := Ideal) (ix2 k (0 : Fin 1)) = BitVec.ofNat 32 (pos4 k).val := by
  rw [val_main_v237_apply, show idx_main_v237 (ix2 k (0 : Fin 1)) = ix1 k from funext fun a => by match a with | ⟨0, _⟩ => rfl,
    val_main_v236_apply, val_main_v233_apply, val_main_v232_apply, val_main_c_25_apply, idxvec4]
  exact select_neg_ofNat _ (by have := (pos4 k).isLt; omega) _

/-- The column gather's start indices: the index vector again. -/
theorem colidx4 (k : Fin 99) : val_main_v244 (F := Ideal) (ix2 k (0 : Fin 1)) = BitVec.ofNat 32 (pos4 k).val := by
  rw [val_main_v244_apply, show idx_main_v244 (ix2 k (0 : Fin 1)) = ix1 k from funext fun a => by match a with | ⟨0, _⟩ => rfl,
    val_main_v243_apply, val_main_v240_apply, val_main_v239_apply, val_main_c_27_apply, idxvec4]
  exact select_neg_ofNat _ (by have := (pos4 k).isLt; omega) _

/-- The gathered stack of matrices of part 4 at (layer, batch, r, c): the argument at the positions' tokens. -/
theorem gathered4 (x : SX.Idx → EReal) (l : Fin 12) (b : Fin 64) (r c : Fin 99) :
    val_main_v245 (F := Ideal) x (ix4 l b r c) = x (ix4 l b (pos4 r) (pos4 c)) := by
  have hc : min (val_main_v244 (F := Ideal) (ix2 c (0 : Fin 1))).toInt.toNat (201 - 1) = (pos4 c).val := by
    rw [colidx4 c]; exact clamp_ofNat _ 201 (pos4 c).isLt (by norm_num)
  have hr : min (val_main_v237 (F := Ideal) (ix2 r (0 : Fin 1))).toInt.toNat (201 - 1) = (pos4 r).val := by
    rw [rowidx4 r]; exact clamp_ofNat _ 201 (pos4 r).isLt (by norm_num)
  unfold val_main_v245
  refine (gather_cols_at gather_S12x64x99x201_S99x1_S12x64x99x99_012_3_n_n_3_1_1264991_wf (by norm_num) (val_main_v238 (F := Ideal) x) (val_main_v244 (F := Ideal)) l b r c (pos4 c) hc).trans ?_
  unfold val_main_v238
  exact gather_rows_at gather_S12x64x201x201_S99x1_S12x64x99x201_013_2_n_n_2_1_12641201_wf (by norm_num) x (val_main_v237 (F := Ideal)) l b r (pos4 c) (pos4 r) hr

/-- The re-laying of a one-layer slice as a batch of matrices reads (0, b, r, c) at (b, r, c). -/
theorem resh4 (b : Fin 64) (r c : Fin 99) : idx_main_v247 (ix3 b r c) = ix4 (0 : Fin 1) b r c :=
  funext fun a => Fin.ext (by
    have hb := b.isLt; have hr := r.isLt; have hc := c.isLt
    match a with
    | ⟨0, _⟩ => rfl
    | ⟨1, _⟩ => show ((b.val * 99 + r.val) * 99 + c.val) / 9801 % 64 = b.val; omega
    | ⟨2, _⟩ => show ((b.val * 99 + r.val) * 99 + c.val) / 99 % 99 = r.val; omega
    | ⟨3, _⟩ => show ((b.val * 99 + r.val) * 99 + c.val) % 99 = c.val; omega)

/-- A matrix product's left operand is read at (b, r, k), -/
theorem lidx4 (b : Fin 64) (r c k : Fin 99) : lidx_main_v250 (ix3 b r c) k = ix3 b r k :=
  funext fun a => by match a with | ⟨0, _⟩ => rfl | ⟨1, _⟩ => rfl | ⟨2, _⟩ => rfl
/-- and its right operand at (b, k, c). -/
theorem ridx4 (b : Fin 64) (r c k : Fin 99) : ridx_main_v250 (ix3 b r c) k = ix3 b k c :=
  funext fun a => by match a with | ⟨0, _⟩ => rfl | ⟨1, _⟩ => rfl | ⟨2, _⟩ => rfl

/-- Layer 0 of part 4. -/
theorem layer4_0 (x : SX.Idx → EReal) (b : Fin 64) (r c : Fin 99) :
    val_main_v247 (F := Ideal) x (ix3 b r c) = x (ix4 (0 : Fin 12) b (pos4 r) (pos4 c)) := by
  rw [val_main_v247_apply, show idx_main_v247 (ix3 b r c) = ix4 (0 : Fin 1) b r c from resh4 b r c, val_main_v246_apply,
    show idx_main_v246 (ix4 (0 : Fin 1) b r c) = ix4 (0 : Fin 12) b r c from
      funext fun a => Fin.ext (by match a with | ⟨0, _⟩ => rfl | ⟨1, _⟩ => rfl | ⟨2, _⟩ => rfl | ⟨3, _⟩ => rfl)]
  exact gathered4 x _ b r c

/-- Layer 1 of part 4. -/
theorem layer4_1 (x : SX.Idx → EReal) (b : Fin 64) (r c : Fin 99) :
    val_main_v249 (F := Ideal) x (ix3 b r c) = x (ix4 (1 : Fin 12) b (pos4 r) (pos4 c)) := by
  rw [val_main_v249_apply, show idx_main_v249 (ix3 b r c) = ix4 (0 : Fin 1) b r c from resh4 b r c, val_main_v248_apply,
    show idx_main_v248 (ix4 (0 : Fin 1) b r c) = ix4 (1 : Fin 12) b r c from
      funext fun a => Fin.ext (by match a with | ⟨0, _⟩ => rfl | ⟨1, _⟩ => rfl | ⟨2, _⟩ => rfl | ⟨3, _⟩ => rfl)]
  exact gathered4 x _ b r c

/-- Layer 2 of part 4. -/
theorem layer4_2 (x : SX.Idx → EReal) (b : Fin 64) (r c : Fin 99) :
    val_main_v252 (F := Ideal) x (ix3 b r c) = x (ix4 (2 : Fin 12) b (pos4 r) (pos4 c)) := by
  rw [val_main_v252_apply, show idx_main_v252 (ix3 b r c) = ix4 (0 : Fin 1) b r c from resh4 b r c, val_main_v251_apply,
    show idx_main_v251 (ix4 (0 : Fin 1) b r c) = ix4 (2 : Fin 12) b r c from
      funext fun a => Fin.ext (by match a with | ⟨0, _⟩ => rfl | ⟨1, _⟩ => rfl | ⟨2, _⟩ => rfl | ⟨3, _⟩ => rfl)]
  exact gathered4 x _ b r c

/-- Layer 3 of part 4. -/
theorem layer4_3 (x : SX.Idx → EReal) (b : Fin 64) (r c : Fin 99) :
    val_main_v255 (F := Ideal) x (ix3 b r c) = x (ix4 (3 : Fin 12) b (pos4 r) (pos4 c)) := by
  rw [val_main_v255_apply, show idx_main_v255 (ix3 b r c) = ix4 (0 : Fin 1) b r c from resh4 b r c, val_main_v254_apply,
    show idx_main_v254 (ix4 (0 : Fin 1) b r c) = ix4 (3 : Fin 12) b r c from
      funext fun a => Fin.ext (by match a with | ⟨0, _⟩ => rfl | ⟨1, _⟩ => rfl | ⟨2, _⟩ => rfl | ⟨3, _⟩ => rfl)]
  exact gathered4 x _ b r c

/-- Layer 4 of part 4. -/
theorem layer4_4 (x : SX.Idx → EReal) (b : Fin 64) (r c : Fin 99) :
    val_main_v258 (F := Ideal) x (ix3 b r c) = x (ix4 (4 : Fin 12) b (pos4 r) (pos4 c)) := by
  rw [val_main_v258_apply, show idx_main_v258 (ix3 b r c) = ix4 (0 : Fin 1) b r c from resh4 b r c, val_main_v257_apply,
    show idx_main_v257 (ix4 (0 : Fin 1) b r c) = ix4 (4 : Fin 12) b r c from
      funext fun a => Fin.ext (by match a with | ⟨0, _⟩ => rfl | ⟨1, _⟩ => rfl | ⟨2, _⟩ => rfl | ⟨3, _⟩ => rfl)]
  exact gathered4 x _ b r c

/-- Layer 5 of part 4. -/
theorem layer4_5 (x : SX.Idx → EReal) (b : Fin 64) (r c : Fin 99) :
    val_main_v261 (F := Ideal) x (ix3 b r c) = x (ix4 (5 : Fin 12) b (pos4 r) (pos4 c)) := by
  rw [val_main_v261_apply, show idx_main_v261 (ix3 b r c) = ix4 (0 : Fin 1) b r c from resh4 b r c, val_main_v260_apply,
    show idx_main_v260 (ix4 (0 : Fin 1) b r c) = ix4 (5 : Fin 12) b r c from
      funext fun a => Fin.ext (by match a with | ⟨0, _⟩ => rfl | ⟨1, _⟩ => rfl | ⟨2, _⟩ => rfl | ⟨3, _⟩ => rfl)]
  exact gathered4 x _ b r c

/-- Layer 6 of part 4. -/
theorem layer4_6 (x : SX.Idx → EReal) (b : Fin 64) (r c : Fin 99) :
    val_main_v264 (F := Ideal) x (ix3 b r c) = x (ix4 (6 : Fin 12) b (pos4 r) (pos4 c)) := by
  rw [val_main_v264_apply, show idx_main_v264 (ix3 b r c) = ix4 (0 : Fin 1) b r c from resh4 b r c, val_main_v263_apply,
    show idx_main_v263 (ix4 (0 : Fin 1) b r c) = ix4 (6 : Fin 12) b r c from
      funext fun a => Fin.ext (by match a with | ⟨0, _⟩ => rfl | ⟨1, _⟩ => rfl | ⟨2, _⟩ => rfl | ⟨3, _⟩ => rfl)]
  exact gathered4 x _ b r c

/-- Layer 7 of part 4. -/
theorem layer4_7 (x : SX.Idx → EReal) (b : Fin 64) (r c : Fin 99) :
    val_main_v267 (F := Ideal) x (ix3 b r c) = x (ix4 (7 : Fin 12) b (pos4 r) (pos4 c)) := by
  rw [val_main_v267_apply, show idx_main_v267 (ix3 b r c) = ix4 (0 : Fin 1) b r c from resh4 b r c, val_main_v266_apply,
    show idx_main_v266 (ix4 (0 : Fin 1) b r c) = ix4 (7 : Fin 12) b r c from
      funext fun a => Fin.ext (by match a with | ⟨0, _⟩ => rfl | ⟨1, _⟩ => rfl | ⟨2, _⟩ => rfl | ⟨3, _⟩ => rfl)]
  exact gathered4 x _ b r c

/-- Layer 8 of part 4. -/
theorem layer4_8 (x : SX.Idx → EReal) (b : Fin 64) (r c : Fin 99) :
    val_main_v270 (F := Ideal) x (ix3 b r c) = x (ix4 (8 : Fin 12) b (pos4 r) (pos4 c)) := by
  rw [val_main_v270_apply, show idx_main_v270 (ix3 b r c) = ix4 (0 : Fin 1) b r c from resh4 b r c, val_main_v269_apply,
    show idx_main_v269 (ix4 (0 : Fin 1) b r c) = ix4 (8 : Fin 12) b r c from
      funext fun a => Fin.ext (by match a with | ⟨0, _⟩ => rfl | ⟨1, _⟩ => rfl | ⟨2, _⟩ => rfl | ⟨3, _⟩ => rfl)]
  exact gathered4 x _ b r c

/-- Layer 9 of part 4. -/
theorem layer4_9 (x : SX.Idx → EReal) (b : Fin 64) (r c : Fin 99) :
    val_main_v273 (F := Ideal) x (ix3 b r c) = x (ix4 (9 : Fin 12) b (pos4 r) (pos4 c)) := by
  rw [val_main_v273_apply, show idx_main_v273 (ix3 b r c) = ix4 (0 : Fin 1) b r c from resh4 b r c, val_main_v272_apply,
    show idx_main_v272 (ix4 (0 : Fin 1) b r c) = ix4 (9 : Fin 12) b r c from
      funext fun a => Fin.ext (by match a with | ⟨0, _⟩ => rfl | ⟨1, _⟩ => rfl | ⟨2, _⟩ => rfl | ⟨3, _⟩ => rfl)]
  exact gathered4 x _ b r c

/-- Layer 10 of part 4. -/
theorem layer4_10 (x : SX.Idx → EReal) (b : Fin 64) (r c : Fin 99) :
    val_main_v276 (F := Ideal) x (ix3 b r c) = x (ix4 (10 : Fin 12) b (pos4 r) (pos4 c)) := by
  rw [val_main_v276_apply, show idx_main_v276 (ix3 b r c) = ix4 (0 : Fin 1) b r c from resh4 b r c, val_main_v275_apply,
    show idx_main_v275 (ix4 (0 : Fin 1) b r c) = ix4 (10 : Fin 12) b r c from
      funext fun a => Fin.ext (by match a with | ⟨0, _⟩ => rfl | ⟨1, _⟩ => rfl | ⟨2, _⟩ => rfl | ⟨3, _⟩ => rfl)]
  exact gathered4 x _ b r c

/-- Layer 11 of part 4. -/
theorem layer4_11 (x : SX.Idx → EReal) (b : Fin 64) (r c : Fin 99) :
    val_main_v279 (F := Ideal) x (ix3 b r c) = x (ix4 (11 : Fin 12) b (pos4 r) (pos4 c)) := by
  rw [val_main_v279_apply, show idx_main_v279 (ix3 b r c) = ix4 (0 : Fin 1) b r c from resh4 b r c, val_main_v278_apply,
    show idx_main_v278 (ix4 (0 : Fin 1) b r c) = ix4 (11 : Fin 12) b r c from
      funext fun a => Fin.ext (by match a with | ⟨0, _⟩ => rfl | ⟨1, _⟩ => rfl | ⟨2, _⟩ => rfl | ⟨3, _⟩ => rfl)]
  exact gathered4 x _ b r c

/-- The chain's start: layer 0. -/
theorem chain4_0 (x : SX.Idx → EReal) (b : Fin 64) (r c : Fin 99) :
    val_main_v247 (F := Ideal) x (ix3 b r c) = chain x (3 : Fin 4) 0 b (pos4 r) (pos4 c) :=
  layer4_0 x b r c

/-- The product of the layers 0 .. 1 of part 4. -/
theorem chain4_1 (x : SX.Idx → EReal) (b : Fin 64) (r c : Fin 99) :
    val_main_v250 (F := Ideal) x (ix3 b r c) = chain x (3 : Fin 4) 1 b (pos4 r) (pos4 c) :=
  chain_step (3 : Fin 4) pos4 sum_pos4 x 0 (by norm_num) (1 : Fin 12) rfl
    (fun b r c => val_main_v249 (F := Ideal) x (ix3 b r c)) (fun b r c => val_main_v247 (F := Ideal) x (ix3 b r c))
    (fun b r c => val_main_v250 (F := Ideal) x (ix3 b r c))
    (layer4_1 x) (chain4_0 x)
    (fun b r c => by
      rw [val_main_v250_apply]
      refine Finset.sum_congr rfl fun k _ => ?_
      rw [show lidx_main_v250 (ix3 b r c) k = ix3 b r k from lidx4 b r c k,
        show ridx_main_v250 (ix3 b r c) k = ix3 b k c from ridx4 b r c k]) b r c

/-- The product of the layers 0 .. 2 of part 4. -/
theorem chain4_2 (x : SX.Idx → EReal) (b : Fin 64) (r c : Fin 99) :
    val_main_v253 (F := Ideal) x (ix3 b r c) = chain x (3 : Fin 4) 2 b (pos4 r) (pos4 c) :=
  chain_step (3 : Fin 4) pos4 sum_pos4 x 1 (by norm_num) (2 : Fin 12) rfl
    (fun b r c => val_main_v252 (F := Ideal) x (ix3 b r c)) (fun b r c => val_main_v250 (F := Ideal) x (ix3 b r c))
    (fun b r c => val_main_v253 (F := Ideal) x (ix3 b r c))
    (layer4_2 x) (chain4_1 x)
    (fun b r c => by
      rw [val_main_v253_apply]
      refine Finset.sum_congr rfl fun k _ => ?_
      rw [show lidx_main_v253 (ix3 b r c) k = ix3 b r k from lidx4 b r c k,
        show ridx_main_v253 (ix3 b r c) k = ix3 b k c from ridx4 b r c k]) b r c

/-- The product of the layers 0 .. 3 of part 4. -/
theorem chain4_3 (x : SX.Idx → EReal) (b : Fin 64) (r c : Fin 99) :
    val_main_v256 (F := Ideal) x (ix3 b r c) = chain x (3 : Fin 4) 3 b (pos4 r) (pos4 c) :=
  chain_step (3 : Fin 4) pos4 sum_pos4 x 2 (by norm_num) (3 : Fin 12) rfl
    (fun b r c => val_main_v255 (F := Ideal) x (ix3 b r c)) (fun b r c => val_main_v253 (F := Ideal) x (ix3 b r c))
    (fun b r c => val_main_v256 (F := Ideal) x (ix3 b r c))
    (layer4_3 x) (chain4_2 x)
    (fun b r c => by
      rw [val_main_v256_apply]
      refine Finset.sum_congr rfl fun k _ => ?_
      rw [show lidx_main_v256 (ix3 b r c) k = ix3 b r k from lidx4 b r c k,
        show ridx_main_v256 (ix3 b r c) k = ix3 b k c from ridx4 b r c k]) b r c

/-- The product of the layers 0 .. 4 of part 4. -/
theorem chain4_4 (x : SX.Idx → EReal) (b : Fin 64) (r c : Fin 99) :
    val_main_v259 (F := Ideal) x (ix3 b r c) = chain x (3 : Fin 4) 4 b (pos4 r) (pos4 c) :=
  chain_step (3 : Fin 4) pos4 sum_pos4 x 3 (by norm_num) (4 : Fin 12) rfl
    (fun b r c => val_main_v258 (F := Ideal) x (ix3 b r c)) (fun b r c => val_main_v256 (F := Ideal) x (ix3 b r c))
    (fun b r c => val_main_v259 (F := Ideal) x (ix3 b r c))
    (layer4_4 x) (chain4_3 x)
    (fun b r c => by
      rw [val_main_v259_apply]
      refine Finset.sum_congr rfl fun k _ => ?_
      rw [show lidx_main_v259 (ix3 b r c) k = ix3 b r k from lidx4 b r c k,
        show ridx_main_v259 (ix3 b r c) k = ix3 b k c from ridx4 b r c k]) b r c

/-- The product of the layers 0 .. 5 of part 4. -/
theorem chain4_5 (x : SX.Idx → EReal) (b : Fin 64) (r c : Fin 99) :
    val_main_v262 (F := Ideal) x (ix3 b r c) = chain x (3 : Fin 4) 5 b (pos4 r) (pos4 c) :=
  chain_step (3 : Fin 4) pos4 sum_pos4 x 4 (by norm_num) (5 : Fin 12) rfl
    (fun b r c => val_main_v261 (F := Ideal) x (ix3 b r c)) (fun b r c => val_main_v259 (F := Ideal) x (ix3 b r c))
    (fun b r c => val_main_v262 (F := Ideal) x (ix3 b r c))
    (layer4_5 x) (chain4_4 x)
    (fun b r c => by
      rw [val_main_v262_apply]
      refine Finset.sum_congr rfl fun k _ => ?_
      rw [show lidx_main_v262 (ix3 b r c) k = ix3 b r k from lidx4 b r c k,
        show ridx_main_v262 (ix3 b r c) k = ix3 b k c from ridx4 b r c k]) b r c

/-- The product of the layers 0 .. 6 of part 4. -/
theorem chain4_6 (x : SX.Idx → EReal) (b : Fin 64) (r c : Fin 99) :
    val_main_v265 (F := Ideal) x (ix3 b r c) = chain x (3 : Fin 4) 6 b (pos4 r) (pos4 c) :=
  chain_step (3 : Fin 4) pos4 sum_pos4 x 5 (by norm_num) (6 : Fin 12) rfl
    (fun b r c => val_main_v264 (F := Ideal) x (ix3 b r c)) (fun b r c => val_main_v262 (F := Ideal) x (ix3 b r c))
    (fun b r c => val_main_v265 (F := Ideal) x (ix3 b r c))
    (layer4_6 x) (chain4_5 x)
    (fun b r c => by
      rw [val_main_v265_apply]
      refine Finset.sum_congr rfl fun k _ => ?_
      rw [show lidx_main_v265 (ix3 b r c) k = ix3 b r k from lidx4 b r c k,
        show ridx_main_v265 (ix3 b r c) k = ix3 b k c from ridx4 b r c k]) b r c

/-- The product of the layers 0 .. 7 of part 4. -/
theorem chain4_7 (x : SX.Idx → EReal) (b : Fin 64) (r c : Fin 99) :
    val_main_v268 (F := Ideal) x (ix3 b r c) = chain x (3 : Fin 4) 7 b (pos4 r) (pos4 c) :=
  chain_step (3 : Fin 4) pos4 sum_pos4 x 6 (by norm_num) (7 : Fin 12) rfl
    (fun b r c => val_main_v267 (F := Ideal) x (ix3 b r c)) (fun b r c => val_main_v265 (F := Ideal) x (ix3 b r c))
    (fun b r c => val_main_v268 (F := Ideal) x (ix3 b r c))
    (layer4_7 x) (chain4_6 x)
    (fun b r c => by
      rw [val_main_v268_apply]
      refine Finset.sum_congr rfl fun k _ => ?_
      rw [show lidx_main_v268 (ix3 b r c) k = ix3 b r k from lidx4 b r c k,
        show ridx_main_v268 (ix3 b r c) k = ix3 b k c from ridx4 b r c k]) b r c

/-- The product of the layers 0 .. 8 of part 4. -/
theorem chain4_8 (x : SX.Idx → EReal) (b : Fin 64) (r c : Fin 99) :
    val_main_v271 (F := Ideal) x (ix3 b r c) = chain x (3 : Fin 4) 8 b (pos4 r) (pos4 c) :=
  chain_step (3 : Fin 4) pos4 sum_pos4 x 7 (by norm_num) (8 : Fin 12) rfl
    (fun b r c => val_main_v270 (F := Ideal) x (ix3 b r c)) (fun b r c => val_main_v268 (F := Ideal) x (ix3 b r c))
    (fun b r c => val_main_v271 (F := Ideal) x (ix3 b r c))
    (layer4_8 x) (chain4_7 x)
    (fun b r c => by
      rw [val_main_v271_apply]
      refine Finset.sum_congr rfl fun k _ => ?_
      rw [show lidx_main_v271 (ix3 b r c) k = ix3 b r k from lidx4 b r c k,
        show ridx_main_v271 (ix3 b r c) k = ix3 b k c from ridx4 b r c k]) b r c

/-- The product of the layers 0 .. 9 of part 4. -/
theorem chain4_9 (x : SX.Idx → EReal) (b : Fin 64) (r c : Fin 99) :
    val_main_v274 (F := Ideal) x (ix3 b r c) = chain x (3 : Fin 4) 9 b (pos4 r) (pos4 c) :=
  chain_step (3 : Fin 4) pos4 sum_pos4 x 8 (by norm_num) (9 : Fin 12) rfl
    (fun b r c => val_main_v273 (F := Ideal) x (ix3 b r c)) (fun b r c => val_main_v271 (F := Ideal) x (ix3 b r c))
    (fun b r c => val_main_v274 (F := Ideal) x (ix3 b r c))
    (layer4_9 x) (chain4_8 x)
    (fun b r c => by
      rw [val_main_v274_apply]
      refine Finset.sum_congr rfl fun k _ => ?_
      rw [show lidx_main_v274 (ix3 b r c) k = ix3 b r k from lidx4 b r c k,
        show ridx_main_v274 (ix3 b r c) k = ix3 b k c from ridx4 b r c k]) b r c

/-- The product of the layers 0 .. 10 of part 4. -/
theorem chain4_10 (x : SX.Idx → EReal) (b : Fin 64) (r c : Fin 99) :
    val_main_v277 (F := Ideal) x (ix3 b r c) = chain x (3 : Fin 4) 10 b (pos4 r) (pos4 c) :=
  chain_step (3 : Fin 4) pos4 sum_pos4 x 9 (by norm_num) (10 : Fin 12) rfl
    (fun b r c => val_main_v276 (F := Ideal) x (ix3 b r c)) (fun b r c => val_main_v274 (F := Ideal) x (ix3 b r c))
    (fun b r c => val_main_v277 (F := Ideal) x (ix3 b r c))
    (layer4_10 x) (chain4_9 x)
    (fun b r c => by
      rw [val_main_v277_apply]
      refine Finset.sum_congr rfl fun k _ => ?_
      rw [show lidx_main_v277 (ix3 b r c) k = ix3 b r k from lidx4 b r c k,
        show ridx_main_v277 (ix3 b r c) k = ix3 b k c from ridx4 b r c k]) b r c

/-- The product of the layers 0 .. 11 of part 4. -/
theorem chain4_11 (x : SX.Idx → EReal) (b : Fin 64) (r c : Fin 99) :
    val_main_v280 (F := Ideal) x (ix3 b r c) = chain x (3 : Fin 4) 11 b (pos4 r) (pos4 c) :=
  chain_step (3 : Fin 4) pos4 sum_pos4 x 10 (by norm_num) (11 : Fin 12) rfl
    (fun b r c => val_main_v279 (F := Ideal) x (ix3 b r c)) (fun b r c => val_main_v277 (F := Ideal) x (ix3 b r c))
    (fun b r c => val_main_v280 (F := Ideal) x (ix3 b r c))
    (layer4_11 x) (chain4_10 x)
    (fun b r c => by
      rw [val_main_v280_apply]
      refine Finset.sum_congr rfl fun k _ => ?_
      rw [show lidx_main_v280 (ix3 b r c) k = ix3 b r k from lidx4 b r c k,
        show ridx_main_v280 (ix3 b r c) k = ix3 b k c from ridx4 b r c k]) b r c

/-- The result row of part 4: the specification's row 3. -/
theorem part4_out (x : SX.Idx → EReal) (f : SF.Idx → EReal) (b : Fin 64) (d : Fin 768) :
    val_main_v284 (F := Ideal) x f (ix3 b (0 : Fin 1) d) = chainOut x f b (3 : Fin 4) d := by
  rw [val_main_v284_apply]
  refine (Finset.sum_congr rfl fun k _ => ?_).trans (out_row (3 : Fin 4) off4 sum_off4 x f b d
    (fun k => chain x (3 : Fin 4) 11 b (tok (3 : Fin 4)) (off4 k)) (fun k => max (f (ix3 b (off4 k) d)) 0)
    (fun _ => rfl) (fun _ => rfl))
  have hw : val_main_v281 (F := Ideal) x (lidx_main_v284 (ix3 b (0 : Fin 1) d) k)
      = chain x (3 : Fin 4) 11 b (tok (3 : Fin 4)) (off4 k) := by
    rw [show lidx_main_v284 (ix3 b (0 : Fin 1) d) k = ix3 b (0 : Fin 1) k from funext fun a => by match a with | ⟨0, _⟩ => rfl | ⟨1, _⟩ => rfl | ⟨2, _⟩ => rfl,
      val_main_v281_apply,
      show idx_main_v281 (ix3 b (0 : Fin 1) k) = ix3 b (0 : Fin 99) (⟨k.val + 1, by have := k.isLt; omega⟩ : Fin 99) from
        funext fun a => Fin.ext (by
          match a with
          | ⟨0, _⟩ => rfl
          | ⟨1, _⟩ => rfl
          | ⟨2, _⟩ => show 1 + k.val = k.val + 1; omega),
      chain4_11 x b _ _, pos4_zero, pos4_succ k]
  have hr : val_main_v283 (F := Ideal) f (ridx_main_v284 (ix3 b (0 : Fin 1) d) k) = max (f (ix3 b (off4 k) d)) 0 := by
    rw [show ridx_main_v284 (ix3 b (0 : Fin 1) d) k = ix3 b k d from funext fun a => by match a with | ⟨0, _⟩ => rfl | ⟨1, _⟩ => rfl | ⟨2, _⟩ => rfl,
      val_main_v283_apply, val_main_v282_apply, val_main_call4_v0_apply, val_main_call4_cst_apply,
      show idx_main_v282 (ix3 b k d) = ix3 b (off4 k) d from funext fun a => Fin.ext (by match a with | ⟨0, _⟩ => rfl | ⟨1, _⟩ => rfl | ⟨2, _⟩ => rfl)]
    show max (f (ix3 b (off4 k) d)) (Ideal.ofBits .f32 0x00000000#32) = max (f (ix3 b (off4 k) d)) 0
    rw [Ideal.ofBits_zero_f32]
  rw [hw, hr]

end Cert.ReferenceIdeal.RefValue

end
-- ==== Proof.RefStage.lean ====
/-
  The reference's last stage. Its result is the concatenation of the five parts' rows with row 0 dropped: row e of the
  result is part e + 1's row, the specification's row e. So the last stage is the specification's chained side.
-/
import proofs.«109065_j67542655697208_2_alg».proof.Proof.RefRead
import proofs.«109065_j67542655697208_2_alg».proof.Proof.RefP1
import proofs.«109065_j67542655697208_2_alg».proof.Proof.RefP2
import proofs.«109065_j67542655697208_2_alg».proof.Proof.RefP3
import proofs.«109065_j67542655697208_2_alg».proof.Proof.RefP4

noncomputable section

open scoped BigOperators

namespace Cert.ReferenceIdeal.RefValue

open Cert.ReferenceIdeal Cert.ReferenceIdeal.Gen Cert.ReferenceIdeal.ReadP Cert.Rollout
open Idealize.ShloMosaic Idealize.ShloMosaic.TcCoe Idealize.SL.Sem Idealize.ShloMosaic.StableHlo Idealize.ShloMosaic.ValueIdx

/-- The last stage at (b, e, d): the specification's row e. -/
theorem stage_apply (x : SX.Idx → EReal) (f : SF.Idx → EReal) (b : Fin 64) (e : Fin 4) (d : Fin 768) :
    val_main_v286 (F := Ideal) x f (ix3 b e d) = chainOut x f b e d := by
  rw [val_main_v286_apply]
  unfold val_main_v285
  match e with
  | ⟨0, _⟩ =>
    exact (concatenate_apply_piece (1 : Fin S64x5x768.rank)
      [⟨S64x1x768, val_main_v56 (F := Ideal) x f⟩, ⟨S64x1x768, val_main_v113 (F := Ideal) x f⟩, ⟨S64x1x768, val_main_v170 (F := Ideal) x f⟩, ⟨S64x1x768, val_main_v227 (F := Ideal) x f⟩, ⟨S64x1x768, val_main_v284 (F := Ideal) x f⟩]
      concatenates_S64x1x768_S64x1x768_S64x1x768_S64x1x768_S64x1x768_S64x5x768_d1
      (idx_main_v286 (ix3 b (0 : Fin 4) d)) 1 (by show (1 : ℕ) < 5; omega) S64x1x768 (val_main_v113 (F := Ideal) x f) rfl rfl 1 rfl (ix3 b (0 : Fin 1) d)
      (fun a ha => match a, ha with
        | ⟨0, _⟩, _ => rfl
        | ⟨1, _⟩, ha => absurd rfl ha
        | ⟨2, _⟩, _ => rfl) rfl).trans (part1_out x f b d)
  | ⟨1, _⟩ =>
    exact (concatenate_apply_piece (1 : Fin S64x5x768.rank)
      [⟨S64x1x768, val_main_v56 (F := Ideal) x f⟩, ⟨S64x1x768, val_main_v113 (F := Ideal) x f⟩, ⟨S64x1x768, val_main_v170 (F := Ideal) x f⟩, ⟨S64x1x768, val_main_v227 (F := Ideal) x f⟩, ⟨S64x1x768, val_main_v284 (F := Ideal) x f⟩]
      concatenates_S64x1x768_S64x1x768_S64x1x768_S64x1x768_S64x1x768_S64x5x768_d1
      (idx_main_v286 (ix3 b (1 : Fin 4) d)) 2 (by show (2 : ℕ) < 5; omega) S64x1x768 (val_main_v170 (F := Ideal) x f) rfl rfl 2 rfl (ix3 b (0 : Fin 1) d)
      (fun a ha => match a, ha with
        | ⟨0, _⟩, _ => rfl
        | ⟨1, _⟩, ha => absurd rfl ha
        | ⟨2, _⟩, _ => rfl) rfl).trans (part2_out x f b d)
  | ⟨2, _⟩ =>
    exact (concatenate_apply_piece (1 : Fin S64x5x768.rank)
      [⟨S64x1x768, val_main_v56 (F := Ideal) x f⟩, ⟨S64x1x768, val_main_v113 (F := Ideal) x f⟩, ⟨S64x1x768, val_main_v170 (F := Ideal) x f⟩, ⟨S64x1x768, val_main_v227 (F := Ideal) x f⟩, ⟨S64x1x768, val_main_v284 (F := Ideal) x f⟩]
      concatenates_S64x1x768_S64x1x768_S64x1x768_S64x1x768_S64x1x768_S64x5x768_d1
      (idx_main_v286 (ix3 b (2 : Fin 4) d)) 3 (by show (3 : ℕ) < 5; omega) S64x1x768 (val_main_v227 (F := Ideal) x f) rfl rfl 3 rfl (ix3 b (0 : Fin 1) d)
      (fun a ha => match a, ha with
        | ⟨0, _⟩, _ => rfl
        | ⟨1, _⟩, ha => absurd rfl ha
        | ⟨2, _⟩, _ => rfl) rfl).trans (part3_out x f b d)
  | ⟨3, _⟩ =>
    exact (concatenate_apply_piece (1 : Fin S64x5x768.rank)
      [⟨S64x1x768, val_main_v56 (F := Ideal) x f⟩, ⟨S64x1x768, val_main_v113 (F := Ideal) x f⟩, ⟨S64x1x768, val_main_v170 (F := Ideal) x f⟩, ⟨S64x1x768, val_main_v227 (F := Ideal) x f⟩, ⟨S64x1x768, val_main_v284 (F := Ideal) x f⟩]
      concatenates_S64x1x768_S64x1x768_S64x1x768_S64x1x768_S64x1x768_S64x5x768_d1
      (idx_main_v286 (ix3 b (3 : Fin 4) d)) 4 (by show (4 : ℕ) < 5; omega) S64x1x768 (val_main_v284 (F := Ideal) x f) rfl rfl 4 rfl (ix3 b (0 : Fin 1) d)
      (fun a ha => match a, ha with
        | ⟨0, _⟩, _ => rfl
        | ⟨1, _⟩, ha => absurd rfl ha
        | ⟨2, _⟩, _ => rfl) rfl).trans (part4_out x f b d)

/-- The last stage is the specification's chained side. -/
theorem stage_eq (x : SX.Idx → EReal) (f : SF.Idx → EReal) :
    val_main_v286 (F := Ideal) x f = outArr (chainOut x f) := by
  funext i
  obtain ⟨b, e, d, rfl⟩ : ∃ (b : Fin 64) (e : Fin 4) (d : Fin 768), i = ix3 b e d := ⟨i 0, i 1, i 2, eq_ix3 i⟩
  exact stage_apply x f b e d

end Cert.ReferenceIdeal.RefValue

end
-- ==== Proof.RefOut.lean ====
/-
  The reference's value: what its run leaves in its result buffer is the specification's chained side of its two arguments.
  The run ends with the result at the operations' composed term; that term is the last stage, and the last stage is the
  specification's chained side.
-/
import proofs.«109065_j67542655697208_2_alg».proof.Proof.RefBase
import proofs.«109065_j67542655697208_2_alg».proof.Proof.RefStage

noncomputable section

namespace Cert.ReferenceIdeal.RefValue

open Cert.ReferenceIdeal Cert.ReferenceIdeal.Gen Cert.ReferenceIdeal.ReadP Cert.Rollout
open Idealize.ShloMosaic Idealize.ShloMosaic.TcCoe Idealize.SL.Sem Idealize.ShloMosaic.StableHlo Idealize.ShloMosaic.ValueIdx

/-- The reference's run: every weakly fair execution terminates with the result buffer at the specification's chained side
    of the two arguments, and the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v286)
            = Cert.Rollout.outArr (Cert.Rollout.chainOut
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((res_eq_stage (F := Ideal) m c).trans (stage_eq _ _)), (h c).2⟩)
    (Cert.ReferenceIdeal.ValueP.run (F := Ideal) m ρ)

end Cert.ReferenceIdeal.RefValue

end
-- ==== Proof.lean ====
/-
  Twelve layers of 64 square matrices of order 201 and 64 feature matrices of 201 x 768; per batch and per part e = 1..4 the
  result row is the class token's row of the product of the twelve layers' matrices restricted to the part's index set (the class
  token and the part's token range), at the columns of the range, multiplied into the rectified features of the range.

  The reference forms that product for each part by eleven matrix products nested to the right. The kernel observes that only one
  row of the product is used and carries that row vector through the layers from the last to the first, all four parts at once
  under a 0/1 mask (a first region over a 2 x 12 grid with the vectors kept in a scratch buffer), then multiplies the tokens
  5..200 of the result into the rectified features (a second region over six column blocks).

  On the extended reals the two agree because, for REAL entries, matrix multiplication is associative and distributes over
  addition (the restricted sums are the full sums against the mask), the masked vector is zero off a part's index set, and a
  part's range lies inside both its index set and the tokens 5..200 while its class token does not: the precondition that every
  input is finite is what makes the entries real, and it is used exactly there. Changes of float format are the identity on the
  extended reals, so the projection region's roundings do not enter.

  Each program's frame — every weakly fair execution ends, nothing faults, the arguments end unchanged — is proved from its run:
  the kernel programs' on the several-regions launch, one record per region (the first region's invariant carries the scratch at
  the specification's vectors point by point), the reference's from its host run.
-/
import proofs.«109065_j67542655697208_2_alg».proof.Defs
import proofs.«109065_j67542655697208_2_alg».proof.Proof.Gen.Kernel
import proofs.«109065_j67542655697208_2_alg».proof.Proof.Gen.KernelIdeal
import proofs.«109065_j67542655697208_2_alg».proof.Proof.Gen.ReferenceIdeal
import proofs.«109065_j67542655697208_2_alg».proof.Proof.Gen.Pre_finite_inputs
import proofs.«109065_j67542655697208_2_alg».proof.Proof.FrameK
import proofs.«109065_j67542655697208_2_alg».proof.Proof.KIValue
import proofs.«109065_j67542655697208_2_alg».proof.Proof.FinKI
import proofs.«109065_j67542655697208_2_alg».proof.Proof.LawMain
import proofs.«109065_j67542655697208_2_alg».proof.Proof.RefOut

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Hand.frame (F := Bits) m ρ

/-- So does the kernel program read on the extended reals. -/
theorem frame_kernelIdeal : Cert.frame_KernelIdeal := fun m ρ _ => Cert.KernelIdeal.Hand.frame (F := Ideal) m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RefValue.ref_run m ρ)

/-- The ideal pass rewrote nothing. -/
theorem preserves : Cert.preserves_Kernel_KernelIdeal := trivial

/-- From memories agreeing on the arguments both programs run; the kernel's result is the specification's carried side, the
    reference's its chained side, and for finite inputs the two sides are one function. -/
theorem algebraic : Cert.algebraic_KernelIdeal_ReferenceIdeal := by
  intro m ρ m' ρ' hpre hagree
  refine ⟨fun c => Cert.Rollout.outArr (Cert.Rollout.carryOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Hand.run_value m ρ, ?_⟩
  refine (θ_run Cert.ReferenceIdeal.defs _ _).mono (fun _ h c => ⟨(h c).1.trans ?_, (h c).2⟩)
    (Cert.ReferenceIdeal.RefValue.ref_run m' ρ')
  obtain ⟨hx, hf⟩ := Cert.KernelIdeal.Hand.allReal_of_pre m hpre c
  rw [(hagree c).1, (hagree c).2]
  exact (congrArg Cert.Rollout.outArr (Cert.Rollout.carryOut_eq_chainOut _ _ hx hf)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
